-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S2 .f32) (main_arg13 : FVec F S2 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg8 : FVec F S64x64 .f32) (main_arg9 : FVec F S64 .f32) (main_arg10 : FVec F S64x2 .f32) (main_arg11 : FVec F S2 .f32) (main_arg12 : FVec F S2 .f32) (main_arg13 : FVec F S2 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg10
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_arg12 main_arg13 main_v48 main_v49 main_v50

def fn_part1 {F : FTy → Type} [FloatOps F] (main_arg5 : FVec F S64 .f32) (main_arg6 : FVec F S64 .f32) (main_arg7 : FVec F S64 .f32) (main_arg8 : FVec F S64x64 .f32) (main_arg9 : FVec F S64 .f32) (main_arg10 : FVec F S64x2 .f32) (main_arg11 : FVec F S2 .f32) (main_arg12 : FVec F S2 .f32) (main_arg13 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64 .f32) (main_arg7 : FVec F S64 .f32) (main_arg8 : FVec F S64x64 .f32) (main_arg9 : FVec F S64 .f32) (main_arg10 : FVec F S64x2 .f32) (main_arg11 : FVec F S2 .f32) (main_arg12 : FVec F S2 .f32) (main_arg13 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 86
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x2, .f32⟩
  | .hbm, ⟨11, _⟩ => ⟨S2, .f32⟩
  | .hbm, ⟨12, _⟩ => ⟨S2, .f32⟩
  | .hbm, ⟨13, _⟩ => ⟨S2, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S100000x64, .f32⟩
  | .hbm, ⟨32, _⟩ => ⟨S1x64, .f32⟩
  | .hbm, ⟨33, _⟩ => ⟨S1x64, .f32⟩
  | .hbm, ⟨34, _⟩ => ⟨S100000x64, .f32⟩
  | .hbm, ⟨35, _⟩ => ⟨S1x64, .f32⟩
  | .hbm, ⟨36, _⟩ => ⟨S1x64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S100000x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S1x2, .f32⟩
  | .hbm, ⟨68, _⟩ => ⟨S100000x2, .f32⟩
  | .hbm, ⟨69, _⟩ => ⟨S1x2, .f32⟩
  | .hbm, ⟨70, _⟩ => ⟨S1x2, .f32⟩
  | .hbm, ⟨71, _⟩ => ⟨S2, .f32⟩
  | .hbm, ⟨72, _⟩ => ⟨S_, .f32⟩
  | .hbm, ⟨73, _⟩ => ⟨S2, .f32⟩
  | .hbm, ⟨74, _⟩ => ⟨S2, .f32⟩
  | .hbm, ⟨75, _⟩ => ⟨S2, .f32⟩
  | .hbm, ⟨76, _⟩ => ⟨S_, .f32⟩
  | .hbm, ⟨77, _⟩ => ⟨S2, .f32⟩
  | .hbm, ⟨78, _⟩ => ⟨S2, .f32⟩
  | .hbm, ⟨79, _⟩ => ⟨S2, .f32⟩
  | .hbm, ⟨80, _⟩ => ⟨S2, .f32⟩
  | .hbm, ⟨81, _⟩ => ⟨S1x2, .f32⟩
  | .hbm, ⟨82, _⟩ => ⟨S1x2, .f32⟩
  | .hbm, ⟨83, _⟩ => ⟨S1x2, .f32⟩
  | .hbm, ⟨84, _⟩ => ⟨S1x2, .f32⟩
  | .hbm, ⟨85, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S64x2, .f32⟩
  | .local _ .vmem, ⟨23, _⟩ => ⟨S1x2, .f32⟩
  | .local _ .vmem, ⟨24, _⟩ => ⟨S5000x2, .f32⟩
  | .local _ .vmem, ⟨25, _⟩ => ⟨S5000x2, .f32⟩
  | .local _ .vmem, ⟨26, _⟩ => ⟨S1x2, .f32⟩
  | .local _ .vmem, ⟨27, _⟩ => ⟨S1x2, .f32⟩
  | .local _ .vmem, ⟨28, _⟩ => ⟨S5000x2, .f32⟩
  | .local _ .vmem, ⟨29, _⟩ => ⟨S5000x2, .f32⟩
  | .local _ .vmem, ⟨30, _⟩ => ⟨S1x2, .f32⟩
  | .local _ .vmem, ⟨31, _⟩ => ⟨S1x2, .f32⟩
  | .local _ .vmem, ⟨32, _⟩ => ⟨S1x2, .f32⟩
  | .local _ .vmem, ⟨33, _⟩ => ⟨S1x2, .f32⟩
  | .local _ .vmem, ⟨34, _⟩ => ⟨S5000x2, .f32⟩
  | .local _ .vmem, ⟨35, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev main_v17_2 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_3 : Ref sig .tc := ⟨.hbm, 52, rfl⟩
abbrev main_v31 : Ref sig .tc := ⟨.hbm, 53, rfl⟩
abbrev main_v32 : Ref sig .tc := ⟨.hbm, 54, rfl⟩
abbrev main_c_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44_0 : Ref sig .tc := ⟨.hbm, 68, rfl⟩
abbrev main_v44_1 : Ref sig .tc := ⟨.hbm, 69, rfl⟩
abbrev main_v44_2 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1x64_S1x64 : S1x64.ShapeCasts S1x64
  broadcasts_S1x64_S5000x64 : S1x64.Broadcasts S5000x64
  reduces_S5000x64_S64 : S5000x64.Reduces [0] S64
  shapeCasts_S1x64_S64 : S1x64.ShapeCasts S64
  bcast_S_S64 : S_.BroadcastsInDim S64 (![] : Fin 0 → Fin S64.rank)
  shapeCasts_S2_S1x2 : S2.ShapeCasts S1x2
  inb_S1x2_S1x2_0_0 : ∀ a, (![0, 0] : Fin 2 → Nat) a + S1x2.size a ≤ S1x2.size a
  h_S1x2 : 0 < S1x2.numel
  inb_S64x2_S64x2_0_0 : ∀ a, (![0, 0] : Fin 2 → Nat) a + S64x2.size a ≤ S64x2.size a
  h_S64x2 : 0 < S64x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  reduces_S5000x2_S2 : S5000x2.Reduces [0] S2
  shapeCasts_S1x2_S2 : S1x2.ShapeCasts S2
  bcast_S_S2 : S_.BroadcastsInDim S2 (![] : Fin 0 → Fin S2.rank)
  shapeCasts_S5000x2_S5000x2 : S5000x2.ShapeCasts S5000x2
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x2.size a ≤ S64x2.size a
  hwx2_3 : ∀ i : grid2.Coords, EltTy.bits .f32 = 32 ∨ (Rect.block (s := S64x2) S64x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x2.size a ≤ S100000x2.size a
  hwx2_5 : ∀ i : grid2.Coords, EltTy.bits .f32 = 32 ∨ (Rect.block (s := S100000x2) S5000x2.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2.size a ≤ S1x2.size a
  hwx2_6 : ∀ i : grid2.Coords, EltTy.bits .f32 = 32 ∨ (Rect.block (s := S1x2) S1x2.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x2.size a ≤ S1x2.size a
  hwx2_7 : ∀ i : grid2.Coords, EltTy.bits .f32 = 32 ∨ (Rect.block (s := S1x2) S1x2.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x2.size a ≤ S100000x2.size a
  hwx3_5 : ∀ i : grid3.Coords, EltTy.bits .f32 = 32 ∨ (Rect.block (s := S100000x2) S5000x2.size (cc3_transform_5 i) (hinb3_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v14) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S5000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S1x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17_2) S1x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44_0) S5000x2.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v44_1) S1x2.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v44_2) S1x2.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v44_0) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v56) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S5000x2.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x2 : Shape := ⟨2, ![100000, 2]⟩
abbrev S1x2 : Shape := ⟨2, ![1, 2]⟩

abbrev nBuf : Space → Nat
  | .hbm => 162
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64, .f32⟩
  | 7 => ⟨S64, .f32⟩
  | 8 => ⟨S64x64, .f32⟩
  | 9 => ⟨S64, .f32⟩
  | 10 => ⟨S64x2, .f32⟩
  | 11 => ⟨S2, .f32⟩
  | 12 => ⟨S2, .f32⟩
  | 13 => ⟨S2, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S_, .f32⟩
  | 47 => ⟨S64, .f32⟩
  | 48 => ⟨S_, .f32⟩
  | 49 => ⟨S64, .f32⟩
  | 50 => ⟨S64, .f32⟩
  | 51 => ⟨S_, .i32⟩
  | 52 => ⟨S_, .f32⟩
  | 53 => ⟨S64, .f32⟩
  | 54 => ⟨S1x64, .f32⟩
  | 55 => ⟨S_, .f32⟩
  | 56 => ⟨S1x64, .f32⟩
  | 57 => ⟨S1x64, .f32⟩
  | 58 => ⟨S100000x64, .f32⟩
  | 59 => ⟨S100000x64, .f32⟩
  | 60 => ⟨S100000x64, .f32⟩
  | 61 => ⟨S_, .f32⟩
  | 62 => ⟨S_, .f32⟩
  | 63 => ⟨S_, .f32⟩
  | 64 => ⟨S_, .f32⟩
  | 65 => ⟨S64, .f32⟩
  | 66 => ⟨S64, .f32⟩
  | 67 => ⟨S64, .f32⟩
  | 68 => ⟨S_, .f32⟩
  | 69 => ⟨S_, .i1⟩
  | 70 => ⟨S_, .f32⟩
  | 71 => ⟨S_, .f32⟩
  | 72 => ⟨S64, .f32⟩
  | 73 => ⟨S64, .f32⟩
  | 74 => ⟨S1x64, .f32⟩
  | 75 => ⟨S100000x64, .f32⟩
  | 76 => ⟨S100000x64, .f32⟩
  | 77 => ⟨S_, .f32⟩
  | 78 => ⟨S64, .f32⟩
  | 79 => ⟨S64, .f32⟩
  | 80 => ⟨S64, .f32⟩
  | 81 => ⟨S1x64, .f32⟩
  | 82 => ⟨S100000x64, .f32⟩
  | 83 => ⟨S100000x64, .f32⟩
  | 84 => ⟨S1x64, .f32⟩
  | 85 => ⟨S100000x64, .f32⟩
  | 86 => ⟨S100000x64, .f32⟩
  | 87 => ⟨S1x64, .f32⟩
  | 88 => ⟨S100000x64, .f32⟩
  | 89 => ⟨S100000x64, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x64, .f32⟩
  | 99 => ⟨S_, .f32⟩
  | 100 => ⟨S100000x64, .f32⟩
  | 101 => ⟨S1600000x1, .i32⟩
  | 102 => ⟨S100000x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S100000x2, .f32⟩
  | 112 => ⟨S1x2, .f32⟩
  | 113 => ⟨S100000x2, .f32⟩
  | 114 => ⟨S100000x2, .f32⟩
  | 115 => ⟨S_, .f32⟩
  | 116 => ⟨S100000x2, .f32⟩
  | 117 => ⟨S100000x2, .f32⟩
  | 118 => ⟨S_, .f32⟩
  | 119 => ⟨S2, .f32⟩
  | 120 => ⟨S_, .f32⟩
  | 121 => ⟨S2, .f32⟩
  | 122 => ⟨S2, .f32⟩
  | 123 => ⟨S_, .i32⟩
  | 124 => ⟨S_, .f32⟩
  | 125 => ⟨S2, .f32⟩
  | 126 => ⟨S1x2, .f32⟩
  | 127 => ⟨S_, .f32⟩
  | _ => ⟨S100000x64, .f32⟩

abbrev hbmTy0_1 (i : Nat) : BufTy := match i % 128 with
  | 0 => ⟨S1x2, .f32⟩
  | 1 => ⟨S1x2, .f32⟩
  | 2 => ⟨S100000x2, .f32⟩
  | 3 => ⟨S100000x2, .f32⟩
  | 4 => ⟨S100000x2, .f32⟩
  | 5 => ⟨S_, .f32⟩
  | 6 => ⟨S_, .f32⟩
  | 7 => ⟨S_, .f32⟩
  | 8 => ⟨S_, .f32⟩
  | 9 => ⟨S2, .f32⟩
  | 10 => ⟨S2, .f32⟩
  | 11 => ⟨S2, .f32⟩
  | 12 => ⟨S_, .f32⟩
  | 13 => ⟨S_, .i1⟩
  | 14 => ⟨S_, .f32⟩
  | 15 => ⟨S_, .f32⟩
  | 16 => ⟨S2, .f32⟩
  | 17 => ⟨S2, .f32⟩
  | 18 => ⟨S1x2, .f32⟩
  | 19 => ⟨S100000x2, .f32⟩
  | 20 => ⟨S100000x2, .f32⟩
  | 21 => ⟨S_, .f32⟩
  | 22 => ⟨S2, .f32⟩
  | 23 => ⟨S2, .f32⟩
  | 24 => ⟨S2, .f32⟩
  | 25 => ⟨S1x2, .f32⟩
  | 26 => ⟨S100000x2, .f32⟩
  | 27 => ⟨S100000x2, .f32⟩
  | 28 => ⟨S1x2, .f32⟩
  | 29 => ⟨S100000x2, .f32⟩
  | 30 => ⟨S100000x2, .f32⟩
  | 31 => ⟨S1x2, .f32⟩
  | 32 => ⟨S100000x2, .f32⟩
  | 33 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_cst : Ref sig .tc := ⟨.hbm, 43, rfl⟩
abbrev main_call1_v0 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_c_3 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_cst_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_cst_1 : Ref sig .tc := ⟨.hbm, 62, rfl⟩
abbrev main_call2_v8 : Ref sig .tc := ⟨.hbm, 63, rfl⟩
abbrev main_call2_cst_2 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_cst_3 : Ref sig .tc := ⟨.hbm, 68, rfl⟩
abbrev main_call2_v12 : Ref sig .tc := ⟨.hbm, 69, rfl⟩
abbrev main_call2_cst_4 : Ref sig .tc := ⟨.hbm, 70, rfl⟩
abbrev main_call2_call0_v0 : Ref sig .tc := ⟨.hbm, 71, rfl⟩
abbrev main_call2_call0_v1 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_4 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_c_5 : Ref sig .tc := ⟨.hbm, 90, rfl⟩
abbrev main_v44 : Ref sig .tc := ⟨.hbm, 91, rfl⟩
abbrev main_v45 : Ref sig .tc := ⟨.hbm, 92, rfl⟩
abbrev main_c_6 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_7 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_call3_cst : Ref sig .tc := ⟨.hbm, 108, rfl⟩
abbrev main_call3_v0 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_call4_cst : Ref sig .tc := ⟨.hbm, 115, rfl⟩
abbrev main_call4_v0 : Ref sig .tc := ⟨.hbm, 116, rfl⟩
abbrev main_v64 : Ref sig .tc := ⟨.hbm, 117, rfl⟩
abbrev main_cst_8 : Ref sig .tc := ⟨.hbm, 118, rfl⟩
abbrev main_v65 : Ref sig .tc := ⟨.hbm, 119, rfl⟩
abbrev main_cst_9 : Ref sig .tc := ⟨.hbm, 120, rfl⟩
abbrev main_v66 : Ref sig .tc := ⟨.hbm, 121, rfl⟩
abbrev main_v67 : Ref sig .tc := ⟨.hbm, 122, rfl⟩
abbrev main_c_10 : Ref sig .tc := ⟨.hbm, 123, rfl⟩
abbrev main_call5_cst : Ref sig .tc := ⟨.hbm, 124, rfl⟩
abbrev main_call5_v0 : Ref sig .tc := ⟨.hbm, 125, rfl⟩
abbrev main_call5_v1 : Ref sig .tc := ⟨.hbm, 126, rfl⟩
abbrev main_call5_cst_0 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_call5_v5 : Ref sig .tc := ⟨.hbm, 131, rfl⟩
abbrev main_call5_v6 : Ref sig .tc := ⟨.hbm, 132, rfl⟩
abbrev main_call5_v7 : Ref sig .tc := ⟨.hbm, 133, rfl⟩
abbrev main_call5_cst_1 : Ref sig .tc := ⟨.hbm, 134, rfl⟩
abbrev main_call5_v8 : Ref sig .tc := ⟨.hbm, 135, rfl⟩
abbrev main_call5_cst_2 : Ref sig .tc := ⟨.hbm, 136, rfl⟩
abbrev main_call5_v9 : Ref sig .tc := ⟨.hbm, 137, rfl⟩
abbrev main_call5_v10 : Ref sig .tc := ⟨.hbm, 138, rfl⟩
abbrev main_call5_v11 : Ref sig .tc := ⟨.hbm, 139, rfl⟩
abbrev main_call5_cst_3 : Ref sig .tc := ⟨.hbm, 140, rfl⟩
abbrev main_call5_v12 : Ref sig .tc := ⟨.hbm, 141, rfl⟩
abbrev main_call5_cst_4 : Ref sig .tc := ⟨.hbm, 142, rfl⟩
abbrev main_call5_call0_v0 : Ref sig .tc := ⟨.hbm, 143, rfl⟩
abbrev main_call5_call0_v1 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_cst_11 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S100000x2 : S_.BroadcastsInDim S100000x2 (![] : Fin 0 → Fin S100000x2.rank)
  reducesTo_S100000x2_S2_d0 : S100000x2.ReducesTo [0] S2
  bcast_S_S2 : S_.BroadcastsInDim S2 (![] : Fin 0 → Fin S2.rank)
  bcast_S_S1x2 : S_.BroadcastsInDim S1x2 (![] : Fin 0 → Fin S1x2.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.Spec.lean ====
/-
  The mathematics both programs compute, as pure functions on the extended reals, index by index.

  A graph-isomorphism layer on N = 100000 nodes: each node's features plus the sum of its in-neighbours' features
  (the neighbour sum is a gather along the edges' sources followed by a scatter-add along their targets; both
  programs state it with the same two host operations, so it is never opened here), then
  Linear → ReLU → Linear → ReLU row by row, then batch normalisation over the rows: every column is centred at its
  mean and scaled by the reciprocal square root of its (biased) variance plus ε, times γ, plus β.
  The two programs differ in how they reach the column statistics: one sums the column and its squares tile by tile
  and forms E[h²] − E[h]², the other forms E[(h − E[h])²]. On finite reals these are one number.
-/
import Idealize.ShloMosaic.PureOps.Ideal
import Idealize.ShloMosaic.Lib.ValueIdx

noncomputable section

open scoped BigOperators

namespace Cert.Spec

open Idealize.ShloMosaic Idealize.ShloMosaic.ValueIdx

/-- A matrix by its two coordinates. -/
abbrev Mat (n d : ℕ) := Fin n → Fin d → EReal

/-- An array of rank 2, as the programs hold it, read by coordinates. -/
abbrev toMat {n d : ℕ} (v : (⟨2, ![n, d]⟩ : Shape).Idx → EReal) : Mat n d := fun r j => v (ix2 r j)

/-- An array of rank 1 read by its coordinate. -/
abbrev toRow {d : ℕ} (v : (⟨1, ![d]⟩ : Shape).Idx → EReal) : Fin d → EReal := fun j => v (ix1 j)

/-- The number of rows, as both programs spell it (the f32 pattern of 100000.0). -/
abbrev cN : EReal := Ideal.ofBits .f32 0x47C35000#32
/-- The ε of the normalisation, as both programs spell it (the f32 pattern nearest 1e-5). -/
abbrev cEps : EReal := Ideal.ofBits .f32 0x3727C5AC#32

/-- Linear → ReLU → Linear → ReLU on every row. -/
def mlp {n D : ℕ} (a : Mat n 64) (Wa : Mat 64 64) (ba : Fin 64 → EReal) (Wb : Mat 64 D) (bb : Fin D → EReal) : Mat n D :=
  fun r j => max ((∑ k : Fin 64, max ((∑ k' : Fin 64, a r k' * Wa k' k) + ba k) 0 * Wb k j) + bb j) 0

/-- A column's sum. -/
def colSum {n D : ℕ} (h : Mat n D) : Fin D → EReal := fun j => ∑ r : Fin n, h r j
/-- A column's sum of squares. -/
def colSumSq {n D : ℕ} (h : Mat n D) : Fin D → EReal := fun j => ∑ r : Fin n, h r j * h r j

/-- A column's mean: its sum over the number of rows. -/
def mean {n D : ℕ} (h : Mat n D) : Fin D → EReal := fun j => Ideal.div (colSum h j) cN
/-- A column's variance as mean of squares minus squared mean. -/
def varMoments {n D : ℕ} (h : Mat n D) : Fin D → EReal :=
  fun j => Ideal.div (colSumSq h j) cN - mean h j * mean h j
/-- A column's variance as the mean squared deviation from the mean. -/
def varCentred {n D : ℕ} (h : Mat n D) : Fin D → EReal :=
  fun j => Ideal.div (∑ r : Fin n, (h r j - mean h j) * (h r j - mean h j)) cN

/-- The normalisation of every entry by its column's statistics. -/
def bn {n D : ℕ} (h : Mat n D) (mu var g be : Fin D → EReal) : Mat n D :=
  fun r j => (h r j - mu j) * Ideal.rsqrt (var j + cEps) * g j + be j

end Cert.Spec

end
-- ==== Proof.KTerm.lean ====
/-
  The kernel program's host glue as pure terms: the neighbour aggregation x + scatter_add(gather(x, src), dst)
  (negative sources wrapped by N) — the same composition of the same operations as the reference's, never opened —
  and the column statistics the host forms from the accumulating region's two rows: mean = sum / N,
  variance = sumsq / N − mean², each lifted back to a 1 × D row for the normalising region.
-/
import proofs.«135332_j83760452207416_1_alg».proof.Proof.Gen.KernelIdeal
import proofs.«135332_j83760452207416_1_alg».proof.Proof.Spec
import Idealize.ShloMosaic.Lib.ValueLayout

noncomputable section

namespace Cert.KernelIdeal.KTerm

open Cert.KernelIdeal Cert.KernelIdeal.Gen Cert.Spec Idealize.ShloMosaic Idealize.ShloMosaic.ValueIdx

variable {F : FTy → Type} [FloatOps F]

/-- Each node's features plus the sum of its in-neighbours' features: the edges' sources (row 0 of the edge list,
    a negative one wrapped by N) are gathered, and scattered with addition onto the edges' targets (row 1). -/
def agg (x : FVec F S100000x64 .f32) (ei : IVec S2x1600000 32) : FVec F S100000x64 .f32 :=
  have v0 : IVec S1x1600000 32 := extractStridedSlice S1x1600000 ![0, 0] ei slices_S2x1600000_S1x1600000_0_0
  have v1 : IVec S1600000 32 := fun i => shapeCast S1600000 v0 shapeCasts_S1x1600000_S1600000 i
  have v2 : IVec S1x1600000 32 := extractStridedSlice S1x1600000 ![1, 0] ei slices_S2x1600000_S1x1600000_1_0
  have v3 : IVec S1600000 32 := fun i => shapeCast S1600000 v2 shapeCasts_S1x1600000_S1600000 i
  have v4 : IVec S1600000 32 := broadcastInDim S1600000 ![] bcast_S_S1600000 (constantI S_ 32 0#32)
  have v5 : IVec S1600000 1 := cmpi .slt v1 v4
  have v6 : IVec S1600000 32 := broadcastInDim S1600000 ![] bcast_S_S1600000 (constantI S_ 32 100000#32)
  have v7 : IVec S1600000 32 := addi v1 v6
  have v8 : IVec S1600000 32 := select v5 v7 v1
  have v9 : IVec S1600000x1 32 := broadcastInDim S1600000x1 ![0] bcast_S1600000_S1600000x1_0 v8
  have v10 : FVec F S1600000x64 .f32 := Host.gather gather_S100000x64_S1600000x1_S1600000x64_1_0_n_n_0_1_164 x v9
  have v11 : FVec F S100000x64 .f32 := broadcastInDim S100000x64 ![] bcast_S_S100000x64 (constant S_ .f32 0x00000000#32)
  have v12 : IVec S1600000x1 32 := broadcastInDim S1600000x1 ![0] bcast_S1600000_S1600000x1_0 v3
  have v13 : FVec F S100000x64 .f32 := Host.scatterAdd scatter_S100000x64_S1600000x1_S1600000x64_1_0_0_1 v11 v12 v10
  addf x v13

/-- A row of 64 lifted to a 1 × 64 array. -/
def up64 (v : FVec F S64 .f32) : FVec F S1x64 .f32 := fun i => shapeCast S1x64 v shapeCasts_S64_S1x64 i
/-- A row of 2 lifted to a 1 × 2 array. -/
def up2 (v : FVec F S2 .f32) : FVec F S1x2 .f32 := fun i => shapeCast S1x2 v shapeCasts_S2_S1x2 i

/-- The columns' means from the accumulated column sums (a 1 × 64 row). -/
def mean64 (s : FVec F S1x64 .f32) : FVec F S64 .f32 :=
  Host.divf (fun i => shapeCast S64 s shapeCasts_S1x64_S64 i) (broadcastInDim S64 ![] bcast_S_S64 (constant S_ .f32 0x47C35000#32))
/-- The columns' variances from the accumulated sums and sums of squares: sumsq / N − mean². -/
def var64 (s ss : FVec F S1x64 .f32) : FVec F S64 .f32 :=
  subf (Host.divf (fun i => shapeCast S64 ss shapeCasts_S1x64_S64 i) (broadcastInDim S64 ![] bcast_S_S64 (constant S_ .f32 0x47C35000#32)))
    (mulf (mean64 s) (mean64 s))
/-- The same for 2 columns. -/
def mean2 (s : FVec F S1x2 .f32) : FVec F S2 .f32 :=
  Host.divf (fun i => shapeCast S2 s shapeCasts_S1x2_S2 i) (broadcastInDim S2 ![] bcast_S_S2 (constant S_ .f32 0x47C35000#32))
def var2 (s ss : FVec F S1x2 .f32) : FVec F S2 .f32 :=
  subf (Host.divf (fun i => shapeCast S2 ss shapeCasts_S1x2_S2 i) (broadcastInDim S2 ![] bcast_S_S2 (constant S_ .f32 0x47C35000#32)))
    (mulf (mean2 s) (mean2 s))

/-! ## Read at an index, on the extended reals -/

theorem up64_apply (v : FVec Ideal S64 .f32) (j : Fin 64) : up64 (F := Ideal) v (ix2 (0 : Fin 1) j) = v (ix1 j) :=
  shapeCast_a_1a_apply v shapeCasts_S64_S1x64 0 j
theorem up2_apply (v : FVec Ideal S2 .f32) (j : Fin 2) : up2 (F := Ideal) v (ix2 (0 : Fin 1) j) = v (ix1 j) :=
  shapeCast_a_1a_apply v shapeCasts_S2_S1x2 0 j

theorem mean64_apply (s : FVec Ideal S1x64 .f32) (j : Fin 64) :
    mean64 (F := Ideal) s (ix1 j) = Ideal.div (s (ix2 (0 : Fin 1) j)) cN := by
  unfold mean64
  show Ideal.div (shapeCast S64 s shapeCasts_S1x64_S64 (ix1 j)) _ = _
  rw [shapeCast_1a_a_apply]
  rfl
theorem var64_apply (s ss : FVec Ideal S1x64 .f32) (j : Fin 64) :
    var64 (F := Ideal) s ss (ix1 j)
      = Ideal.div (ss (ix2 (0 : Fin 1) j)) cN - Ideal.div (s (ix2 (0 : Fin 1) j)) cN * Ideal.div (s (ix2 (0 : Fin 1) j)) cN := by
  unfold var64
  show Ideal.div (shapeCast S64 ss shapeCasts_S1x64_S64 (ix1 j)) _ - mean64 (F := Ideal) s (ix1 j) * mean64 (F := Ideal) s (ix1 j) = _
  rw [shapeCast_1a_a_apply, mean64_apply]
  rfl
theorem mean2_apply (s : FVec Ideal S1x2 .f32) (j : Fin 2) :
    mean2 (F := Ideal) s (ix1 j) = Ideal.div (s (ix2 (0 : Fin 1) j)) cN := by
  unfold mean2
  show Ideal.div (shapeCast S2 s shapeCasts_S1x2_S2 (ix1 j)) _ = _
  rw [shapeCast_1a_a_apply]
  rfl
theorem var2_apply (s ss : FVec Ideal S1x2 .f32) (j : Fin 2) :
    var2 (F := Ideal) s ss (ix1 j)
      = Ideal.div (ss (ix2 (0 : Fin 1) j)) cN - Ideal.div (s (ix2 (0 : Fin 1) j)) cN * Ideal.div (s (ix2 (0 : Fin 1) j)) cN := by
  unfold var2
  show Ideal.div (shapeCast S2 ss shapeCasts_S1x2_S2 (ix1 j)) _ - mean2 (F := Ideal) s (ix1 j) * mean2 (F := Ideal) s (ix1 j) = _
  rw [shapeCast_1a_a_apply, mean2_apply]
  rfl

end Cert.KernelIdeal.KTerm

end
-- ==== Proof.RefTerm.lean ====
/-
  The reference program's pure terms: what its host operations compute, composed in program order, as functions of
  the values they read. `agg` is the neighbour aggregation x + scatter_add(gather(x, src), dst) with negative
  sources wrapped by N; it is the same composition of the same operations in both programs and is never opened.
-/
import proofs.«135332_j83760452207416_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- Each node's features plus the sum of its in-neighbours' features: the edges' sources (row 0 of the edge list,
    a negative one wrapped by N) are gathered, and scattered with addition onto the edges' targets (row 1). -/
def agg (x : FVec F S100000x64 .f32) (ei : IVec S2x1600000 32) : FVec F S100000x64 .f32 :=
  have v0 : IVec S1x1600000 32 := extractStridedSlice S1x1600000 ![0, 0] ei slices_S2x1600000_S1x1600000_0_0
  have v1 : IVec S1600000 32 := fun i => shapeCast S1600000 v0 shapeCasts_S1x1600000_S1600000 i
  have v2 : IVec S1x1600000 32 := extractStridedSlice S1x1600000 ![1, 0] ei slices_S2x1600000_S1x1600000_1_0
  have v3 : IVec S1600000 32 := fun i => shapeCast S1600000 v2 shapeCasts_S1x1600000_S1600000 i
  have v4 : IVec S1600000 32 := broadcastInDim S1600000 ![] bcast_S_S1600000 (constantI S_ 32 0#32)
  have v5 : IVec S1600000 1 := cmpi .slt v1 v4
  have v6 : IVec S1600000 32 := broadcastInDim S1600000 ![] bcast_S_S1600000 (constantI S_ 32 100000#32)
  have v7 : IVec S1600000 32 := addi v1 v6
  have v8 : IVec S1600000 32 := select v5 v7 v1
  have v9 : IVec S1600000x1 32 := broadcastInDim S1600000x1 ![0] bcast_S1600000_S1600000x1_0 v8
  have v10 : FVec F S1600000x64 .f32 := Host.gather gather_S100000x64_S1600000x1_S1600000x64_1_0_n_n_0_1_164 x v9
  have v11 : FVec F S100000x64 .f32 := broadcastInDim S100000x64 ![] bcast_S_S100000x64 (constant S_ .f32 0x00000000#32)
  have v12 : IVec S1600000x1 32 := broadcastInDim S1600000x1 ![0] bcast_S1600000_S1600000x1_0 v3
  have v13 : FVec F S100000x64 .f32 := Host.scatterAdd scatter_S100000x64_S1600000x1_S1600000x64_1_0_0_1 v11 v12 v10
  addf x v13

/-- ReLU of a whole array of 64 columns. -/
def relu64 (x : FVec F S100000x64 .f32) : FVec F S100000x64 .f32 :=
  maximumf x (broadcastInDim S100000x64 ![] bcast_S_S100000x64 (constant S_ .f32 0x00000000#32))
/-- ReLU of a whole array of 2 columns. -/
def relu2 (x : FVec F S100000x2 .f32) : FVec F S100000x2 .f32 :=
  maximumf x (broadcastInDim S100000x2 ![] bcast_S_S100000x2 (constant S_ .f32 0x00000000#32))

/-- A bias of 64 entries spread over the rows. -/
def rows64 (b : FVec F S64 .f32) : FVec F S100000x64 .f32 :=
  broadcastInDim S100000x64 ![0, 1] bcast_S1x64_S100000x64_0_1 (broadcastInDim S1x64 ![1] bcast_S64_S1x64_1 b)
/-- A bias of 2 entries spread over the rows. -/
def rows2 (b : FVec F S2 .f32) : FVec F S100000x2 .f32 :=
  broadcastInDim S100000x2 ![0, 1] bcast_S1x2_S100000x2_0_1 (broadcastInDim S1x2 ![1] bcast_S2_S1x2_1 b)

/-- Layer 1's Linear → ReLU → Linear → ReLU. -/
def mlp1 (a : FVec F S100000x64 .f32) (Wa : FVec F S64x64 .f32) (ba : FVec F S64 .f32) (Wb : FVec F S64x64 .f32)
    (bb : FVec F S64 .f32) : FVec F S100000x64 .f32 :=
  relu64 (addf (Host.dotGeneral dot_S100000x64_S64x64_S100000x64_1_0_0_1_n_n none
    (relu64 (addf (Host.dotGeneral dot_S100000x64_S64x64_S100000x64_1_0_0_1_n_n none a Wa) (rows64 ba))) Wb) (rows64 bb))

/-- Layer 2's Linear → ReLU → Linear → ReLU. -/
def mlp2 (a : FVec F S100000x64 .f32) (Wa : FVec F S64x64 .f32) (ba : FVec F S64 .f32) (Wb : FVec F S64x2 .f32)
    (bb : FVec F S2 .f32) : FVec F S100000x2 .f32 :=
  relu2 (addf (Host.dotGeneral dot_S100000x64_S64x2_S100000x2_1_0_0_1_n_n none
    (relu64 (addf (Host.dotGeneral dot_S100000x64_S64x64_S100000x64_1_0_0_1_n_n none a Wa) (rows64 ba))) Wb) (rows2 bb))

/-- The columns' means, 64 columns. -/
def mean64 (h : FVec F S100000x64 .f32) : FVec F S64 .f32 :=
  Host.divf (Host.reduceAdd h (constant S_ .f32 0x00000000#32) reducesTo_S100000x64_S64_d0 h_S_)
    (broadcastInDim S64 ![] bcast_S_S64 (constant S_ .f32 0x47C35000#32))
/-- The columns' means, 2 columns. -/
def mean2 (h : FVec F S100000x2 .f32) : FVec F S2 .f32 :=
  Host.divf (Host.reduceAdd h (constant S_ .f32 0x00000000#32) reducesTo_S100000x2_S2_d0 h_S_)
    (broadcastInDim S2 ![] bcast_S_S2 (constant S_ .f32 0x47C35000#32))

/-- The columns' biased variances as jnp.var states them (ddof the integer `d`): the mean squared deviation,
    selected against a not-a-number filler by "N − ddof > 0". 64 columns. -/
def var64 (h : FVec F S100000x64 .f32) (d : IVec S_ 32) : FVec F S64 .f32 :=
  have v0 : FVec F S64 .f32 := Host.reduceAdd h (constant S_ .f32 0x00000000#32) reducesTo_S100000x64_S64_d0 h_S_
  have v1 : FVec F S1x64 .f32 := broadcastInDim S1x64 ![1] bcast_S64_S1x64_1 v0
  have v2 : FVec F S1x64 .f32 := broadcastInDim S1x64 ![] bcast_S_S1x64 (constant S_ .f32 0x47C35000#32)
  have v3 : FVec F S1x64 .f32 := Host.divf v1 v2
  have v4 : FVec F S100000x64 .f32 := broadcastInDim S100000x64 ![0, 1] bcast_S1x64_S100000x64_0_1 v3
  have v5 : FVec F S100000x64 .f32 := subf h v4
  have v6 : FVec F S100000x64 .f32 := mulf v5 v5
  have v7 : FVec F S_ .f32 := sitofp .f32 d
  have v8 : FVec F S_ .f32 := subf (constant S_ .f32 0x47C35000#32) v7
  have v9 : FVec F S64 .f32 := Host.reduceAdd v6 (constant S_ .f32 0x00000000#32) reducesTo_S100000x64_S64_d0 h_S_
  have v10 : FVec F S64 .f32 := broadcastInDim S64 ![] bcast_S_S64 v8
  have v11 : FVec F S64 .f32 := Host.divf v9 v10
  have v12 : IVec S_ 1 := cmpf .ogt v8 (constant S_ .f32 0x00000000#32)
  have w1 : FVec F S64 .f32 := broadcastInDim S64 ![] bcast_S_S64 (id (constant S_ .f32 0x7FC00000#32))
  select (broadcastInDim S64 ![] bcast_S_S64 v12) v11 w1

/-- The same for 2 columns. -/
def var2 (h : FVec F S100000x2 .f32) (d : IVec S_ 32) : FVec F S2 .f32 :=
  have v0 : FVec F S2 .f32 := Host.reduceAdd h (constant S_ .f32 0x00000000#32) reducesTo_S100000x2_S2_d0 h_S_
  have v1 : FVec F S1x2 .f32 := broadcastInDim S1x2 ![1] bcast_S2_S1x2_1 v0
  have v2 : FVec F S1x2 .f32 := broadcastInDim S1x2 ![] bcast_S_S1x2 (constant S_ .f32 0x47C35000#32)
  have v3 : FVec F S1x2 .f32 := Host.divf v1 v2
  have v4 : FVec F S100000x2 .f32 := broadcastInDim S100000x2 ![0, 1] bcast_S1x2_S100000x2_0_1 v3
  have v5 : FVec F S100000x2 .f32 := subf h v4
  have v6 : FVec F S100000x2 .f32 := mulf v5 v5
  have v7 : FVec F S_ .f32 := sitofp .f32 d
  have v8 : FVec F S_ .f32 := subf (constant S_ .f32 0x47C35000#32) v7
  have v9 : FVec F S2 .f32 := Host.reduceAdd v6 (constant S_ .f32 0x00000000#32) reducesTo_S100000x2_S2_d0 h_S_
  have v10 : FVec F S2 .f32 := broadcastInDim S2 ![] bcast_S_S2 v8
  have v11 : FVec F S2 .f32 := Host.divf v9 v10
  have v12 : IVec S_ 1 := cmpf .ogt v8 (constant S_ .f32 0x00000000#32)
  have w1 : FVec F S2 .f32 := broadcastInDim S2 ![] bcast_S_S2 (id (constant S_ .f32 0x7FC00000#32))
  select (broadcastInDim S2 ![] bcast_S_S2 v12) v11 w1

/-- Layer 1's batch normalisation: (h − mean) · rsqrt(var + ε) · γ + β. -/
def bn1 (h : FVec F S100000x64 .f32) (g be : FVec F S64 .f32) : FVec F S100000x64 .f32 :=
  addf (mulf (mulf (subf h (rows64 (mean64 h)))
      (rows64 (Host.rsqrt (addf (var64 h (constantI S_ 32 0#32)) (broadcastInDim S64 ![] bcast_S_S64 (constant S_ .f32 0x3727C5AC#32))))))
    (rows64 g)) (rows64 be)

/-- Layer 2's batch normalisation. -/
def bn2 (h : FVec F S100000x2 .f32) (g be : FVec F S2 .f32) : FVec F S100000x2 .f32 :=
  addf (mulf (mulf (subf h (rows2 (mean2 h)))
      (rows2 (Host.rsqrt (addf (var2 h (constantI S_ 32 0#32)) (broadcastInDim S2 ![] bcast_S_S2 (constant S_ .f32 0x3727C5AC#32))))))
    (rows2 g)) (rows2 be)

/-- The reference's result as one function of its fourteen arguments. -/
def out (a0 : FVec F S100000x64 .f32) (a1 : IVec S2x1600000 32) (a2 : FVec F S64x64 .f32) (a3 : FVec F S64 .f32)
    (a4 : FVec F S64x64 .f32) (a5 a6 a7 : FVec F S64 .f32) (a8 : FVec F S64x64 .f32) (a9 : FVec F S64 .f32)
    (a10 : FVec F S64x2 .f32) (a11 a12 a13 : FVec F S2 .f32) : FVec F S100000x2 .f32 :=
  bn2 (mlp2 (agg (bn1 (mlp1 (agg a0 a1) a2 a3 a4 a5) a6 a7) a1) a8 a9 a10 a11) a12 a13

end Cert.ReferenceIdeal.RefTerm

end
-- ==== Proof.SpecLaws.lean ====
/-
  Laws of the pure mathematics of the two-layer network with batch normalisation.

  On the extended reals every operation here keeps finite reals finite: sums, products, differences, maxima,
  division by a nonzero real, and the reciprocal square root of a positive real. On finite reals the two
  ways of writing a column's variance, E[h²] − E[h]² and E[(h − E[h])²], are one number. A sum over
  100000 rows is the sum over 20 tiles of the sums over each tile's 5000 rows.
-/
import proofs.«135332_j83760452207416_1_alg».proof.Proof.Spec

noncomputable section

open scoped BigOperators

namespace Cert.Spec

open Idealize.ShloMosaic

/-- An extended real that is a finite real. -/
def IsReal (x : EReal) : Prop := ∃ r : ℝ, x = (r : EReal)
/-- A matrix all of whose entries are finite reals. -/
def RealMat {n d : ℕ} (h : Mat n d) : Prop := ∀ r j, IsReal (h r j)
/-- A row all of whose entries are finite reals. -/
def RealRow {d : ℕ} (v : Fin d → EReal) : Prop := ∀ j, IsReal (v j)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- The coercion of a finite sum of reals is the sum of the coercions. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of finite reals is a finite real. -/
theorem real_sum {ι : Type} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih (fun i hi => hf i (Finset.mem_insert_of_mem hi)))

/-- Division of a finite real by a nonzero real is a finite real. -/
theorem IsReal.div_coe {x : EReal} (hx : IsReal x) {y : ℝ} (hy : y ≠ 0) : IsReal (Ideal.div x (y : EReal)) := by
  rw [Ideal.div_coe hy]; exact hx.mul (isReal_coe _)

/-- Linear → ReLU → Linear → ReLU keeps finite reals finite. -/
theorem real_mlp {n D : ℕ} (a : Mat n 64) (Wa : Mat 64 64) (ba : Fin 64 → EReal) (Wb : Mat 64 D) (bb : Fin D → EReal)
    (ha : RealMat a) (hWa : RealMat Wa) (hba : RealRow ba) (hWb : RealMat Wb) (hbb : RealRow bb) :
    RealMat (mlp a Wa ba Wb bb) := by
  intro r j
  unfold mlp
  refine IsReal.max (IsReal.add (real_sum _ _ fun k _ => IsReal.mul (IsReal.max (IsReal.add
    (real_sum _ _ fun k' _ => (ha r k').mul (hWa k' k)) (hba k)) isReal_zero) (hWb k j)) (hbb j)) isReal_zero

/-- A column's mean over 100000 rows of finite reals is a finite real. -/
theorem real_mean {D : ℕ} (h : Mat 100000 D) (hh : RealMat h) (hN : cN = ((100000 : ℝ) : EReal)) :
    RealRow (mean h) := by
  intro j
  unfold mean colSum
  rw [hN]
  exact (real_sum _ _ fun r _ => hh r j).div_coe (by norm_num)

/-- On finite reals, mean of squares minus squared mean is the mean squared deviation from the mean. -/
theorem var_eq {D : ℕ} (h : Mat 100000 D) (hh : RealMat h) (hN : cN = ((100000 : ℝ) : EReal)) :
    varMoments h = varCentred h := by
  funext j
  choose f hf using hh
  have hne : (100000 : ℝ) ≠ 0 := by norm_num
  simp only [varMoments, varCentred, mean, colSum, colSumSq, hN, Ideal.div_coe hne, hf]
  simp only [← EReal.coe_mul, coe_sum, ← EReal.coe_sub]
  refine congrArg _ ?_
  have hexp : ∀ r : Fin 100000, (f r j - (∑ r, f r j) * (1 / 100000)) * (f r j - (∑ r, f r j) * (1 / 100000))
      = f r j * f r j - 2 * ((∑ r, f r j) * (1 / 100000)) * f r j
        + ((∑ r, f r j) * (1 / 100000)) * ((∑ r, f r j) * (1 / 100000)) := fun r => by ring
  simp only [hexp, Finset.sum_add_distrib, Finset.sum_sub_distrib, ← Finset.mul_sum, Finset.sum_const,
    Finset.card_univ, Fintype.card_fin, nsmul_eq_mul]
  push_cast
  ring

/-- Batch normalisation of finite reals by their own column statistics is finite: the variance is a real ≥ 0,
    so variance plus a positive ε is a positive real, whose reciprocal square root is a real. -/
theorem real_bn {D : ℕ} (h : Mat 100000 D) (g be : Fin D → EReal) (hh : RealMat h) (hg : RealRow g) (hbe : RealRow be)
    (hN : cN = ((100000 : ℝ) : EReal)) (heps : ∃ e : ℝ, 0 < e ∧ cEps = (e : EReal)) :
    RealMat (bn h (mean h) (varCentred h) g be) := by
  intro r j
  obtain ⟨e, he, hE⟩ := heps
  have hm := real_mean h hh hN j
  have hv : ∃ v : ℝ, 0 ≤ v ∧ varCentred h j = (v : EReal) := by
    obtain ⟨m, hm'⟩ := hm
    choose f hf using hh
    refine ⟨(∑ r, (f r j - m) * (f r j - m)) * (1 / 100000), ?_, ?_⟩
    · exact mul_nonneg (Finset.sum_nonneg fun r _ => mul_self_nonneg _) (by norm_num)
    · unfold varCentred
      rw [hN, Ideal.div_coe (by norm_num), hm']
      simp only [hf, ← EReal.coe_sub, ← EReal.coe_mul, coe_sum]
  obtain ⟨v, hv0, hv⟩ := hv
  unfold bn
  rw [hv, hE, ← EReal.coe_add]
  have hpos : 0 < v + e := by linarith
  rw [Ideal.rsqrt_coe, if_neg (not_lt.mpr hpos.le), if_neg hpos.ne']
  exact ((((hh r j).sub hm).mul (isReal_coe _)).mul (hg j)).add (hbe j)

/-- A sum over 100000 rows is the sum over 20 tiles of the sums over each tile's 5000 rows. -/
theorem sum_tiles (f : Fin 100000 → EReal) :
    ∑ r : Fin 100000, f r = ∑ t : Fin 20, ∑ q : Fin 5000, f ⟨5000 * t.val + q.val, by omega⟩ := by
  symm
  rw [← Fintype.sum_prod_type']
  refine Fintype.sum_equiv (finProdFinEquiv.trans (finCongr (by norm_num : 20 * 5000 = 100000))) _ _ fun p => ?_
  refine congrArg f (Fin.ext ?_)
  simp [finProdFinEquiv]
  omega

end Cert.Spec

end
-- ==== Proof.AggReal.lean ====
/-
  The neighbour aggregation x + scatter_add(gather(x, src), dst) keeps finite reals finite: a gathered entry is an
  entry of x, the scatter-add of finite updates onto zeros is a finite sum of them, and a sum of two finite reals
  is finite. Nothing about which edges land where is needed.
-/
import proofs.«135332_j83760452207416_1_alg».proof.Proof.RefTerm
import proofs.«135332_j83760452207416_1_alg».proof.Proof.SpecLaws

noncomputable section

open scoped BigOperators

namespace Cert.ReferenceIdeal.AggReal

open Cert.ReferenceIdeal Cert.ReferenceIdeal.Gen Idealize.ShloMosaic Cert.Spec

/-- Every entry of a gather's result is an entry of its operand. -/
theorem gather_real {s si t : Shape} {w : Nat} (d : GatherDims s si t) (x : FVec Ideal s .f32) (idx : IVec si w)
    (hx : ∀ i, IsReal (x i)) : ∀ j, IsReal (Host.gather d x idx j) :=
  fun j => hx (d.operandIdx j idx)

/-- An exact scatter-add of finite updates onto finite entries is finite: each entry plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (x i + ∑ j ∈ Finset.univ.filter (fun j => d.resultIdx? j idx = some i), upd j)
  exact (hx i).add (real_sum _ _ fun j _ => hu j)

/-- The entrywise sum of two arrays of finite reals is finite. -/
theorem addf_real {s : Shape} (x y : FVec Ideal s .f32) (hx : ∀ i, IsReal (x i)) (hy : ∀ i, IsReal (y i)) :
    ∀ i, IsReal (addf x y i) := by
  intro i
  show IsReal (x i + y i)
  exact (hx i).add (hy i)

/-- The array of zeros is finite. -/
theorem zeros_real {s t : Shape} (dims : Fin s.rank → Fin t.rank) (h : s.BroadcastsInDim t dims) :
    ∀ i, IsReal (broadcastInDim t dims h (constant (F := Ideal) s .f32 0x00000000#32) i) := by
  intro i
  show IsReal (Ideal.ofBits .f32 0x00000000#32)
  rw [show Ideal.ofBits .f32 0x00000000#32 = 0 by simp [Ideal.ofBits, Ideal.ieee]]
  exact isReal_zero

/-- The aggregation of finite reals is finite. -/
theorem agg_real (x : FVec Ideal S100000x64 .f32) (ei : IVec S2x1600000 32) (hx : ∀ i, IsReal (x i)) :
    ∀ i, IsReal (RefTerm.agg (F := Ideal) x ei i) := by
  unfold RefTerm.agg
  exact addf_real _ _ hx (scatterAdd_real _ _ _ _ (zeros_real _ _) (gather_real _ _ _ hx))

end Cert.ReferenceIdeal.AggReal

end
-- ==== Proof.Consts.lean ====
/-
  The float constants both programs spell, as the extended reals their patterns denote: the zero that starts
  every sum, the row count 100000, and the ε of the normalisation (a positive real).
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `100000.0` denotes the real `100000`. -/
theorem ofBits_N : Ideal.ofBits .f32 0x47C35000#32 = ((100000 : ℝ) : EReal) := by
  simp [Ideal.ofBits, Ideal.ieee, -EReal.coe_mul]; norm_num

/-- The ε pattern denotes a positive real. -/
theorem ofBits_eps_pos : ∃ e : ℝ, 0 < e ∧ Ideal.ofBits .f32 0x3727C5AC#32 = (e : EReal) := by
  refine ⟨(2 ^ 23 + 2606508 : ℕ) * (2 : ℝ) ^ ((110 : Int) - 127 - 23), by positivity, ?_⟩
  simp [Ideal.ofBits, Ideal.ieee, -EReal.coe_mul]

end Cert.Consts

end
-- ==== Proof.Layers.lean ====
/-
  The two programs' results as one composition each, and their equality on finite reals.

  A layer is Linear → ReLU → Linear → ReLU followed by batch normalisation; the two programs differ only in the
  spelling of the variance, E[h²] − E[h]² against E[(h − E[h])²], which agree once the layer's input and its
  parameters are finite reals. The neighbour aggregation before each layer is the same composition of the same
  host operations in both programs and keeps finite reals finite, as does a whole layer; so finiteness of the
  arguments carries through both layers.
-/
import proofs.«135332_j83760452207416_1_alg».proof.Proof.KTerm
import proofs.«135332_j83760452207416_1_alg».proof.Proof.RefTerm
import proofs.«135332_j83760452207416_1_alg».proof.Proof.SpecLaws
import proofs.«135332_j83760452207416_1_alg».proof.Proof.AggReal
import proofs.«135332_j83760452207416_1_alg».proof.Proof.Consts

noncomputable section

namespace Cert.Layers

open Cert.Spec Idealize.ShloMosaic Idealize.ShloMosaic.ValueIdx

/-- A matrix as an array of rank 2. -/
abbrev ofMat {n d : ℕ} (h : Mat n d) : (⟨2, ![n, d]⟩ : Shape).Idx → EReal := fun i => h (i 0) (i 1)

/-- One layer with the variance as mean of squares minus squared mean. -/
def layerK {D : ℕ} (a : Mat 100000 64) (Wa : Mat 64 64) (ba : Fin 64 → EReal) (Wb : Mat 64 D)
    (bb g be : Fin D → EReal) : Mat 100000 D :=
  bn (mlp a Wa ba Wb bb) (mean (mlp a Wa ba Wb bb)) (varMoments (mlp a Wa ba Wb bb)) g be

/-- One layer with the variance as the mean squared deviation from the mean. -/
def layerR {D : ℕ} (a : Mat 100000 64) (Wa : Mat 64 64) (ba : Fin 64 → EReal) (Wb : Mat 64 D)
    (bb g be : Fin D → EReal) : Mat 100000 D :=
  bn (mlp a Wa ba Wb bb) (mean (mlp a Wa ba Wb bb)) (varCentred (mlp a Wa ba Wb bb)) g be

/-- Two layers, each after a neighbour aggregation, with the variances as moments. -/
def outK (a0 : (⟨2, ![100000, 64]⟩ : Shape).Idx → EReal) (a1 : IVec ⟨2, ![2, 1600000]⟩ 32)
    (a2 : (⟨2, ![64, 64]⟩ : Shape).Idx → EReal) (a3 : (⟨1, ![64]⟩ : Shape).Idx → EReal)
    (a4 : (⟨2, ![64, 64]⟩ : Shape).Idx → EReal) (a5 a6 a7 : (⟨1, ![64]⟩ : Shape).Idx → EReal)
    (a8 : (⟨2, ![64, 64]⟩ : Shape).Idx → EReal) (a9 : (⟨1, ![64]⟩ : Shape).Idx → EReal)
    (a10 : (⟨2, ![64, 2]⟩ : Shape).Idx → EReal) (a11 a12 a13 : (⟨1, ![2]⟩ : Shape).Idx → EReal) :
    (⟨2, ![100000, 2]⟩ : Shape).Idx → EReal :=
  ofMat (layerK (toMat (Cert.KernelIdeal.KTerm.agg (F := Ideal) (ofMat (layerK (toMat (Cert.KernelIdeal.KTerm.agg (F := Ideal) a0 a1))
      (toMat a2) (toRow a3) (toMat a4) (toRow a5) (toRow a6) (toRow a7))) a1))
    (toMat a8) (toRow a9) (toMat a10) (toRow a11) (toRow a12) (toRow a13))

/-- Two layers, each after a neighbour aggregation, with the variances centred. -/
def outR (a0 : (⟨2, ![100000, 64]⟩ : Shape).Idx → EReal) (a1 : IVec ⟨2, ![2, 1600000]⟩ 32)
    (a2 : (⟨2, ![64, 64]⟩ : Shape).Idx → EReal) (a3 : (⟨1, ![64]⟩ : Shape).Idx → EReal)
    (a4 : (⟨2, ![64, 64]⟩ : Shape).Idx → EReal) (a5 a6 a7 : (⟨1, ![64]⟩ : Shape).Idx → EReal)
    (a8 : (⟨2, ![64, 64]⟩ : Shape).Idx → EReal) (a9 : (⟨1, ![64]⟩ : Shape).Idx → EReal)
    (a10 : (⟨2, ![64, 2]⟩ : Shape).Idx → EReal) (a11 a12 a13 : (⟨1, ![2]⟩ : Shape).Idx → EReal) :
    (⟨2, ![100000, 2]⟩ : Shape).Idx → EReal :=
  ofMat (layerR (toMat (Cert.ReferenceIdeal.RefTerm.agg (F := Ideal) (ofMat (layerR (toMat (Cert.ReferenceIdeal.RefTerm.agg (F := Ideal) a0 a1))
      (toMat a2) (toRow a3) (toMat a4) (toRow a5) (toRow a6) (toRow a7))) a1))
    (toMat a8) (toRow a9) (toMat a10) (toRow a11) (toRow a12) (toRow a13))

/-- The two programs spell the neighbour aggregation with the same operations and the same dimension records. -/
theorem agg_eq (x : (⟨2, ![100000, 64]⟩ : Shape).Idx → EReal) (ei : IVec ⟨2, ![2, 1600000]⟩ 32) :
    Cert.KernelIdeal.KTerm.agg (F := Ideal) x ei = Cert.ReferenceIdeal.RefTerm.agg (F := Ideal) x ei := rfl

/-- On finite reals the two spellings of a layer agree. -/
theorem layer_eq {D : ℕ} (a : Mat 100000 64) (Wa : Mat 64 64) (ba : Fin 64 → EReal) (Wb : Mat 64 D)
    (bb g be : Fin D → EReal) (ha : RealMat a) (hWa : RealMat Wa) (hba : RealRow ba) (hWb : RealMat Wb)
    (hbb : RealRow bb) : layerK a Wa ba Wb bb g be = layerR a Wa ba Wb bb g be := by
  unfold layerK layerR
  rw [var_eq _ (real_mlp a Wa ba Wb bb ha hWa hba hWb hbb) Cert.Consts.ofBits_N]

/-- A layer of finite reals is finite. -/
theorem layerR_real {D : ℕ} (a : Mat 100000 64) (Wa : Mat 64 64) (ba : Fin 64 → EReal) (Wb : Mat 64 D)
    (bb g be : Fin D → EReal) (ha : RealMat a) (hWa : RealMat Wa) (hba : RealRow ba) (hWb : RealMat Wb)
    (hbb : RealRow bb) (hg : RealRow g) (hbe : RealRow be) : RealMat (layerR a Wa ba Wb bb g be) :=
  real_bn _ g be (real_mlp a Wa ba Wb bb ha hWa hba hWb hbb) hg hbe Cert.Consts.ofBits_N Cert.Consts.ofBits_eps_pos

/-- On finite arguments the two programs' compositions agree. -/
theorem out_eq (a0 : (⟨2, ![100000, 64]⟩ : Shape).Idx → EReal) (a1 : IVec ⟨2, ![2, 1600000]⟩ 32)
    (a2 : (⟨2, ![64, 64]⟩ : Shape).Idx → EReal) (a3 : (⟨1, ![64]⟩ : Shape).Idx → EReal)
    (a4 : (⟨2, ![64, 64]⟩ : Shape).Idx → EReal) (a5 a6 a7 : (⟨1, ![64]⟩ : Shape).Idx → EReal)
    (a8 : (⟨2, ![64, 64]⟩ : Shape).Idx → EReal) (a9 : (⟨1, ![64]⟩ : Shape).Idx → EReal)
    (a10 : (⟨2, ![64, 2]⟩ : Shape).Idx → EReal) (a11 a12 a13 : (⟨1, ![2]⟩ : Shape).Idx → EReal)
    (h0 : ∀ i, IsReal (a0 i)) (h2 : ∀ i, IsReal (a2 i)) (h3 : ∀ i, IsReal (a3 i)) (h4 : ∀ i, IsReal (a4 i))
    (h5 : ∀ i, IsReal (a5 i)) (h6 : ∀ i, IsReal (a6 i)) (h7 : ∀ i, IsReal (a7 i)) (h8 : ∀ i, IsReal (a8 i))
    (h9 : ∀ i, IsReal (a9 i)) (h10 : ∀ i, IsReal (a10 i)) (h11 : ∀ i, IsReal (a11 i)) (h12 : ∀ i, IsReal (a12 i))
    (h13 : ∀ i, IsReal (a13 i)) :
    outK a0 a1 a2 a3 a4 a5 a6 a7 a8 a9 a10 a11 a12 a13 = outR a0 a1 a2 a3 a4 a5 a6 a7 a8 a9 a10 a11 a12 a13 := by
  have hA : RealMat (toMat (Cert.ReferenceIdeal.RefTerm.agg (F := Ideal) a0 a1)) :=
    fun r j => Cert.ReferenceIdeal.AggReal.agg_real a0 a1 h0 (ix2 r j)
  have H2 : RealMat (toMat a2) := fun r j => h2 (ix2 r j)
  have H3 : RealRow (toRow a3) := fun j => h3 (ix1 j)
  have H4 : RealMat (toMat a4) := fun r j => h4 (ix2 r j)
  have H5 : RealRow (toRow a5) := fun j => h5 (ix1 j)
  have H6 : RealRow (toRow a6) := fun j => h6 (ix1 j)
  have H7 : RealRow (toRow a7) := fun j => h7 (ix1 j)
  have H8 : RealMat (toMat a8) := fun r j => h8 (ix2 r j)
  have H9 : RealRow (toRow a9) := fun j => h9 (ix1 j)
  have H10 : RealMat (toMat a10) := fun r j => h10 (ix2 r j)
  have H11 : RealRow (toRow a11) := fun j => h11 (ix1 j)
  have e1 : layerK (toMat (Cert.KernelIdeal.KTerm.agg (F := Ideal) a0 a1))
        (toMat a2) (toRow a3) (toMat a4) (toRow a5) (toRow a6) (toRow a7)
      = layerR (toMat (Cert.ReferenceIdeal.RefTerm.agg (F := Ideal) a0 a1))
        (toMat a2) (toRow a3) (toMat a4) (toRow a5) (toRow a6) (toRow a7) := by
    rw [agg_eq]; exact layer_eq _ _ _ _ _ _ _ hA H2 H3 H4 H5
  have hL : ∀ i, IsReal (ofMat (layerR (toMat (Cert.ReferenceIdeal.RefTerm.agg (F := Ideal) a0 a1))
        (toMat a2) (toRow a3) (toMat a4) (toRow a5) (toRow a6) (toRow a7)) i) :=
    fun i => layerR_real _ _ _ _ _ _ _ hA H2 H3 H4 H5 H6 H7 (i 0) (i 1)
  unfold outK outR
  rw [e1, agg_eq]
  exact congrArg ofMat (layer_eq _ _ _ _ _ _ _
    (fun r j => Cert.ReferenceIdeal.AggReal.agg_real _ a1 hL (ix2 r j)) H8 H9 H10 H11)

end Cert.Layers

end
-- ==== Proof.PreReal.lean ====
/-
  From the precondition to finite reals. The precondition is thirteen tests "every |x| is below +∞", one per float
  argument, joined by "and". A test that came out true says every entry's absolute value is below +∞; an extended
  real whose absolute value max x (−x) is below +∞ is neither infinity, so it is a finite real.
-/
import proofs.«135332_j83760452207416_1_alg».proof.Defs
import proofs.«135332_j83760452207416_1_alg».proof.Proof.SpecLaws
import Idealize.ShloMosaic.Lib.ReduceAll

noncomputable section

namespace Cert.PreReal

open Idealize.ShloMosaic Idealize.SL.Sem Cert.Spec Cert.Pre_finite_inputs

/-- The shape of a scalar has one index. -/
instance : Subsingleton (Cert.Pre_finite_inputs.S_).Idx := ⟨fun a b => funext fun d => d.elim0⟩

/-- An extended real whose absolute value is below +∞ (the pattern 0x7F800000) is a finite real. -/
theorem real_of_abs_lt_inf (x : EReal)
    (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- One test "all |x| < +∞" that came out true: every entry of x is a finite real. -/
theorem all_real {s : Shape} {axes : List (Fin s.rank)} (x : FVec Ideal s .f32) (dims : Fin S_.rank → Fin s.rank)
    (hb : S_.BroadcastsInDim s dims) (h : s.ReducesTo axes S_) (hu : 0 < S_.numel) (init : IVec S_ 1)
    (e : Host.reduce IntOp.andi (cmpf .olt (Host.absf x) (broadcastInDim s dims hb (constant S_ .f32 0x7F800000#32)))
      init h hu ValueIdx.ix0 = 1#1) : ∀ i, IsReal (x i) :=
  fun i => real_of_abs_lt_inf (x i) (Host.reduce_andi_all _ init h hu ValueIdx.ix0 e i)

variable [hP : Cert.Pre_finite_inputs.Facts]

/-- The printed predicate, true: every float argument's entries are finite reals. -/
theorem fn_real (a0 : FVec Ideal S100000x64 .f32) (a1 : IVec S2x1600000 32) (a2 : FVec Ideal S64x64 .f32)
    (a3 : FVec Ideal S64 .f32) (a4 : FVec Ideal S64x64 .f32) (a5 a6 a7 : FVec Ideal S64 .f32)
    (a8 : FVec Ideal S64x64 .f32) (a9 : FVec Ideal S64 .f32) (a10 : FVec Ideal S64x2 .f32)
    (a11 a12 a13 : FVec Ideal S2 .f32)
    (h : Cert.Pre_finite_inputs.fn (F := Ideal) a0 a1 a2 a3 a4 a5 a6 a7 a8 a9 a10 a11 a12 a13 = fun _ => 1#1) :
    (∀ i, IsReal (a0 i)) ∧ (∀ i, IsReal (a2 i)) ∧ (∀ i, IsReal (a3 i)) ∧ (∀ i, IsReal (a4 i)) ∧ (∀ i, IsReal (a5 i))
    ∧ (∀ i, IsReal (a6 i)) ∧ (∀ i, IsReal (a7 i)) ∧ (∀ i, IsReal (a8 i)) ∧ (∀ i, IsReal (a9 i)) ∧ (∀ i, IsReal (a10 i))
    ∧ (∀ i, IsReal (a11 i)) ∧ (∀ i, IsReal (a12 i)) ∧ (∀ i, IsReal (a13 i)) := by
  have h0 := congrFun h ValueIdx.ix0
  dsimp only [Cert.Pre_finite_inputs.fn, fn_part1, fn_part2, fn_part3, Idealize.ShloMosaic.andi] at h0
  simp only [IntOp.andi_eq_one, and_assoc] at h0
  obtain ⟨e0, e2, e3, e4, e5, e6, e7, e8, e9, e10, e11, e12, e13⟩ := h0
  exact ⟨all_real _ _ _ _ _ _ e0, all_real _ _ _ _ _ _ e2, all_real _ _ _ _ _ _ e3, all_real _ _ _ _ _ _ e4,
    all_real _ _ _ _ _ _ e5, all_real _ _ _ _ _ _ e6, all_real _ _ _ _ _ _ e7, all_real _ _ _ _ _ _ e8,
    all_real _ _ _ _ _ _ e9, all_real _ _ _ _ _ _ e10, all_real _ _ _ _ _ _ e11, all_real _ _ _ _ _ _ e12,
    all_real _ _ _ _ _ _ e13⟩

/-- Under the precondition every float argument of the program, on every device, holds finite reals. -/
theorem args_real [hK : Cert.KernelIdeal.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i))
    ∧ (∀ i, IsReal (m ((c.tc : Thread Cert.KernelIdeal.nD Cert.KernelIdeal.τ).loc Cert.KernelIdeal.main_arg8) i))
    ∧ (∀ i, IsReal (m ((c.tc : Thread Cert.KernelIdeal.nD Cert.KernelIdeal.τ).loc Cert.KernelIdeal.main_arg9) i))
    ∧ (∀ i, IsReal (m ((c.tc : Thread Cert.KernelIdeal.nD Cert.KernelIdeal.τ).loc Cert.KernelIdeal.main_arg10) i))
    ∧ (∀ i, IsReal (m ((c.tc : Thread Cert.KernelIdeal.nD Cert.KernelIdeal.τ).loc Cert.KernelIdeal.main_arg11) i))
    ∧ (∀ i, IsReal (m ((c.tc : Thread Cert.KernelIdeal.nD Cert.KernelIdeal.τ).loc Cert.KernelIdeal.main_arg12) i))
    ∧ (∀ i, IsReal (m ((c.tc : Thread Cert.KernelIdeal.nD Cert.KernelIdeal.τ).loc Cert.KernelIdeal.main_arg13) i)) :=
  fn_real _ _ _ _ _ _ _ _ _ _ _ _ _ _ (hpre c)

end Cert.PreReal

end
-- ==== Proof.KRun.lean ====
/-
  The idealized kernel program's run with its RESULT named: every weakly fair execution of @main terminates, the
  argument arrays end as launched, and the result buffer ends at the last segment boundary's contents `W8` — the
  fold of the four host stretches and the four regions' write-backs over the launch memory. The frame theorem's own
  argument, with one more buffer read against the final state.
-/
import proofs.«135332_j83760452207416_1_alg».proof.Proof.PatchedKernelIdealFrame

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents. -/
theorem run : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.KRun

end
-- ==== Proof.KAgg.lean ====
/-
  The two host stretches that form the neighbour aggregation, read for any contents of the buffers.

  The edge list's row 0 (the sources) and row 1 (the targets) are sliced and flattened once; the aggregation of an
  array x along them wraps negative sources by N, gathers x's rows at the sources, scatters them with addition
  onto zeros at the targets, and adds x. The first stretch computes the two rows and the aggregation of the first
  argument; the second stretch aggregates another array along the same two rows.
-/
import proofs.«135332_j83760452207416_1_alg».proof.Proof.PatchedKernelIdealFrame
import proofs.«135332_j83760452207416_1_alg».proof.Proof.KTerm
import Idealize.ShloMosaic.Lib.StableHlo.Run

noncomputable section

namespace Cert.KernelIdeal.KAgg

open Cert.KernelIdeal Cert.KernelIdeal.Gen Cert.KernelIdeal.GenP Cert.Spec
open Idealize.ShloMosaic Idealize.ShloMosaic.TcCoe Idealize.ShloMosaic.ValueIdx Idealize.SL.Sem Idealize.ShloMosaic.StableHlo

/-- The edges' sources: row 0 of the edge list, flattened. -/
def src (ei : IVec S2x1600000 32) : IVec S1600000 32 :=
  fun i => shapeCast S1600000 (extractStridedSlice S1x1600000 ![0, 0] ei slices_S2x1600000_S1x1600000_0_0)
    shapeCasts_S1x1600000_S1600000 i
/-- The edges' targets: row 1 of the edge list, flattened. -/
def dst (ei : IVec S2x1600000 32) : IVec S1600000 32 :=
  fun i => shapeCast S1600000 (extractStridedSlice S1x1600000 ![1, 0] ei slices_S2x1600000_S1x1600000_1_0)
    shapeCasts_S1x1600000_S1600000 i

variable {F : FTy → Type} [FloatOps F]

/-- The aggregation along given sources and targets: x plus the scatter-add, at the targets, of x's rows gathered at
    the sources (a negative source wrapped by N). -/
def aggFrom (x : FVec F S100000x64 .f32) (s d : IVec S1600000 32) : FVec F S100000x64 .f32 :=
  have v4 : IVec S1600000 32 := broadcastInDim S1600000 ![] bcast_S_S1600000 (constantI S_ 32 0#32)
  have v5 : IVec S1600000 1 := cmpi .slt s v4
  have v6 : IVec S1600000 32 := broadcastInDim S1600000 ![] bcast_S_S1600000 (constantI S_ 32 100000#32)
  have v7 : IVec S1600000 32 := addi s v6
  have v8 : IVec S1600000 32 := select v5 v7 s
  have v9 : IVec S1600000x1 32 := broadcastInDim S1600000x1 ![0] bcast_S1600000_S1600000x1_0 v8
  have v10 : FVec F S1600000x64 .f32 := Host.gather gather_S100000x64_S1600000x1_S1600000x64_1_0_n_n_0_1_164 x v9
  have v11 : FVec F S100000x64 .f32 := broadcastInDim S100000x64 ![] bcast_S_S100000x64 (constant S_ .f32 0x00000000#32)
  have v12 : IVec S1600000x1 32 := broadcastInDim S1600000x1 ![0] bcast_S1600000_S1600000x1_0 d
  have v13 : FVec F S100000x64 .f32 := Host.scatterAdd scatter_S100000x64_S1600000x1_S1600000x64_1_0_0_1 v11 v12 v10
  addf x v13

/-- The aggregation is the aggregation along the edge list's two rows. -/
theorem agg_split (x : FVec F S100000x64 .f32) (ei : IVec S2x1600000 32) :
    KTerm.agg x ei = aggFrom x (src ei) (dst ei) := rfl

attribute [local irreducible] Host.gather Host.scatterAdd

/-- After the first stretch the sources' buffer holds the edge list's row 0. -/
theorem h0_v1 (W : Valuation τ sig (Elt Ideal)) :
    StableHlo.after (hostOps0 (F := Ideal)) W (Proc.devRef .tc main_v1) = src (W (Proc.devRef .tc main_arg1)) := by
  after_results
  rfl

/-- After the first stretch the targets' buffer holds the edge list's row 1. -/
theorem h0_v3 (W : Valuation τ sig (Elt Ideal)) :
    StableHlo.after (hostOps0 (F := Ideal)) W (Proc.devRef .tc main_v3) = dst (W (Proc.devRef .tc main_arg1)) := by
  after_results
  rfl

set_option maxHeartbeats 1000000 in
/-- After the first stretch its last aggregation buffer holds the aggregation of the first argument. -/
theorem h0_v14 (W : Valuation τ sig (Elt Ideal)) :
    StableHlo.after (hostOps0 (F := Ideal)) W (Proc.devRef .tc main_v14)
      = KTerm.agg (F := Ideal) (W (Proc.devRef .tc main_arg0)) (W (Proc.devRef .tc main_arg1)) := by
  after_results
  rfl

set_option maxHeartbeats 1000000 in
/-- After the second stretch its aggregation buffer holds the aggregation of the first layer's result along the
    rows the first stretch left. -/
theorem h2_v41 (W : Valuation τ sig (Elt Ideal)) :
    StableHlo.after (hostOps2 (F := Ideal)) W (Proc.devRef .tc main_v41)
      = aggFrom (F := Ideal) (W (Proc.devRef .tc main_v30)) (W (Proc.devRef .tc main_v1)) (W (Proc.devRef .tc main_v3)) := by
  after_results
  rfl

end Cert.KernelIdeal.KAgg

end
-- ==== Proof.KHost.lean ====
/-
  The host stretches between the regions, read for any contents of the buffers.

  Before the first region the host lifts the two bias rows of layer 1 to 1 × 64 arrays; between the first two
  regions it forms, from the accumulated column sums and sums of squares, the mean row sum / N and the variance
  row sumsq / N − mean², and lifts them and γ, β to 1 × 64 arrays; before the third region and between the last
  two it does the same for layer 2 at width 2. A buffer that a stretch does not write keeps its contents through it.
-/
import proofs.«135332_j83760452207416_1_alg».proof.Proof.PatchedKernelIdealLaunch
import proofs.«135332_j83760452207416_1_alg».proof.Proof.KTerm
import proofs.«135332_j83760452207416_1_alg».proof.Proof.KAgg
import Idealize.ShloMosaic.Lib.StableHlo.Run

set_option maxRecDepth 16384

noncomputable section

namespace Cert.KernelIdeal.KHost

open Cert.KernelIdeal Cert.KernelIdeal.Gen Cert.KernelIdeal.GenP Cert.Spec
open Idealize.ShloMosaic Idealize.ShloMosaic.TcCoe Idealize.ShloMosaic.ValueIdx Idealize.SL.Sem Idealize.ShloMosaic.StableHlo

/-- The buffers that host stretch 0 writes, in order. -/
abbrev written0 : List (Ref sig .tc) := [main_v0, main_v1, main_v2, main_v3, main_c, main_v4, main_v5, main_c_0, main_v6, main_v7, main_v8, main_v9, main_v10, main_cst, main_v11, main_v12, main_v13, main_v14, main_v15, main_v16]
theorem writes0 : (hostOps0 : List (HloOp τ sig (Elt Ideal))).Forall fun op =>
    op.writes ⊆ (written0.map (Proc.devRef (τ := τ) .tc)).toFinset :=
  ⟨Finset.singleton_subset_iff.mpr (List.mem_toFinset.mpr (List.mem_map_of_mem (f := Proc.devRef (τ := τ) .tc) (a := main_v0) (by decide))),
   Finset.singleton_subset_iff.mpr (List.mem_toFinset.mpr (List.mem_map_of_mem (f := Proc.devRef (τ := τ) .tc) (a := main_v1) (by decide))),
   Finset.singleton_subset_iff.mpr (List.mem_toFinset.mpr (List.mem_map_of_mem (f := Proc.devRef (τ := τ) .tc) (a := main_v2) (by decide))),
   Finset.singleton_subset_iff.mpr (List.mem_toFinset.mpr (List.mem_map_of_mem (f := Proc.devRef (τ := τ) .tc) (a := main_v3) (by decide))),
   Finset.singleton_subset_iff.mpr (List.mem_toFinset.mpr (List.mem_map_of_mem (f := Proc.devRef (τ := τ) .tc) (a := main_c) (by decide))),
   Finset.singleton_subset_iff.mpr (List.mem_toFinset.mpr (List.mem_map_of_mem (f := Proc.devRef (τ := τ) .tc) (a := main_v4) (by decide))),
   Finset.singleton_subset_iff.mpr (List.mem_toFinset.mpr (List.mem_map_of_mem (f := Proc.devRef (τ := τ) .tc) (a := main_v5) (by decide))),
   Finset.singleton_subset_iff.mpr (List.mem_toFinset.mpr (List.mem_map_of_mem (f := Proc.devRef (τ := τ) .tc) (a := main_c_0) (by decide))),
   Finset.singleton_subset_iff.mpr (List.mem_toFinset.mpr (List.mem_map_of_mem (f := Proc.devRef (τ := τ) .tc) (a := main_v6) (by decide))),
   Finset.singleton_subset_iff.mpr (List.mem_toFinset.mpr (List.mem_map_of_mem (f := Proc.devRef (τ := τ) .tc) (a := main_v7) (by decide))),
   Finset.singleton_subset_iff.mpr (List.mem_toFinset.mpr (List.mem_map_of_mem (f := Proc.devRef (τ := τ) .tc) (a := main_v8) (by decide))),
   Finset.singleton_subset_iff.mpr (List.mem_toFinset.mpr (List.mem_map_of_mem (f := Proc.devRef (τ := τ) .tc) (a := main_v9) (by decide))),
   Finset.singleton_subset_iff.mpr (List.mem_toFinset.mpr (List.mem_map_of_mem (f := Proc.devRef (τ := τ) .tc) (a := main_v10) (by decide))),
   Finset.singleton_subset_iff.mpr (List.mem_toFinset.mpr (List.mem_map_of_mem (f := Proc.devRef (τ := τ) .tc) (a := main_cst) (by decide))),
   Finset.singleton_subset_iff.mpr (List.mem_toFinset.mpr (List.mem_map_of_mem (f := Proc.devRef (τ := τ) .tc) (a := main_v11) (by decide))),
   Finset.singleton_subset_iff.mpr (List.mem_toFinset.mpr (List.mem_map_of_mem (f := Proc.devRef (τ := τ) .tc) (a := main_v12) (by decide))),
   Finset.singleton_subset_iff.mpr (List.mem_toFinset.mpr (List.mem_map_of_mem (f := Proc.devRef (τ := τ) .tc) (a := main_v13) (by decide))),
   Finset.singleton_subset_iff.mpr (List.mem_toFinset.mpr (List.mem_map_of_mem (f := Proc.devRef (τ := τ) .tc) (a := main_v14) (by decide))),
   Finset.singleton_subset_iff.mpr (List.mem_toFinset.mpr (List.mem_map_of_mem (f := Proc.devRef (τ := τ) .tc) (a := main_v15) (by decide))),
   Finset.singleton_subset_iff.mpr (List.mem_toFinset.mpr (List.mem_map_of_mem (f := Proc.devRef (τ := τ) .tc) (a := main_v16) (by decide)))⟩
/-- A buffer that host stretch 0 does not write keeps its contents through it. -/
theorem keep0 (W : Valuation τ sig (Elt Ideal)) (r : Ref sig .tc) (h : r ∉ written0) :
    after hostOps0 W (Proc.devRef .tc r) = W (Proc.devRef .tc r) :=
  after_of_writes_sub hostOps0 W writes0 h

/-- The buffers that host stretch 1 writes, in order. -/
abbrev written1 : List (Ref sig .tc) := [main_v18, main_cst_1, main_v19, main_v20, main_v21, main_cst_2, main_v22, main_v23, main_v24, main_v25, main_v26, main_v27, main_v28, main_v29]
theorem writes1 : (hostOps1 : List (HloOp τ sig (Elt Ideal))).Forall fun op =>
    op.writes ⊆ (written1.map (Proc.devRef (τ := τ) .tc)).toFinset :=
  ⟨Finset.singleton_subset_iff.mpr (List.mem_toFinset.mpr (List.mem_map_of_mem (f := Proc.devRef (τ := τ) .tc) (a := main_v18) (by decide))),
   Finset.singleton_subset_iff.mpr (List.mem_toFinset.mpr (List.mem_map_of_mem (f := Proc.devRef (τ := τ) .tc) (a := main_cst_1) (by decide))),
   Finset.singleton_subset_iff.mpr (List.mem_toFinset.mpr (List.mem_map_of_mem (f := Proc.devRef (τ := τ) .tc) (a := main_v19) (by decide))),
   Finset.singleton_subset_iff.mpr (List.mem_toFinset.mpr (List.mem_map_of_mem (f := Proc.devRef (τ := τ) .tc) (a := main_v20) (by decide))),
   Finset.singleton_subset_iff.mpr (List.mem_toFinset.mpr (List.mem_map_of_mem (f := Proc.devRef (τ := τ) .tc) (a := main_v21) (by decide))),
   Finset.singleton_subset_iff.mpr (List.mem_toFinset.mpr (List.mem_map_of_mem (f := Proc.devRef (τ := τ) .tc) (a := main_cst_2) (by decide))),
   Finset.singleton_subset_iff.mpr (List.mem_toFinset.mpr (List.mem_map_of_mem (f := Proc.devRef (τ := τ) .tc) (a := main_v22) (by decide))),
   Finset.singleton_subset_iff.mpr (List.mem_toFinset.mpr (List.mem_map_of_mem (f := Proc.devRef (τ := τ) .tc) (a := main_v23) (by decide))),
   Finset.singleton_subset_iff.mpr (List.mem_toFinset.mpr (List.mem_map_of_mem (f := Proc.devRef (τ := τ) .tc) (a := main_v24) (by decide))),
   Finset.singleton_subset_iff.mpr (List.mem_toFinset.mpr (List.mem_map_of_mem (f := Proc.devRef (τ := τ) .tc) (a := main_v25) (by decide))),
   Finset.singleton_subset_iff.mpr (List.mem_toFinset.mpr (List.mem_map_of_mem (f := Proc.devRef (τ := τ) .tc) (a := main_v26) (by decide))),
   Finset.singleton_subset_iff.mpr (List.mem_toFinset.mpr (List.mem_map_of_mem (f := Proc.devRef (τ := τ) .tc) (a := main_v27) (by decide))),
   Finset.singleton_subset_iff.mpr (List.mem_toFinset.mpr (List.mem_map_of_mem (f := Proc.devRef (τ := τ) .tc) (a := main_v28) (by decide))),
   Finset.singleton_subset_iff.mpr (List.mem_toFinset.mpr (List.mem_map_of_mem (f := Proc.devRef (τ := τ) .tc) (a := main_v29) (by decide)))⟩
/-- A buffer that host stretch 1 does not write keeps its contents through it. -/
theorem keep1 (W : Valuation τ sig (Elt Ideal)) (r : Ref sig .tc) (h : r ∉ written1) :
    after hostOps1 W (Proc.devRef .tc r) = W (Proc.devRef .tc r) :=
  after_of_writes_sub hostOps1 W writes1 h

/-- The buffers that host stretch 2 writes, in order. -/
abbrev written2 : List (Ref sig .tc) := [main_c_3, main_v31, main_v32, main_c_4, main_v33, main_v34, main_v35, main_v36, main_v37, main_cst_5, main_v38, main_v39, main_v40, main_v41, main_v42, main_v43]
theorem writes2 : (hostOps2 : List (HloOp τ sig (Elt Ideal))).Forall fun op =>
    op.writes ⊆ (written2.map (Proc.devRef (τ := τ) .tc)).toFinset :=
  ⟨Finset.singleton_subset_iff.mpr (List.mem_toFinset.mpr (List.mem_map_of_mem (f := Proc.devRef (τ := τ) .tc) (a := main_c_3) (by decide))),
   Finset.singleton_subset_iff.mpr (List.mem_toFinset.mpr (List.mem_map_of_mem (f := Proc.devRef (τ := τ) .tc) (a := main_v31) (by decide))),
   Finset.singleton_subset_iff.mpr (List.mem_toFinset.mpr (List.mem_map_of_mem (f := Proc.devRef (τ := τ) .tc) (a := main_v32) (by decide))),
   Finset.singleton_subset_iff.mpr (List.mem_toFinset.mpr (List.mem_map_of_mem (f := Proc.devRef (τ := τ) .tc) (a := main_c_4) (by decide))),
   Finset.singleton_subset_iff.mpr (List.mem_toFinset.mpr (List.mem_map_of_mem (f := Proc.devRef (τ := τ) .tc) (a := main_v33) (by decide))),
   Finset.singleton_subset_iff.mpr (List.mem_toFinset.mpr (List.mem_map_of_mem (f := Proc.devRef (τ := τ) .tc) (a := main_v34) (by decide))),
   Finset.singleton_subset_iff.mpr (List.mem_toFinset.mpr (List.mem_map_of_mem (f := Proc.devRef (τ := τ) .tc) (a := main_v35) (by decide))),
   Finset.singleton_subset_iff.mpr (List.mem_toFinset.mpr (List.mem_map_of_mem (f := Proc.devRef (τ := τ) .tc) (a := main_v36) (by decide))),
   Finset.singleton_subset_iff.mpr (List.mem_toFinset.mpr (List.mem_map_of_mem (f := Proc.devRef (τ := τ) .tc) (a := main_v37) (by decide))),
   Finset.singleton_subset_iff.mpr (List.mem_toFinset.mpr (List.mem_map_of_mem (f := Proc.devRef (τ := τ) .tc) (a := main_cst_5) (by decide))),
   Finset.singleton_subset_iff.mpr (List.mem_toFinset.mpr (List.mem_map_of_mem (f := Proc.devRef (τ := τ) .tc) (a := main_v38) (by decide))),
   Finset.singleton_subset_iff.mpr (List.mem_toFinset.mpr (List.mem_map_of_mem (f := Proc.devRef (τ := τ) .tc) (a := main_v39) (by decide))),
   Finset.singleton_subset_iff.mpr (List.mem_toFinset.mpr (List.mem_map_of_mem (f := Proc.devRef (τ := τ) .tc) (a := main_v40) (by decide))),
   Finset.singleton_subset_iff.mpr (List.mem_toFinset.mpr (List.mem_map_of_mem (f := Proc.devRef (τ := τ) .tc) (a := main_v41) (by decide))),
   Finset.singleton_subset_iff.mpr (List.mem_toFinset.mpr (List.mem_map_of_mem (f := Proc.devRef (τ := τ) .tc) (a := main_v42) (by decide))),
   Finset.singleton_subset_iff.mpr (List.mem_toFinset.mpr (List.mem_map_of_mem (f := Proc.devRef (τ := τ) .tc) (a := main_v43) (by decide)))⟩
/-- A buffer that host stretch 2 does not write keeps its contents through it. -/
theorem keep2 (W : Valuation τ sig (Elt Ideal)) (r : Ref sig .tc) (h : r ∉ written2) :
    after hostOps2 W (Proc.devRef .tc r) = W (Proc.devRef .tc r) :=
  after_of_writes_sub hostOps2 W writes2 h

/-- The buffers that host stretch 3 writes, in order. -/
abbrev written3 : List (Ref sig .tc) := [main_v45, main_cst_6, main_v46, main_v47, main_v48, main_cst_7, main_v49, main_v50, main_v51, main_v52, main_v53, main_v54, main_v55, main_v56]
theorem writes3 : (hostOps3 : List (HloOp τ sig (Elt Ideal))).Forall fun op =>
    op.writes ⊆ (written3.map (Proc.devRef (τ := τ) .tc)).toFinset :=
  ⟨Finset.singleton_subset_iff.mpr (List.mem_toFinset.mpr (List.mem_map_of_mem (f := Proc.devRef (τ := τ) .tc) (a := main_v45) (by decide))),
   Finset.singleton_subset_iff.mpr (List.mem_toFinset.mpr (List.mem_map_of_mem (f := Proc.devRef (τ := τ) .tc) (a := main_cst_6) (by decide))),
   Finset.singleton_subset_iff.mpr (List.mem_toFinset.mpr (List.mem_map_of_mem (f := Proc.devRef (τ := τ) .tc) (a := main_v46) (by decide))),
   Finset.singleton_subset_iff.mpr (List.mem_toFinset.mpr (List.mem_map_of_mem (f := Proc.devRef (τ := τ) .tc) (a := main_v47) (by decide))),
   Finset.singleton_subset_iff.mpr (List.mem_toFinset.mpr (List.mem_map_of_mem (f := Proc.devRef (τ := τ) .tc) (a := main_v48) (by decide))),
   Finset.singleton_subset_iff.mpr (List.mem_toFinset.mpr (List.mem_map_of_mem (f := Proc.devRef (τ := τ) .tc) (a := main_cst_7) (by decide))),
   Finset.singleton_subset_iff.mpr (List.mem_toFinset.mpr (List.mem_map_of_mem (f := Proc.devRef (τ := τ) .tc) (a := main_v49) (by decide))),
   Finset.singleton_subset_iff.mpr (List.mem_toFinset.mpr (List.mem_map_of_mem (f := Proc.devRef (τ := τ) .tc) (a := main_v50) (by decide))),
   Finset.singleton_subset_iff.mpr (List.mem_toFinset.mpr (List.mem_map_of_mem (f := Proc.devRef (τ := τ) .tc) (a := main_v51) (by decide))),
   Finset.singleton_subset_iff.mpr (List.mem_toFinset.mpr (List.mem_map_of_mem (f := Proc.devRef (τ := τ) .tc) (a := main_v52) (by decide))),
   Finset.singleton_subset_iff.mpr (List.mem_toFinset.mpr (List.mem_map_of_mem (f := Proc.devRef (τ := τ) .tc) (a := main_v53) (by decide))),
   Finset.singleton_subset_iff.mpr (List.mem_toFinset.mpr (List.mem_map_of_mem (f := Proc.devRef (τ := τ) .tc) (a := main_v54) (by decide))),
   Finset.singleton_subset_iff.mpr (List.mem_toFinset.mpr (List.mem_map_of_mem (f := Proc.devRef (τ := τ) .tc) (a := main_v55) (by decide))),
   Finset.singleton_subset_iff.mpr (List.mem_toFinset.mpr (List.mem_map_of_mem (f := Proc.devRef (τ := τ) .tc) (a := main_v56) (by decide)))⟩
/-- A buffer that host stretch 3 does not write keeps its contents through it. -/
theorem keep3 (W : Valuation τ sig (Elt Ideal)) (r : Ref sig .tc) (h : r ∉ written3) :
    after hostOps3 W (Proc.devRef .tc r) = W (Proc.devRef .tc r) :=
  after_of_writes_sub hostOps3 W writes3 h

section Stretches

variable (W : Valuation τ sig (Elt Ideal))

/-- Before the first region the two bias rows are lifted to 1 × 64 arrays. -/
theorem h0_v15 : after hostOps0 W (Proc.devRef .tc main_v15) = KTerm.up64 (F := Ideal) (W (Proc.devRef .tc main_arg3)) := by
  after_results; rfl
theorem h0_v16 : after hostOps0 W (Proc.devRef .tc main_v16) = KTerm.up64 (F := Ideal) (W (Proc.devRef .tc main_arg5)) := by
  after_results; rfl

/-- Between the first two regions the host forms the mean and variance rows from the accumulated sums, and lifts γ and β. -/
theorem h1_v26 : after hostOps1 W (Proc.devRef .tc main_v26)
    = KTerm.up64 (F := Ideal) (KTerm.mean64 (F := Ideal) (W (Proc.devRef .tc main_v17_1))) := by
  after_results; rfl
theorem h1_v27 : after hostOps1 W (Proc.devRef .tc main_v27)
    = KTerm.up64 (F := Ideal) (KTerm.var64 (F := Ideal) (W (Proc.devRef .tc main_v17_1)) (W (Proc.devRef .tc main_v17_2))) := by
  after_results; rfl
theorem h1_v28 : after hostOps1 W (Proc.devRef .tc main_v28) = KTerm.up64 (F := Ideal) (W (Proc.devRef .tc main_arg6)) := by
  after_results; rfl
theorem h1_v29 : after hostOps1 W (Proc.devRef .tc main_v29) = KTerm.up64 (F := Ideal) (W (Proc.devRef .tc main_arg7)) := by
  after_results; rfl

/-- Before the third region the two bias rows of layer 2 are lifted. -/
theorem h2_v42 : after hostOps2 W (Proc.devRef .tc main_v42) = KTerm.up64 (F := Ideal) (W (Proc.devRef .tc main_arg9)) := by
  after_results; rfl
theorem h2_v43 : after hostOps2 W (Proc.devRef .tc main_v43) = KTerm.up2 (F := Ideal) (W (Proc.devRef .tc main_arg11)) := by
  after_results; rfl

/-- Between the last two regions: the same statistics at width 2. -/
theorem h3_v53 : after hostOps3 W (Proc.devRef .tc main_v53)
    = KTerm.up2 (F := Ideal) (KTerm.mean2 (F := Ideal) (W (Proc.devRef .tc main_v44_1))) := by
  after_results; rfl
theorem h3_v54 : after hostOps3 W (Proc.devRef .tc main_v54)
    = KTerm.up2 (F := Ideal) (KTerm.var2 (F := Ideal) (W (Proc.devRef .tc main_v44_1)) (W (Proc.devRef .tc main_v44_2))) := by
  after_results; rfl
theorem h3_v55 : after hostOps3 W (Proc.devRef .tc main_v55) = KTerm.up2 (F := Ideal) (W (Proc.devRef .tc main_arg12)) := by
  after_results; rfl
theorem h3_v56 : after hostOps3 W (Proc.devRef .tc main_v56) = KTerm.up2 (F := Ideal) (W (Proc.devRef .tc main_arg13)) := by
  after_results; rfl

end Stretches

end Cert.KernelIdeal.KHost

end
-- ==== Proof.R0Pieces.lean ====
/-
  What one run of the row-tile kernel's body leaves in its three output buffers, as values of the blocks it was given.

  The body stores the tile's value relu(relu(x·Wa + ba)·Wb + bb) in the first buffer, and in the two rows of running
  sums what they held plus the tile's column sums (of the value, and of its squares). At the first grid point the
  two rows are zeroed first, so there the "what they held" is the zero row.
-/
import proofs.«135332_j83760452207416_1_alg».proof.Proof.PatchedKernelIdealFrame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R0Pieces

open Cert.KernelIdeal Cert.KernelIdeal.Gen Cert.KernelIdeal.GenP

variable {F : FTy → Type} [FloatOps F]

theorem hz : (![0, 0] : Fin 2 → Nat) = fun _ => 0 := funext fun a => by fin_cases a <;> rfl

/-- Later points: the first buffer ends holding the tile's value, -/
theorem outB5 (c : Dev nD) (i : grid0.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i)
    (x0 : Vec F S5000x64 .f32) (x1 : Vec F S64x64 .f32) (x2 : Vec F S1x64 .f32) (x3 : Vec F S64x64 .f32) (x4 : Vec F S1x64 .f32) (xo6 : Vec F S1x64 .f32) (xo7 : Vec F S1x64 .f32) :
    out0_B_5 c i arg1 harg1 arg2 harg2 arg3 harg3 arg4 harg4 arg5 harg5 arg6 harg6 arg7 harg7 arg8 harg8 hc0 x0 x1 x2 x3 x4 xo6 xo7 = k0_pay4 x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo6 xo7)]
  unfold kernelRun0_B
  dsimp only
  try sl_unfold_words
  rw [View.canon_unit_zero hz]
  simp only [View.readAt_eq_ld, harg1.read_unread, harg2.read_unread, harg3.read_unread, harg4.read_unread, harg5.read_unread, harg7.read_unread, harg8.read_unread, View.ld_unit_zero (S := S5000x64) hz, View.ld_unit_zero (S := S64x64) hz, View.ld_unit_zero (S := S1x64) hz]
/-- the running row of column sums what it held plus the tile's column sums, -/
theorem outB6 (c : Dev nD) (i : grid0.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i)
    (x0 : Vec F S5000x64 .f32) (x1 : Vec F S64x64 .f32) (x2 : Vec F S1x64 .f32) (x3 : Vec F S64x64 .f32) (x4 : Vec F S1x64 .f32) (xo6 : Vec F S1x64 .f32) (xo7 : Vec F S1x64 .f32) :
    out0_B_6 c i arg1 harg1 arg2 harg2 arg3 harg3 arg4 harg4 arg5 harg5 arg6 harg6 arg7 harg7 arg8 harg8 hc0 x0 x1 x2 x3 x4 xo6 xo7 = k0_pay5 x0 x1 x2 x3 x4 xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo6 xo7)]
  unfold kernelRun0_B
  dsimp only
  try sl_unfold_words
  rw [View.canon_unit_zero hz]
  simp only [View.readAt_eq_ld, harg1.read_unread, harg2.read_unread, harg3.read_unread, harg4.read_unread, harg5.read_unread, harg7.read_unread, harg8.read_unread, View.ld_unit_zero (S := S5000x64) hz, View.ld_unit_zero (S := S64x64) hz, View.ld_unit_zero (S := S1x64) hz]
/-- and the running row of squared column sums what it held plus the column sums of the tile's squares. -/
theorem outB7 (c : Dev nD) (i : grid0.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i)
    (x0 : Vec F S5000x64 .f32) (x1 : Vec F S64x64 .f32) (x2 : Vec F S1x64 .f32) (x3 : Vec F S64x64 .f32) (x4 : Vec F S1x64 .f32) (xo6 : Vec F S1x64 .f32) (xo7 : Vec F S1x64 .f32) :
    out0_B_7 c i arg1 harg1 arg2 harg2 arg3 harg3 arg4 harg4 arg5 harg5 arg6 harg6 arg7 harg7 arg8 harg8 hc0 x0 x1 x2 x3 x4 xo6 xo7 = k0_pay1 (k0_pay4 x0 x1 x2 x3 x4) xo7 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo6 xo7)]
  unfold kernelRun0_B
  dsimp only
  try sl_unfold_words
  rw [View.canon_unit_zero hz]
  simp only [View.readAt_eq_ld, harg1.read_unread, harg2.read_unread, harg3.read_unread, harg4.read_unread, harg5.read_unread, harg7.read_unread, harg8.read_unread, View.ld_unit_zero (S := S5000x64) hz, View.ld_unit_zero (S := S64x64) hz, View.ld_unit_zero (S := S1x64) hz]
/-- The first point: the tile's value again, -/
theorem outA5 (c : Dev nD) (i : grid0.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : cond0_0 i)
    (x0 : Vec F S5000x64 .f32) (x1 : Vec F S64x64 .f32) (x2 : Vec F S1x64 .f32) (x3 : Vec F S64x64 .f32) (x4 : Vec F S1x64 .f32) :
    out0_A_5 c i arg1 harg1 arg2 harg2 arg3 harg3 arg4 harg4 arg5 harg5 arg6 harg6 arg7 harg7 arg8 harg8 hc0 x0 x1 x2 x3 x4 = k0_pay4 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  try sl_unfold_words
  rw [View.canon_unit_zero hz]
  simp only [View.readAt_eq_ld, harg1.read_unread, harg2.read_unread, harg3.read_unread, harg4.read_unread, harg5.read_unread, harg7.read_unread, harg8.read_unread, View.ld_unit_zero (S := S5000x64) hz, View.ld_unit_zero (S := S64x64) hz, View.ld_unit_zero (S := S1x64) hz]
/-- and the two running rows start from the zero row the body has just stored. -/
theorem outA6 (c : Dev nD) (i : grid0.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : cond0_0 i)
    (x0 : Vec F S5000x64 .f32) (x1 : Vec F S64x64 .f32) (x2 : Vec F S1x64 .f32) (x3 : Vec F S64x64 .f32) (x4 : Vec F S1x64 .f32) :
    out0_A_6 c i arg1 harg1 arg2 harg2 arg3 harg3 arg4 harg4 arg5 harg5 arg6 harg6 arg7 harg7 arg8 harg8 hc0 x0 x1 x2 x3 x4 = k0_pay5 x0 x1 x2 x3 x4 k0_pay2 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  try sl_unfold_words
  rw [View.canon_cons_unit_zero (S := S1x64) hz, View.readCov_unit_zero (S := S1x64) _ hz]
  simp only [View.readAt_eq_ld, harg1.read_unread, harg2.read_unread, harg3.read_unread, harg4.read_unread, harg5.read_unread, harg7.read_unread, harg8.read_unread, View.ld_unit_zero (S := S5000x64) hz, View.ld_unit_zero (S := S64x64) hz, View.ld_unit_zero (S := S1x64) hz]

theorem outA7 (c : Dev nD) (i : grid0.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S5000x64 .f32) (harg6 : arg6.IsWhole) (arg7 : Memref sig .tc .vmem S1x64 .f32) (harg7 : arg7.IsWhole) (arg8 : Memref sig .tc .vmem S1x64 .f32) (harg8 : arg8.IsWhole) (hc0 : cond0_0 i)
    (x0 : Vec F S5000x64 .f32) (x1 : Vec F S64x64 .f32) (x2 : Vec F S1x64 .f32) (x3 : Vec F S64x64 .f32) (x4 : Vec F S1x64 .f32) :
    out0_A_7 c i arg1 harg1 arg2 harg2 arg3 harg3 arg4 harg4 arg5 harg5 arg6 harg6 arg7 harg7 arg8 harg8 hc0 x0 x1 x2 x3 x4 = k0_pay1 (k0_pay4 x0 x1 x2 x3 x4) k0_pay3 := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  try sl_unfold_words
  rw [View.canon_cons_unit_zero (S := S1x64) hz, View.readCov_unit_zero (S := S1x64) _ hz]
  simp only [View.readAt_eq_ld, harg1.read_unread, harg2.read_unread, harg3.read_unread, harg4.read_unread, harg5.read_unread, harg7.read_unread, harg8.read_unread, View.ld_unit_zero (S := S5000x64) hz, View.ld_unit_zero (S := S64x64) hz, View.ld_unit_zero (S := S1x64) hz]

end Cert.KernelIdeal.R0Pieces

end
-- ==== Proof.R0Pay.lean ====
/-
  The arithmetic of the row-tile kernel's stored values, read index by index on the extended reals.

  A tile holds 5000 rows x. The kernel forms relu(relu(x·Wa + ba)·Wb + bb) for the tile, and adds to two running rows
  of 64 numbers the tile's column sums and the column sums of its squares. On the extended reals a product into a zero
  accumulator at an index is the sum over the contracted coordinate, a change of float format is the identity, and a
  sum along the rows is the sum over the row coordinate.
-/
import proofs.«135332_j83760452207416_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.R0Pay

open Cert.KernelIdeal Cert.KernelIdeal.Gen Idealize.ShloMosaic Idealize.ShloMosaic.ValueIdx

/-- The contracted coordinate of the 5000×64 by 64×64 product, put back on the left operand's index. -/
theorem lhsIdx_eq (q : Fin 5000) (j : Fin 64) (k : Fin 64) :
    dot_S5000x64_S64x64_S5000x64_1_0_0_1_n_n.lhsIdx (ix2 q j)
      ((contrEquiv1 dot_S5000x64_S64x64_S5000x64_1_0_0_1_n_n 64 rfl rfl).symm k) = ix2 q k := by
  have c2 := contrEquiv1_symm_val dot_S5000x64_S64x64_S5000x64_1_0_0_1_n_n 64 rfl rfl k
  funext ax; apply Fin.ext
  match ax with
  | ⟨0, _⟩ => simp [DotDims.lhsIdx, dot_S5000x64_S64x64_S5000x64_1_0_0_1_n_n]; rfl
  | ⟨1, _⟩ => simp [DotDims.lhsIdx, dot_S5000x64_S64x64_S5000x64_1_0_0_1_n_n]; exact c2

/-- … and on the right operand's. -/
theorem rhsIdx_eq (q : Fin 5000) (j : Fin 64) (k : Fin 64) :
    dot_S5000x64_S64x64_S5000x64_1_0_0_1_n_n.rhsIdx (ix2 q j)
      ((contrEquiv1 dot_S5000x64_S64x64_S5000x64_1_0_0_1_n_n 64 rfl rfl).symm k) = ix2 k j := by
  have c2 := contrEquiv1_symm_val dot_S5000x64_S64x64_S5000x64_1_0_0_1_n_n 64 rfl rfl k
  funext ax; apply Fin.ext
  match ax with
  | ⟨0, _⟩ => simp [DotDims.rhsIdx, dot_S5000x64_S64x64_S5000x64_1_0_0_1_n_n]; exact c2
  | ⟨1, _⟩ => simp [DotDims.rhsIdx, dot_S5000x64_S64x64_S5000x64_1_0_0_1_n_n]; rfl

/-- A tile's product into the zero accumulator, at row q and column j: the sum over the contracted coordinate. -/
theorem mm_apply {φ₁ φ₂ : FTy} (A : FVec Ideal S5000x64 φ₁) (B : FVec Ideal S64x64 φ₂) (q : Fin 5000) (j : Fin 64) :
    matmul dot_S5000x64_S64x64_S5000x64_1_0_0_1_n_n none A B (constant S5000x64 .f32 0x00000000#32) (ix2 q j)
      = ∑ k : Fin 64, A (ix2 q k) * B (ix2 k j) := by
  show FloatOps.matmul _ none A B _ (ix2 q j) = _
  rw [Ideal.matmul_constant_zero_apply,
    ← Equiv.sum_comp (contrEquiv1 dot_S5000x64_S64x64_S5000x64_1_0_0_1_n_n 64 rfl rfl).symm]
  refine Finset.sum_congr rfl fun k _ => ?_
  rw [lhsIdx_eq, rhsIdx_eq]

/-- One row of 64 numbers copied down the 5000 rows of a tile. -/
theorem row_apply (x : Vec Ideal S1x64 .f32) (h1 : S1x64.ShapeCasts S1x64) (h2 : S1x64.Broadcasts S5000x64)
    (q : Fin 5000) (j : Fin 64) :
    broadcastTo S5000x64 (shapeCast S1x64 x h1) h2 (ix2 q j) = x (ix2 0 j) := by
  rw [shapeCast_self]
  exact broadcastTo_1b_ab_apply x h2 q j

/-- The sum of a tile along its rows, at column j: the sum over the row coordinate. -/
theorem colsum_apply (src : FVec Ideal S5000x64 .f32) (h : S5000x64.Reduces [0] S64) (hφ : FKind.Formats .f32)
    (hacc : (0x00000000#32 : BitVec 32) = 0x00000000#32) (j : Fin 64) :
    multiReduction .add [0] S64 src 0x00000000#32 h hφ hacc (ix1 j) = ∑ q : Fin 5000, src (ix2 q j) := by
  refine (Ideal.multiReduction_add_single src 0x00000000#32 h hφ hacc (ix1 j)).trans ?_
  show ∑ q : Fin 5000, src (h.lift (ix1 j) q) = _
  refine Finset.sum_congr rfl fun q _ => congrArg src ?_
  funext a
  match a with
  | ⟨0, _⟩ => rfl
  | ⟨1, _⟩ => rfl

/-- The tile's value relu(relu(x·Wa + ba)·Wb + bb) at row q and column j. -/
theorem pay4_apply (x0 : Vec Ideal S5000x64 .f32) (x1 : Vec Ideal S64x64 .f32) (x2 : Vec Ideal S1x64 .f32)
    (x3 : Vec Ideal S64x64 .f32) (x4 : Vec Ideal S1x64 .f32) (q : Fin 5000) (j : Fin 64) :
    k0_pay4 (F := Ideal) x0 x1 x2 x3 x4 (ix2 q j)
      = max ((∑ k : Fin 64, max ((∑ k' : Fin 64, x0 (ix2 q k') * x1 (ix2 k' k)) + x2 (ix2 0 k)) 0 * x3 (ix2 k j))
          + x4 (ix2 0 j)) 0 := by
  unfold k0_pay4
  have h0 : (FloatOps.ofBits (F := Ideal) .f32 0x00000000#32 : EReal) = 0 := Ideal.ofBits_zero_f32
  simp only [maximumf_apply, addf_apply, broadcast_apply, mm_apply, truncf_apply, shapeCast_self,
    broadcastTo_1b_ab_apply, Scalar.ofBits, h0, Ideal.ofBits_zero_f32]

/-- The zero row. -/
theorem pay2_apply (j : Fin 64) : k0_pay2 (F := Ideal) (ix2 0 j) = 0 := Ideal.ofBits_zero_f32
theorem pay3_apply (j : Fin 64) : k0_pay3 (F := Ideal) (ix2 0 j) = 0 := Ideal.ofBits_zero_f32

/-- The running row of column sums after a tile: what it held plus the tile's column sums. -/
theorem pay5_apply (x0 : Vec Ideal S5000x64 .f32) (x1 : Vec Ideal S64x64 .f32) (x2 : Vec Ideal S1x64 .f32)
    (x3 : Vec Ideal S64x64 .f32) (x4 : Vec Ideal S1x64 .f32) (v26 : Vec Ideal S1x64 .f32) (j : Fin 64) :
    k0_pay5 (F := Ideal) x0 x1 x2 x3 x4 v26 (ix2 0 j)
      = v26 (ix2 0 j) + ∑ q : Fin 5000, k0_pay4 (F := Ideal) x0 x1 x2 x3 x4 (ix2 q j) := by
  unfold k0_pay5
  simp only [addf_apply, shapeCast_self, shapeCast_a_1a_apply]
  exact congrArg (v26 (ix2 0 j) + ·) (colsum_apply (k0_pay4 (F := Ideal) x0 x1 x2 x3 x4) _ _ _ j)

/-- The running row of squared column sums after a tile: what it held plus the column sums of the tile's squares. -/
theorem pay1_apply (v24 : FVec Ideal S5000x64 .f32) (v32 : Vec Ideal S1x64 .f32) (j : Fin 64) :
    k0_pay1 (F := Ideal) v24 v32 (ix2 0 j) = v32 (ix2 0 j) + ∑ q : Fin 5000, v24 (ix2 q j) * v24 (ix2 q j) := by
  unfold k0_pay1
  simp only [addf_apply, shapeCast_self, shapeCast_a_1a_apply]
  exact congrArg (v32 (ix2 0 j) + ·) (colsum_apply (mulf v24 v24) _ _ _ j)

end Cert.KernelIdeal.R0Pay

end
-- ==== Proof.R0Blocks.lean ====
/-
  The blocks the row-tile kernel is handed at a grid point, read off the arrays the region finds, and the tile it
  computes from them.

  At point t the first window hands the body rows 5000·t … 5000·t + 4999 of the aggregated features; the two weight
  matrices and the two bias rows are handed whole at every point. So the tile the body computes at point t is rows
  5000·t … 5000·t + 4999 of Linear → ReLU → Linear → ReLU applied to all rows.
-/
import proofs.«135332_j83760452207416_1_alg».proof.Proof.PatchedKernelIdealFrame
import proofs.«135332_j83760452207416_1_alg».proof.Proof.Spec
import proofs.«135332_j83760452207416_1_alg».proof.Proof.R0Pay
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.R0Blocks

open Cert.KernelIdeal Cert.KernelIdeal.Gen Cert.KernelIdeal.GenP

variable (V : (c : Dev nD) → (b : Ref sig .tc) → Buf (Elt Ideal) ((c : Thread nD τ).loc b))

/-- Where each window's block sits at grid point t: the row-tile windows at block row t, the others at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem blk0_apply (c : Dev nD) (t : Fin cfg0.N) (q : Fin 5000) (k : Fin 64) (r : Fin 100000)
    (hr : r.val = 5000 * t.val + q.val) :
    (iblk0 V c 0 t : Vec Ideal S5000x64 .f32) (ix2 q k)
      = (V c (Pipeline.arrRef spec0 0) : S100000x64.Idx → EReal) (ix2 r k) := by
  obtain ⟨e0, e1, -⟩ := idx_facts t
  unfold iblk0
  rw [View.read_apply]
  show V c (Pipeline.arrRef spec0 0) _ = V c (Pipeline.arrRef spec0 0) _
  refine congrArg _ ?_
  funext a
  apply Fin.ext
  match a with
  | ⟨0, _⟩ => show win0_0.index t 0 * 5000 + 1 * q.val = r.val; rw [e0, hr]; omega
  | ⟨1, _⟩ => show win0_0.index t 1 * 64 + 1 * k.val = k.val; rw [e1]; omega

theorem blk1_apply (c : Dev nD) (t : Fin cfg0.N) (p : Fin 64) (k : Fin 64) :
    (iblk0 V c 1 t : Vec Ideal S64x64 .f32) (ix2 p k)
      = (V c (Pipeline.arrRef spec0 1) : S64x64.Idx → EReal) (ix2 p k) := by
  obtain ⟨-, -, a1, b1, a2, b2, a3, b3, a4, b4, -⟩ := idx_facts t
  unfold iblk0
  rw [View.read_apply]
  show V c (Pipeline.arrRef spec0 1) _ = V c (Pipeline.arrRef spec0 1) _
  refine congrArg _ ?_
  funext a
  apply Fin.ext
  match a with
  | ⟨0, _⟩ => show win0_1.index t 0 * 64 + 1 * p.val = p.val; rw [a1]; omega
  | ⟨1, _⟩ => show win0_1.index t 1 * 64 + 1 * k.val = k.val; rw [b1]; omega

theorem blk2_apply (c : Dev nD) (t : Fin cfg0.N) (p : Fin 1) (k : Fin 64) :
    (iblk0 V c 2 t : Vec Ideal S1x64 .f32) (ix2 p k)
      = (V c (Pipeline.arrRef spec0 2) : S1x64.Idx → EReal) (ix2 p k) := by
  obtain ⟨-, -, a1, b1, a2, b2, a3, b3, a4, b4, -⟩ := idx_facts t
  unfold iblk0
  rw [View.read_apply]
  show V c (Pipeline.arrRef spec0 2) _ = V c (Pipeline.arrRef spec0 2) _
  refine congrArg _ ?_
  funext a
  apply Fin.ext
  match a with
  | ⟨0, _⟩ => show win0_2.index t 0 * 1 + 1 * p.val = p.val; rw [a2]; omega
  | ⟨1, _⟩ => show win0_2.index t 1 * 64 + 1 * k.val = k.val; rw [b2]; omega

theorem blk3_apply (c : Dev nD) (t : Fin cfg0.N) (p : Fin 64) (k : Fin 64) :
    (iblk0 V c 3 t : Vec Ideal S64x64 .f32) (ix2 p k)
      = (V c (Pipeline.arrRef spec0 3) : S64x64.Idx → EReal) (ix2 p k) := by
  obtain ⟨-, -, a1, b1, a2, b2, a3, b3, a4, b4, -⟩ := idx_facts t
  unfold iblk0
  rw [View.read_apply]
  show V c (Pipeline.arrRef spec0 3) _ = V c (Pipeline.arrRef spec0 3) _
  refine congrArg _ ?_
  funext a
  apply Fin.ext
  match a with
  | ⟨0, _⟩ => show win0_3.index t 0 * 64 + 1 * p.val = p.val; rw [a3]; omega
  | ⟨1, _⟩ => show win0_3.index t 1 * 64 + 1 * k.val = k.val; rw [b3]; omega

theorem blk4_apply (c : Dev nD) (t : Fin cfg0.N) (p : Fin 1) (k : Fin 64) :
    (iblk0 V c 4 t : Vec Ideal S1x64 .f32) (ix2 p k)
      = (V c (Pipeline.arrRef spec0 4) : S1x64.Idx → EReal) (ix2 p k) := by
  obtain ⟨-, -, a1, b1, a2, b2, a3, b3, a4, b4, -⟩ := idx_facts t
  unfold iblk0
  rw [View.read_apply]
  show V c (Pipeline.arrRef spec0 4) _ = V c (Pipeline.arrRef spec0 4) _
  refine congrArg _ ?_
  funext a
  apply Fin.ext
  match a with
  | ⟨0, _⟩ => show win0_4.index t 0 * 1 + 1 * p.val = p.val; rw [a4]; omega
  | ⟨1, _⟩ => show win0_4.index t 1 * 64 + 1 * k.val = k.val; rw [b4]; omega

/-- The layer's value on all 100000 rows, as a function of the arrays the region finds. -/
abbrev Hmat (c : Dev nD) : Spec.Mat 100000 64 :=
  Spec.mlp (Spec.toMat (V c (Pipeline.arrRef spec0 0) : S100000x64.Idx → EReal))
    (Spec.toMat (V c (Pipeline.arrRef spec0 1) : S64x64.Idx → EReal))
    (fun k => (V c (Pipeline.arrRef spec0 2) : S1x64.Idx → EReal) (ix2 0 k))
    (Spec.toMat (V c (Pipeline.arrRef spec0 3) : S64x64.Idx → EReal))
    (fun k => (V c (Pipeline.arrRef spec0 4) : S1x64.Idx → EReal) (ix2 0 k))

/-- The tile the body computes at grid point t is rows 5000·t … 5000·t + 4999 of the layer's value. -/
theorem tile_apply (c : Dev nD) (t : Fin cfg0.N) (q : Fin 5000) (j : Fin 64) (r : Fin 100000)
    (hr : r.val = 5000 * t.val + q.val) :
    k0_pay4 (F := Ideal) (iblk0 V c 0 t) (iblk0 V c 1 t) (iblk0 V c 2 t) (iblk0 V c 3 t) (iblk0 V c 4 t) (ix2 q j)
      = Hmat V c r j := by
  refine (R0Pay.pay4_apply (iblk0 V c 0 t) (iblk0 V c 1 t) (iblk0 V c 2 t) (iblk0 V c 3 t) (iblk0 V c 4 t) q j).trans ?_
  simp only [blk0_apply V c t q _ r hr, blk1_apply V c t, blk2_apply V c t, blk3_apply V c t, blk4_apply V c t]
  rfl

end Cert.KernelIdeal.R0Blocks

end
-- ==== Proof.LibSums.lean ====
/-
  General facts about finite sums.

  A sum over the index set of a rank-3 array is the triple sum over its coordinates; a double sum over `a < A`, `b < B`
  of a function of the row-major number `a·B + b` is the single sum over the numbers below `A·B`; and a finite
  nonnegative real factor distributes over every finite sum of extended reals, whatever the summands are (the factor is
  finite and cannot change a sign, so multiplying by it is additive at the infinities too). Last, a running sum that is restarted from a fixed value at every multiple of a period is, inside
  each period, that value plus the terms met since the period began.
-/
import Idealize.ShloMosaic.Lib.ValueIdx

noncomputable section

open scoped BigOperators

namespace Cert.LibSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row-major numbering: the pairs `(a, b)` with `a < A`, `b < B` are numbered `a·B + b`, once each, by the numbers
    below `A·B`; so a double sum of a function of that number is the single sum over the numbers. -/
theorem sum_fin_mul {M : Type*} [AddCommMonoid M] (A B : ℕ) (f : ℕ → M) :
    ∑ a : Fin A, ∑ b : Fin B, f (a.val * B + b.val) = ∑ r : Fin (A * B), f r.val := by
  rw [← Equiv.sum_comp finProdFinEquiv (fun r : Fin (A * B) => f r.val), Fintype.sum_prod_type]
  refine Finset.sum_congr rfl fun a _ => Finset.sum_congr rfl fun b _ => ?_
  rw [finProdFinEquiv_apply_val, Nat.add_comm, Nat.mul_comm]

/-- A finite nonnegative real factor distributes over a finite sum of extended reals. No summand need be finite:
    multiplying by `0 ≤ a < ⊤` is additive on all of the extended reals. -/
theorem ereal_mul_sum {ι : Type*} (a : ℝ) (ha : 0 ≤ a) (s : Finset ι) (f : ι → EReal) :
    (a : EReal) * ∑ i ∈ s, f i = ∑ i ∈ s, (a : EReal) * f i := by
  classical
  refine Finset.induction_on s ?_ ?_
  · rw [Finset.sum_empty, Finset.sum_empty, mul_zero]
  · intro i s hi ih
    rw [Finset.sum_insert hi, Finset.sum_insert hi,
      EReal.left_distrib_of_nonneg_of_ne_top (EReal.coe_nonneg.2 ha) (EReal.coe_ne_top a), ih]

/-- A running sum that restarts with period `P`: if `S` is set to `z + G n` at every multiple `n` of `P` and grows by
    `G (n + 1)` at every other step, then inside the period that starts at `q·P` it is `z` plus the terms met so far. -/
theorem restart_sum {M : Type*} [AddCommMonoid M] (P : ℕ) (hP : 0 < P) (G S : ℕ → M) (z : M)
    (h0 : ∀ n, n % P = 0 → S n = z + G n)
    (hs : ∀ n, (n + 1) % P ≠ 0 → S (n + 1) = S n + G (n + 1)) :
    ∀ q s, s < P → S (q * P + s) = z + ∑ i ∈ Finset.range (s + 1), G (q * P + i) := by
  intro q s
  induction s with
  | zero =>
    intro _
    rw [Finset.sum_range_one]
    exact h0 _ (Nat.mul_mod_left q P)
  | succ s ih =>
    intro hs1
    have hne : (q * P + s + 1) % P ≠ 0 := by
      rw [Nat.add_assoc, Nat.mul_add_mod_self_right, Nat.mod_eq_of_lt hs1]
      exact Nat.succ_ne_zero s
    have step : S (q * P + s + 1) = S (q * P + s) + G (q * P + s + 1) := hs _ hne
    show S (q * P + s + 1) = z + ∑ i ∈ Finset.range (s + 1 + 1), G (q * P + i)
    rw [step, ih (Nat.lt_of_succ_lt hs1), Finset.sum_range_succ _ (s + 1), add_assoc]
    rfl

/-- At the last step of a period the running sum is `z` plus all `P` terms of the period. -/
theorem restart_sum_last {M : Type*} [AddCommMonoid M] (P : ℕ) (hP : 0 < P) (G S : ℕ → M) (z : M)
    (h0 : ∀ n, n % P = 0 → S n = z + G n)
    (hs : ∀ n, (n + 1) % P ≠ 0 → S (n + 1) = S n + G (n + 1)) (q : ℕ) :
    S (q * P + (P - 1)) = z + ∑ i : Fin P, G (q * P + i.val) := by
  rw [restart_sum P hP G S z h0 hs q (P - 1) (Nat.sub_lt hP Nat.one_pos), Nat.sub_add_cancel (Nat.succ_le_of_lt hP)]
  exact congrArg (fun t => z + t) (Fin.sum_univ_eq_sum_range (fun i => G (q * P + i)) P).symm

end Cert.LibSums

end
-- ==== Proof.R0Acc.lean ====
/-
  The three output buffers after every grid point, and the two running rows as sums over the tiles met so far.

  After point t the first buffer holds tile t of the layer's value. The row of column sums is zeroed at point 0 and
  every point adds its tile's column sums, so after point n it holds the column sums of tiles 0 … n; the row of squared
  column sums likewise. The twenty tiles of 5000 rows are the 100000 rows, each once.
-/
import proofs.«135332_j83760452207416_1_alg».proof.Proof.R0Pieces
import proofs.«135332_j83760452207416_1_alg».proof.Proof.R0Blocks
import proofs.«135332_j83760452207416_1_alg».proof.Proof.LibSums

noncomputable section

open scoped BigOperators
open Idealize.ShloMosaic Idealize.ShloMosaic.TcCoe Idealize.SL.Sem Idealize.ShloMosaic.ValueIdx
open Idealize.ShloMosaic.Pipeline (Dat)

namespace Cert.KernelIdeal.R0Acc

open Cert.KernelIdeal Cert.KernelIdeal.Gen Cert.KernelIdeal.GenP Cert.KernelIdeal.R0Blocks

variable (V : (c : Dev nD) → (b : Ref sig .tc) → Buf (Elt Ideal) ((c : Thread nD τ).loc b))

/-- After every point the first buffer holds the tile's value of the point's blocks. -/
theorem outs5 (c : Dev nD) (t : Fin cfg0.N) :
    (outsAt0 V c t.val t.isLt).1 = k0_pay4 (F := Ideal) (iblk0 V c 0 t) (iblk0 V c 1 t) (iblk0 V c 2 t) (iblk0 V c 3 t) (iblk0 V c 4 t) := by
  by_cases h0 : t.val % 20 = 0
  · rw [outsAt0_A V c t h0]
    dsimp only
    exact R0Pieces.outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
  · rw [outsAt0_B V c t h0]
    dsimp only
    exact R0Pieces.outB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) _ _

/-- The layer's value by row number, zero past the last row. -/
def Hn (c : Dev nD) (r : ℕ) (j : Fin 64) : EReal := if h : r < 100000 then Hmat V c ⟨r, h⟩ j else 0

/-- A tile's entries are the layer's value at rows 5000·t + q. -/
theorem tile_eq (c : Dev nD) (t : Fin cfg0.N) (q : Fin 5000) (j : Fin 64) :
    k0_pay4 (F := Ideal) (iblk0 V c 0 t) (iblk0 V c 1 t) (iblk0 V c 2 t) (iblk0 V c 3 t) (iblk0 V c 4 t) (ix2 q j) = Hn V c (t.val * 5000 + q.val) j := by
  have hN : t.val < 20 := lt_of_lt_of_eq t.isLt (show cfg0.N = 20 from N_0)
  have hr : t.val * 5000 + q.val < 100000 := by have := q.isLt; omega
  unfold Hn
  rw [dif_pos hr]
  exact tile_apply V c t q j ⟨t.val * 5000 + q.val, hr⟩ (by show t.val * 5000 + q.val = 5000 * t.val + q.val; omega)

/-- The row of column sums after point n: the column sums of tiles 0 … n. -/
theorem acc6 (c : Dev nD) : ∀ (n : ℕ) (hn : n < cfg0.N) (j : Fin 64),
    (outsAt0 V c n hn).2.1 (ix2 0 j) = ∑ s ∈ Finset.range (n + 1), ∑ q : Fin 5000, Hn V c (s * 5000 + q.val) j
  | 0, hn, j => by
    rw [outsAt0_A V c ⟨0, hn⟩ rfl]
    dsimp only
    rw [R0Pieces.outA6 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩),
      R0Pay.pay5_apply (iblk0 V c 0 ⟨0, hn⟩) (iblk0 V c 1 ⟨0, hn⟩) (iblk0 V c 2 ⟨0, hn⟩) (iblk0 V c 3 ⟨0, hn⟩) (iblk0 V c 4 ⟨0, hn⟩) (k0_pay2 (F := Ideal)) j, R0Pay.pay2_apply, zero_add, Finset.sum_range_one]
    exact Finset.sum_congr rfl fun q _ => tile_eq V c ⟨0, hn⟩ q j
  | n + 1, hn, j => by
    have hN : n + 1 < 20 := lt_of_lt_of_eq hn (show cfg0.N = 20 from N_0)
    have hB : ¬(⟨n + 1, hn⟩ : Fin cfg0.N).val % 20 = 0 := by dsimp only; omega
    rw [outsAt0_B V c ⟨n + 1, hn⟩ hB]
    dsimp only
    rw [R0Pieces.outB6 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _ _,
      R0Pay.pay5_apply (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _ j]
    show (outsAt0 V c n _).2.1 (ix2 0 j) + _ = _
    rw [acc6 c n _ j, Finset.sum_range_succ _ (n + 1)]
    exact congrArg (_ + ·) (Finset.sum_congr rfl fun q _ => tile_eq V c ⟨n + 1, hn⟩ q j)

/-- The row of squared column sums after point n: the column sums of the squares of tiles 0 … n. -/
theorem acc7 (c : Dev nD) : ∀ (n : ℕ) (hn : n < cfg0.N) (j : Fin 64),
    (outsAt0 V c n hn).2.2 (ix2 0 j)
      = ∑ s ∈ Finset.range (n + 1), ∑ q : Fin 5000, Hn V c (s * 5000 + q.val) j * Hn V c (s * 5000 + q.val) j
  | 0, hn, j => by
    rw [outsAt0_A V c ⟨0, hn⟩ rfl]
    dsimp only
    rw [R0Pieces.outA7 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩),
      R0Pay.pay1_apply (k0_pay4 (F := Ideal) (iblk0 V c 0 ⟨0, hn⟩) (iblk0 V c 1 ⟨0, hn⟩) (iblk0 V c 2 ⟨0, hn⟩) (iblk0 V c 3 ⟨0, hn⟩) (iblk0 V c 4 ⟨0, hn⟩)) (k0_pay3 (F := Ideal)) j, R0Pay.pay3_apply, zero_add, Finset.sum_range_one]
    exact Finset.sum_congr rfl fun q _ => by rw [tile_eq V c ⟨0, hn⟩ q j]
  | n + 1, hn, j => by
    have hN : n + 1 < 20 := lt_of_lt_of_eq hn (show cfg0.N = 20 from N_0)
    have hB : ¬(⟨n + 1, hn⟩ : Fin cfg0.N).val % 20 = 0 := by dsimp only; omega
    rw [outsAt0_B V c ⟨n + 1, hn⟩ hB]
    dsimp only
    rw [R0Pieces.outB7 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) _ _,
      R0Pay.pay1_apply (k0_pay4 (F := Ideal) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)) _ j]
    show (outsAt0 V c n _).2.2 (ix2 0 j) + _ = _
    rw [acc7 c n _ j, Finset.sum_range_succ _ (n + 1)]
    exact congrArg (_ + ·) (Finset.sum_congr rfl fun q _ => by rw [tile_eq V c ⟨n + 1, hn⟩ q j])

/-- Twenty tiles of 5000 rows are the 100000 rows, each once. -/
theorem sum_tiles (f : ℕ → EReal) :
    ∑ s ∈ Finset.range 20, ∑ q : Fin 5000, f (s * 5000 + q.val) = ∑ r : Fin 100000, f r.val := by
  rw [← Fin.sum_univ_eq_sum_range (fun s => ∑ q : Fin 5000, f (s * 5000 + q.val)) 20]
  exact LibSums.sum_fin_mul 20 5000 f

/-- After the last point the row of column sums holds the column sums of the layer's value, -/
theorem last6 (c : Dev nD) (hn : 19 < cfg0.N) (j : Fin 64) :
    (outsAt0 V c 19 hn).2.1 (ix2 0 j) = Spec.colSum (Hmat V c) j := by
  rw [acc6 V c 19 hn j, sum_tiles (fun r => Hn V c r j)]
  unfold Spec.colSum
  exact Finset.sum_congr rfl fun r _ => by unfold Hn; rw [dif_pos r.isLt]

/-- and the other row the column sums of its squares. -/
theorem last7 (c : Dev nD) (hn : 19 < cfg0.N) (j : Fin 64) :
    (outsAt0 V c 19 hn).2.2 (ix2 0 j) = Spec.colSumSq (Hmat V c) j := by
  rw [acc7 V c 19 hn j, sum_tiles (fun r => Hn V c r j * Hn V c r j)]
  unfold Spec.colSumSq
  exact Finset.sum_congr rfl fun r _ => by unfold Hn; rw [dif_pos r.isLt]

end Cert.KernelIdeal.R0Acc

end
-- ==== Proof.R0Value.lean ====
/-
  What the row-tile kernel's three output arrays hold when the region ends.

  Every grid point writes its tile back, and the twenty tiles cover the 100000 rows, so the first array ends holding
  Linear → ReLU → Linear → ReLU of every row. The two rows of running sums are written back once, after the last point,
  when they hold the sums over all twenty tiles: the column sums of that matrix and of its squares.
-/
import proofs.«135332_j83760452207416_1_alg».proof.Proof.R0Acc

noncomputable section

open scoped BigOperators
open Idealize.ShloMosaic Idealize.ShloMosaic.TcCoe Idealize.SL.Sem Idealize.ShloMosaic.ValueIdx
open Idealize.ShloMosaic.Pipeline (Dat)

namespace Cert.KernelIdeal.R0Value

open Cert.KernelIdeal Cert.KernelIdeal.Gen Cert.KernelIdeal.GenP Cert.KernelIdeal.R0Blocks Cert.KernelIdeal.R0Acc

variable (V : (c : Dev nD) → (b : Ref sig .tc) → Buf (Elt Ideal) ((c : Thread nD τ).loc b))

/-- The grid has twenty points; the last is point 19. -/
theorem lt19 : 19 < cfg0.N := by rw [show cfg0.N = 20 from N_0]; decide

/-- The buffers after a point depend on the point's number only. -/
theorem outsAt0_congr (c : Dev nD) {n m : ℕ} (h : n = m) (hn : n < cfg0.N) (hm : m < cfg0.N) :
    outsAt0 V c n hn = outsAt0 V c m hm := by subst h; rfl

/-- An index of the array lies in point t's block of window 5 exactly when each coordinate is in the block's range. -/
theorem mem_blk5 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v17_0).slice (win0_5.rect t)).set ↔ _
  rw [View.set_slice_whole, Rect.mem_set_unit]
  exact Iff.rfl

/-- An index of the array lies in point t's block of window 6 exactly when each coordinate is in the block's range. -/
theorem mem_blk6 (t : Fin cfg0.N) (i : S1x64.Idx) :
    i ∈ ((cfg0.win 6).blk t).view.set ↔ ∀ a : Fin 2, win0_6.index t a * S1x64.size a ≤ (i a).val
      ∧ (i a).val < win0_6.index t a * S1x64.size a + S1x64.size a := by
  show i ∈ ((View.whole main_v17_1).slice (win0_6.rect t)).set ↔ _
  rw [View.set_slice_whole, Rect.mem_set_unit]
  exact Iff.rfl

/-- An index of the array lies in point t's block of window 7 exactly when each coordinate is in the block's range. -/
theorem mem_blk7 (t : Fin cfg0.N) (i : S1x64.Idx) :
    i ∈ ((cfg0.win 7).blk t).view.set ↔ ∀ a : Fin 2, win0_7.index t a * S1x64.size a ≤ (i a).val
      ∧ (i a).val < win0_7.index t a * S1x64.size a + S1x64.size a := by
  show i ∈ ((View.whole main_v17_2).slice (win0_7.rect t)).set ↔ _
  rw [View.set_slice_whole, Rect.mem_set_unit]
  exact Iff.rfl

/-- What point t writes back of the first output is block t of the layer's value. -/
theorem flushed5 (c : Dev nD) (t : Fin cfg0.N) :
    (dat0 V c).flushed 5 t
      = ((cfg0.win 5).blk t).view.read (Elt Ideal) (fun i : S100000x64.Idx => Hmat V c (i 0) (i 1)) := by
  obtain ⟨-, -, -, -, -, -, -, -, -, -, e0, e1, -⟩ := idx_facts t
  have hN : t.val < 20 := lt_of_lt_of_eq t.isLt (show cfg0.N = 20 from N_0)
  show (cfg0.win 5).cut (grid0.coords t) ((dat0 V c).after 5 t) = _
  rw [after0_5, outs5]
  funext y
  obtain ⟨q, j, rfl⟩ : ∃ (q : Fin 5000) (j : Fin 64), (y : S5000x64.Idx) = ix2 q j := ⟨y 0, y 1, eq_ix2 y⟩
  rw [View.read_apply]
  have hq : q.val < 5000 := q.isLt
  refine (tile_apply V c t q j ⟨5000 * t.val + q.val, by omega⟩ rfl).trans ?_
  show Hmat V c _ _ = Hmat V c ((((cfg0.win 5).blk t).view.emb (ix2 q j)) 0) ((((cfg0.win 5).blk t).view.emb (ix2 q j)) 1)
  exact congrArg₂ (Hmat V c)
    (Fin.ext (show 5000 * t.val + q.val = win0_5.index t 0 * 5000 + 1 * q.val by rw [e0]; omega))
    (Fin.ext (show j.val = win0_5.index t 1 * 64 + 1 * j.val by rw [e1]; omega))

/-- The twenty blocks cover the array, so it ends holding the layer's value on every row. -/
theorem arr5 (c : Dev nD) :
    (dat0 V c).arrAt 5 cfg0.N = fun i : S100000x64.Idx => Hmat V c (i 0) (i 1) :=
  (dat0 V c).arrAt_eq_of_cover 5 _ (fun t _ => flushed5 V c t) fun i => by
    have hN : cfg0.N = 20 := N_0
    have h0 : (i 0).val < 100000 := idx2_lt0 i
    have h1 : (i 1).val < 64 := idx2_lt1 i
    have ht : (i 0).val / 5000 < cfg0.N := by rw [hN]; omega
    obtain ⟨-, -, -, -, -, -, -, -, -, -, e0, e1, -⟩ := idx_facts ⟨(i 0).val / 5000, ht⟩
    refine ⟨⟨(i 0).val / 5000, ht⟩, flush0_5 _, ?_⟩
    rw [mem_blk5]
    intro a
    match a with
    | ⟨0, _⟩ => show win0_5.index _ 0 * 5000 ≤ (i 0).val ∧ (i 0).val < win0_5.index _ 0 * 5000 + 5000; rw [e0]; dsimp only; omega
    | ⟨1, _⟩ => show win0_5.index _ 1 * 64 ≤ (i 1).val ∧ (i 1).val < win0_5.index _ 1 * 64 + 64; rw [e1]; omega

/-- The one write-back of window 6, after the last point, writes the row the buffer then holds (named g here, so
    that nothing below looks inside a sum over 100000 rows). -/
theorem flushed6 (c : Dev nD) (g : Fin 64 → EReal)
    (hg : ∀ j : Fin 64, (outsAt0 V c 19 lt19).2.1 (ix2 0 j) = g j)
    (t : Fin cfg0.N) (hf : (cfg0.win 6).flush t = true) :
    (dat0 V c).flushed 6 t
      = ((cfg0.win 6).blk t).view.read (Elt Ideal) (fun i : S1x64.Idx => g (i 1)) := by
  have hN : cfg0.N = 20 := N_0
  have h19 : t.val = 19 := by have := (flush0_6 t).mp hf; have := t.isLt; omega
  obtain ⟨-, -, -, -, -, -, -, -, -, -, -, -, a6, b6, a7, b7⟩ := idx_facts t
  show (cfg0.win 6).cut (grid0.coords t) ((dat0 V c).after 6 t) = _
  rw [after0_6]
  funext y
  obtain ⟨u, j, rfl⟩ : ∃ (u : Fin 1) (j : Fin 64), (y : S1x64.Idx) = ix2 u j := ⟨y 0, y 1, eq_ix2 y⟩
  obtain rfl : u = 0 := Subsingleton.elim _ _
  rw [View.read_apply]
  show (outsAt0 V c t.val t.isLt).2.1 (ix2 0 j) = g ((((cfg0.win 6).blk t).view.emb (ix2 0 j)) 1)
  rw [outsAt0_congr V c h19 t.isLt lt19, hg j]
  exact congrArg _ (Fin.ext (show j.val = win0_6.index t 1 * 64 + 1 * j.val by rw [b6]; omega))

/-- So window 6's array ends holding that row. -/
theorem arrRow6 (c : Dev nD) (g : Fin 64 → EReal)
    (hg : ∀ j : Fin 64, (outsAt0 V c 19 lt19).2.1 (ix2 0 j) = g j) :
    (dat0 V c).arrAt 6 cfg0.N = fun i : S1x64.Idx => g (i 1) :=
  (dat0 V c).arrAt_eq_of_cover 6 _ (flushed6 V c g hg) fun i => by
    have hN : cfg0.N = 20 := N_0
    obtain ⟨-, -, -, -, -, -, -, -, -, -, -, -, a6, b6, a7, b7⟩ := idx_facts ⟨19, lt19⟩
    refine ⟨⟨19, lt19⟩, (flush0_6 _).mpr rfl, ?_⟩
    rw [mem_blk6]
    have h0 : (i 0).val < 1 := idx2_lt0 i
    have h1 : (i 1).val < 64 := idx2_lt1 i
    intro a
    match a with
    | ⟨0, _⟩ => show win0_6.index _ 0 * 1 ≤ (i 0).val ∧ (i 0).val < win0_6.index _ 0 * 1 + 1; rw [a6]; omega
    | ⟨1, _⟩ => show win0_6.index _ 1 * 64 ≤ (i 1).val ∧ (i 1).val < win0_6.index _ 1 * 64 + 64; rw [b6]; omega

/-- The one write-back of window 7, after the last point, writes the row the buffer then holds (named g here, so
    that nothing below looks inside a sum over 100000 rows). -/
theorem flushed7 (c : Dev nD) (g : Fin 64 → EReal)
    (hg : ∀ j : Fin 64, (outsAt0 V c 19 lt19).2.2 (ix2 0 j) = g j)
    (t : Fin cfg0.N) (hf : (cfg0.win 7).flush t = true) :
    (dat0 V c).flushed 7 t
      = ((cfg0.win 7).blk t).view.read (Elt Ideal) (fun i : S1x64.Idx => g (i 1)) := by
  have hN : cfg0.N = 20 := N_0
  have h19 : t.val = 19 := by have := (flush0_7 t).mp hf; have := t.isLt; omega
  obtain ⟨-, -, -, -, -, -, -, -, -, -, -, -, a6, b6, a7, b7⟩ := idx_facts t
  show (cfg0.win 7).cut (grid0.coords t) ((dat0 V c).after 7 t) = _
  rw [after0_7]
  funext y
  obtain ⟨u, j, rfl⟩ : ∃ (u : Fin 1) (j : Fin 64), (y : S1x64.Idx) = ix2 u j := ⟨y 0, y 1, eq_ix2 y⟩
  obtain rfl : u = 0 := Subsingleton.elim _ _
  rw [View.read_apply]
  show (outsAt0 V c t.val t.isLt).2.2 (ix2 0 j) = g ((((cfg0.win 7).blk t).view.emb (ix2 0 j)) 1)
  rw [outsAt0_congr V c h19 t.isLt lt19, hg j]
  exact congrArg _ (Fin.ext (show j.val = win0_7.index t 1 * 64 + 1 * j.val by rw [b7]; omega))

/-- So window 7's array ends holding that row. -/
theorem arrRow7 (c : Dev nD) (g : Fin 64 → EReal)
    (hg : ∀ j : Fin 64, (outsAt0 V c 19 lt19).2.2 (ix2 0 j) = g j) :
    (dat0 V c).arrAt 7 cfg0.N = fun i : S1x64.Idx => g (i 1) :=
  (dat0 V c).arrAt_eq_of_cover 7 _ (flushed7 V c g hg) fun i => by
    have hN : cfg0.N = 20 := N_0
    obtain ⟨-, -, -, -, -, -, -, -, -, -, -, -, a6, b6, a7, b7⟩ := idx_facts ⟨19, lt19⟩
    refine ⟨⟨19, lt19⟩, (flush0_7 _).mpr rfl, ?_⟩
    rw [mem_blk7]
    have h0 : (i 0).val < 1 := idx2_lt0 i
    have h1 : (i 1).val < 64 := idx2_lt1 i
    intro a
    match a with
    | ⟨0, _⟩ => show win0_7.index _ 0 * 1 ≤ (i 0).val ∧ (i 0).val < win0_7.index _ 0 * 1 + 1; rw [a7]; omega
    | ⟨1, _⟩ => show win0_7.index _ 1 * 64 ≤ (i 1).val ∧ (i 1).val < win0_7.index _ 1 * 64 + 64; rw [b7]; omega

/-- The second output array ends holding the column sums of the layer's value, -/
theorem arr6 (c : Dev nD) :
    (dat0 V c).arrAt 6 cfg0.N = fun i : S1x64.Idx => Spec.colSum (Hmat V c) (i 1) :=
  arrRow6 V c (Spec.colSum (Hmat V c)) (last6 V c lt19)

/-- and the third the column sums of its squares. -/
theorem arr7 (c : Dev nD) :
    (dat0 V c).arrAt 7 cfg0.N = fun i : S1x64.Idx => Spec.colSumSq (Hmat V c) (i 1) :=
  arrRow7 V c (Spec.colSumSq (Hmat V c)) (last7 V c lt19)

end Cert.KernelIdeal.R0Value

end
-- ==== Proof.R1Value.lean ====
/-
  What the normalising region leaves in its output array: every entry of the region's first array, minus its
  column's mean, times the reciprocal square root of the column's variance plus ε, times γ, plus β — the body's one
  pointwise expression on a block of 5000 rows, and the blocks tile the rows (block t is rows 5000·t … 5000·t + 4999).
-/
import proofs.«135332_j83760452207416_1_alg».proof.Proof.PatchedKernelIdealFrame
import proofs.«135332_j83760452207416_1_alg».proof.Proof.Spec
import Idealize.ShloMosaic.Lib.Pipeline.Value
import Idealize.ShloMosaic.Lib.ValueLayout

set_option maxRecDepth 16384

noncomputable section

namespace Cert.KernelIdeal.R1Value

open Cert.KernelIdeal Cert.KernelIdeal.Gen Cert.KernelIdeal.GenP Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A 1 × 64 array as its one row. -/
abbrev row (v : S1x64.Idx → EReal) : Fin 64 → EReal := fun j => v (ix2 (0 : Fin 1) j)

/-- The normalisation as a function of whole arrays. -/
def G (h : S100000x64.Idx → EReal) (mu var g be : S1x64.Idx → EReal) : S100000x64.Idx → EReal :=
  fun i => Spec.bn (toMat h) (row mu) (row var) (row g) (row be) (i 0) (i 1)

/-- The body's expression at an entry of a block. -/
theorem pay_apply (x0 : Vec Ideal S5000x64 .f32) (xvar xmu xg xbe : Vec Ideal S1x64 .f32) (p : Fin 5000) (q : Fin 64) :
    k1_pay1 (F := Ideal) x0 xvar xmu xg xbe (ix2 p q)
      = (x0 (ix2 p q) - xmu (ix2 (0 : Fin 1) q)) * Ideal.rsqrt (xvar (ix2 (0 : Fin 1) q) + cEps) * xg (ix2 (0 : Fin 1) q)
        + xbe (ix2 (0 : Fin 1) q) := by
  unfold k1_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- Where the windows' blocks sit: the row windows (0 in, 5 out) at block (t, 0), the four rows of statistics at (0, 0). -/
theorem idx_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem hN : cfg1.N = 20 := N_1

/-- Row `p` of block `t` is row 5000·t + p. -/
abbrev rowOf (t : Fin cfg1.N) (p : Fin 5000) : Fin 100000 := ⟨5000 * t.val + p.val, by have h : t.val < 20 := lt_of_lt_of_eq t.isLt hN; have := p.isLt; omega⟩

/-- An entry of the output block sits in the array at (5000·t + p, q). -/
theorem emb5 (t : Fin cfg1.N) (p : Fin 5000) (q : Fin 64) :
    ((cfg1.win 5).blk t).view.emb (ix2 p q) = ix2 (rowOf t p) q := by
  obtain ⟨-, -, e0, e1, -⟩ := idx_facts t
  funext a; apply Fin.ext
  match a with
  | ⟨0, _⟩ => show win1_5.index t (0 : Fin 2) * 5000 + 1 * p.val = 5000 * t.val + p.val; rw [e0]; omega
  | ⟨1, _⟩ => show win1_5.index t (1 : Fin 2) * 64 + 1 * q.val = q.val; rw [e1]; omega

/-- The input block's entry is the array's at the same place. -/
theorem read0 (c : Dev nD) (t : Fin cfg1.N) (p : Fin 5000) (q : Fin 64) :
    iblk1 V c 0 t (ix2 p q) = V c main_v17_0 (ix2 (rowOf t p) q) := by
  obtain ⟨e0, e1, -⟩ := idx_facts t
  show V c main_v17_0 (((cfg1.win 0).blk t).view.emb (ix2 p q)) = _
  refine congrArg _ (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 64 + 1 * q.val = q.val; rw [e1]; omega

/-- A statistics window's block is its whole one-row array. -/
theorem read1 (c : Dev nD) (t : Fin cfg1.N) (q : Fin 64) : iblk1 V c 1 t (ix2 (0 : Fin 1) q) = V c main_v26 (ix2 (0 : Fin 1) q) := by
  obtain ⟨-, -, -, -, e0, e1, -⟩ := idx_facts t
  show V c main_v26 (((cfg1.win 1).blk t).view.emb (ix2 (0 : Fin 1) q)) = _
  refine congrArg _ (funext fun a => Fin.ext ?_)
  match a with
  | ⟨0, _⟩ => show win1_1.index t (0 : Fin 2) * 1 + 1 * 0 = 0; rw [e0]
  | ⟨1, _⟩ => show win1_1.index t (1 : Fin 2) * 64 + 1 * q.val = q.val; rw [e1]; omega
theorem read2 (c : Dev nD) (t : Fin cfg1.N) (q : Fin 64) : iblk1 V c 2 t (ix2 (0 : Fin 1) q) = V c main_v27 (ix2 (0 : Fin 1) q) := by
  obtain ⟨-, -, -, -, -, -, e0, e1, -⟩ := idx_facts t
  show V c main_v27 (((cfg1.win 2).blk t).view.emb (ix2 (0 : Fin 1) q)) = _
  refine congrArg _ (funext fun a => Fin.ext ?_)
  match a with
  | ⟨0, _⟩ => show win1_2.index t (0 : Fin 2) * 1 + 1 * 0 = 0; rw [e0]
  | ⟨1, _⟩ => show win1_2.index t (1 : Fin 2) * 64 + 1 * q.val = q.val; rw [e1]; omega
theorem read3 (c : Dev nD) (t : Fin cfg1.N) (q : Fin 64) : iblk1 V c 3 t (ix2 (0 : Fin 1) q) = V c main_v28 (ix2 (0 : Fin 1) q) := by
  obtain ⟨-, -, -, -, -, -, -, -, e0, e1, -⟩ := idx_facts t
  show V c main_v28 (((cfg1.win 3).blk t).view.emb (ix2 (0 : Fin 1) q)) = _
  refine congrArg _ (funext fun a => Fin.ext ?_)
  match a with
  | ⟨0, _⟩ => show win1_3.index t (0 : Fin 2) * 1 + 1 * 0 = 0; rw [e0]
  | ⟨1, _⟩ => show win1_3.index t (1 : Fin 2) * 64 + 1 * q.val = q.val; rw [e1]; omega
theorem read4 (c : Dev nD) (t : Fin cfg1.N) (q : Fin 64) : iblk1 V c 4 t (ix2 (0 : Fin 1) q) = V c main_v29 (ix2 (0 : Fin 1) q) := by
  obtain ⟨-, -, -, -, -, -, -, -, -, -, e0, e1⟩ := idx_facts t
  show V c main_v29 (((cfg1.win 4).blk t).view.emb (ix2 (0 : Fin 1) q)) = _
  refine congrArg _ (funext fun a => Fin.ext ?_)
  match a with
  | ⟨0, _⟩ => show win1_4.index t (0 : Fin 2) * 1 + 1 * 0 = 0; rw [e0]
  | ⟨1, _⟩ => show win1_4.index t (1 : Fin 2) * 64 + 1 * q.val = q.val; rw [e1]; omega

/-- What point `t` writes back is block `t` of the normalisation of the whole arrays. -/
theorem flushed_eq (c : Dev nD) (t : Fin cfg1.N) :
    (dat1 V c).flushed 5 t = ((cfg1.win 5).blk t).view.read (Elt Ideal)
      (G (V c main_v17_0) (V c main_v26) (V c main_v27) (V c main_v28) (V c main_v29)) := by
  show (cfg1.win 5).cut (grid1.coords t) ((dat1 V c).after 5 t) = _
  rw [after1_5]
  unfold out1_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  show k1_pay1 (F := Ideal) (iblk1 V c 0 t) (iblk1 V c 2 t) (iblk1 V c 1 t) (iblk1 V c 3 t) (iblk1 V c 4 t) (ix2 p q)
    = G (V c main_v17_0) (V c main_v26) (V c main_v27) (V c main_v28) (V c main_v29) (((cfg1.win 5).blk t).view.emb (ix2 p q))
  refine (pay_apply _ _ _ _ _ p q).trans ?_
  rw [emb5, read0, read1, read2, read3, read4]
  rfl

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v30).slice (win1_5.rect t)).set ↔ _
  rw [View.set_slice_whole, Rect.mem_set_unit]
  exact Iff.rfl

/-- Every row is in its tile's block. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have ht : (i 0).val / 5000 < cfg1.N := by rw [hN]; omega
  refine ⟨⟨(i 0).val / 5000, ht⟩, flush1_5 _, ?_⟩
  rw [mem_blk]
  obtain ⟨-, -, e0, e1, -⟩ := idx_facts ⟨(i 0).val / 5000, ht⟩
  intro a
  match a with
  | ⟨0, _⟩ => show win1_5.index ⟨(i 0).val / 5000, ht⟩ (0 : Fin 2) * 5000 ≤ (i 0).val ∧ (i 0).val < win1_5.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win1_5.index ⟨(i 0).val / 5000, ht⟩ (1 : Fin 2) * 64 ≤ (i 1).val ∧ (i 1).val < win1_5.index ⟨(i 0).val / 5000, ht⟩ (1 : Fin 2) * 64 + 64; rw [e1]; omega

/-- THE ARRAY after the region: the normalisation of the region's arrays as it found them. -/
theorem arr5 (c : Dev nD) : (dat1 V c).arrAt 5 cfg1.N
    = G (V c main_v17_0) (V c main_v26) (V c main_v27) (V c main_v28) (V c main_v29) :=
  (dat1 V c).arrAt_eq_of_cover 5 _ (fun t _ => flushed_eq V c t) cover

end Cert.KernelIdeal.R1Value

end
-- ==== Proof.R3Value.lean ====
/-
  What the normalising region leaves in its output array: every entry of the region's first array, minus its
  column's mean, times the reciprocal square root of the column's variance plus ε, times γ, plus β — the body's one
  pointwise expression on a block of 5000 rows, and the blocks tile the rows (block t is rows 5000·t … 5000·t + 4999).
-/
import proofs.«135332_j83760452207416_1_alg».proof.Proof.PatchedKernelIdealFrame
import proofs.«135332_j83760452207416_1_alg».proof.Proof.Spec
import Idealize.ShloMosaic.Lib.Pipeline.Value
import Idealize.ShloMosaic.Lib.ValueLayout

set_option maxRecDepth 16384

noncomputable section

namespace Cert.KernelIdeal.R3Value

open Cert.KernelIdeal Cert.KernelIdeal.Gen Cert.KernelIdeal.GenP Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A 1 × 2 array as its one row. -/
abbrev row (v : S1x2.Idx → EReal) : Fin 2 → EReal := fun j => v (ix2 (0 : Fin 1) j)

/-- The normalisation as a function of whole arrays. -/
def G (h : S100000x2.Idx → EReal) (mu var g be : S1x2.Idx → EReal) : S100000x2.Idx → EReal :=
  fun i => Spec.bn (toMat h) (row mu) (row var) (row g) (row be) (i 0) (i 1)

/-- The body's expression at an entry of a block. -/
theorem pay_apply (x0 : Vec Ideal S5000x2 .f32) (xvar xmu xg xbe : Vec Ideal S1x2 .f32) (p : Fin 5000) (q : Fin 2) :
    k3_pay1 (F := Ideal) x0 xvar xmu xg xbe (ix2 p q)
      = (x0 (ix2 p q) - xmu (ix2 (0 : Fin 1) q)) * Ideal.rsqrt (xvar (ix2 (0 : Fin 1) q) + cEps) * xg (ix2 (0 : Fin 1) q)
        + xbe (ix2 (0 : Fin 1) q) := by
  unfold k3_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- Where the windows' blocks sit: the row windows (0 in, 5 out) at block (t, 0), the four rows of statistics at (0, 0). -/
theorem idx_facts : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

theorem hN : cfg3.N = 20 := N_3

/-- Row `p` of block `t` is row 5000·t + p. -/
abbrev rowOf (t : Fin cfg3.N) (p : Fin 5000) : Fin 100000 := ⟨5000 * t.val + p.val, by have h : t.val < 20 := lt_of_lt_of_eq t.isLt hN; have := p.isLt; omega⟩

/-- An entry of the output block sits in the array at (5000·t + p, q). -/
theorem emb5 (t : Fin cfg3.N) (p : Fin 5000) (q : Fin 2) :
    ((cfg3.win 5).blk t).view.emb (ix2 p q) = ix2 (rowOf t p) q := by
  obtain ⟨-, -, e0, e1, -⟩ := idx_facts t
  funext a; apply Fin.ext
  match a with
  | ⟨0, _⟩ => show win3_5.index t (0 : Fin 2) * 5000 + 1 * p.val = 5000 * t.val + p.val; rw [e0]; omega
  | ⟨1, _⟩ => show win3_5.index t (1 : Fin 2) * 2 + 1 * q.val = q.val; rw [e1]; omega

/-- The input block's entry is the array's at the same place. -/
theorem read0 (c : Dev nD) (t : Fin cfg3.N) (p : Fin 5000) (q : Fin 2) :
    iblk3 V c 0 t (ix2 p q) = V c main_v44_0 (ix2 (rowOf t p) q) := by
  obtain ⟨e0, e1, -⟩ := idx_facts t
  show V c main_v44_0 (((cfg3.win 0).blk t).view.emb (ix2 p q)) = _
  refine congrArg _ (funext fun a => Fin.ext ?_)
  match a with
  | ⟨0, _⟩ => show win3_0.index t (0 : Fin 2) * 5000 + 1 * p.val = 5000 * t.val + p.val; rw [e0]; omega
  | ⟨1, _⟩ => show win3_0.index t (1 : Fin 2) * 2 + 1 * q.val = q.val; rw [e1]; omega

/-- A statistics window's block is its whole one-row array. -/
theorem read1 (c : Dev nD) (t : Fin cfg3.N) (q : Fin 2) : iblk3 V c 1 t (ix2 (0 : Fin 1) q) = V c main_v53 (ix2 (0 : Fin 1) q) := by
  obtain ⟨-, -, -, -, e0, e1, -⟩ := idx_facts t
  show V c main_v53 (((cfg3.win 1).blk t).view.emb (ix2 (0 : Fin 1) q)) = _
  refine congrArg _ (funext fun a => Fin.ext ?_)
  match a with
  | ⟨0, _⟩ => show win3_1.index t (0 : Fin 2) * 1 + 1 * 0 = 0; rw [e0]
  | ⟨1, _⟩ => show win3_1.index t (1 : Fin 2) * 2 + 1 * q.val = q.val; rw [e1]; omega
theorem read2 (c : Dev nD) (t : Fin cfg3.N) (q : Fin 2) : iblk3 V c 2 t (ix2 (0 : Fin 1) q) = V c main_v54 (ix2 (0 : Fin 1) q) := by
  obtain ⟨-, -, -, -, -, -, e0, e1, -⟩ := idx_facts t
  show V c main_v54 (((cfg3.win 2).blk t).view.emb (ix2 (0 : Fin 1) q)) = _
  refine congrArg _ (funext fun a => Fin.ext ?_)
  match a with
  | ⟨0, _⟩ => show win3_2.index t (0 : Fin 2) * 1 + 1 * 0 = 0; rw [e0]
  | ⟨1, _⟩ => show win3_2.index t (1 : Fin 2) * 2 + 1 * q.val = q.val; rw [e1]; omega
theorem read3 (c : Dev nD) (t : Fin cfg3.N) (q : Fin 2) : iblk3 V c 3 t (ix2 (0 : Fin 1) q) = V c main_v55 (ix2 (0 : Fin 1) q) := by
  obtain ⟨-, -, -, -, -, -, -, -, e0, e1, -⟩ := idx_facts t
  show V c main_v55 (((cfg3.win 3).blk t).view.emb (ix2 (0 : Fin 1) q)) = _
  refine congrArg _ (funext fun a => Fin.ext ?_)
  match a with
  | ⟨0, _⟩ => show win3_3.index t (0 : Fin 2) * 1 + 1 * 0 = 0; rw [e0]
  | ⟨1, _⟩ => show win3_3.index t (1 : Fin 2) * 2 + 1 * q.val = q.val; rw [e1]; omega
theorem read4 (c : Dev nD) (t : Fin cfg3.N) (q : Fin 2) : iblk3 V c 4 t (ix2 (0 : Fin 1) q) = V c main_v56 (ix2 (0 : Fin 1) q) := by
  obtain ⟨-, -, -, -, -, -, -, -, -, -, e0, e1⟩ := idx_facts t
  show V c main_v56 (((cfg3.win 4).blk t).view.emb (ix2 (0 : Fin 1) q)) = _
  refine congrArg _ (funext fun a => Fin.ext ?_)
  match a with
  | ⟨0, _⟩ => show win3_4.index t (0 : Fin 2) * 1 + 1 * 0 = 0; rw [e0]
  | ⟨1, _⟩ => show win3_4.index t (1 : Fin 2) * 2 + 1 * q.val = q.val; rw [e1]; omega

/-- What point `t` writes back is block `t` of the normalisation of the whole arrays. -/
theorem flushed_eq (c : Dev nD) (t : Fin cfg3.N) :
    (dat3 V c).flushed 5 t = ((cfg3.win 5).blk t).view.read (Elt Ideal)
      (G (V c main_v44_0) (V c main_v53) (V c main_v54) (V c main_v55) (V c main_v56)) := by
  show (cfg3.win 5).cut (grid3.coords t) ((dat3 V c).after 5 t) = _
  rw [after3_5]
  unfold out3_5
  rw [View.canon_unit_zero hz]
  simp only [View.ld_unit_zero (S := S5000x2) hz, View.ld_unit_zero (S := S1x2) hz]
  funext j
  obtain ⟨p, q, rfl⟩ : ∃ (p : Fin 5000) (q : Fin 2), j = ix2 p q := ⟨j 0, j 1, eq_ix2 j⟩
  show k3_pay1 (F := Ideal) (iblk3 V c 0 t) (iblk3 V c 2 t) (iblk3 V c 1 t) (iblk3 V c 3 t) (iblk3 V c 4 t) (ix2 p q)
    = G (V c main_v44_0) (V c main_v53) (V c main_v54) (V c main_v55) (V c main_v56) (((cfg3.win 5).blk t).view.emb (ix2 p q))
  refine (pay_apply _ _ _ _ _ p q).trans ?_
  rw [emb5, read0, read1, read2, read3, read4]
  rfl

/-- An index of the array is in point `t`'s block iff each coordinate is in the block's range on its axis. -/
theorem mem_blk (t : Fin cfg3.N) (i : S100000x2.Idx) :
    i ∈ ((cfg3.win 5).blk t).view.set ↔ ∀ a : Fin 2, win3_5.index t a * S5000x2.size a ≤ (i a).val ∧ (i a).val < win3_5.index t a * S5000x2.size a + S5000x2.size a := by
  show i ∈ ((View.whole main_v57).slice (win3_5.rect t)).set ↔ _
  rw [View.set_slice_whole, Rect.mem_set_unit]
  exact Iff.rfl

/-- Every row is in its tile's block. -/
theorem cover (i : S100000x2.Idx) : ∃ t : Fin cfg3.N, (cfg3.win 5).flush t = true ∧ i ∈ ((cfg3.win 5).blk t).view.set := by
  have hi0 : (i 0).val < 100000 := (i 0).isLt
  have hi1 : (i 1).val < 2 := (i 1).isLt
  have ht : (i 0).val / 5000 < cfg3.N := by rw [hN]; omega
  refine ⟨⟨(i 0).val / 5000, ht⟩, flush3_5 _, ?_⟩
  rw [mem_blk]
  obtain ⟨-, -, e0, e1, -⟩ := idx_facts ⟨(i 0).val / 5000, ht⟩
  intro a
  match a with
  | ⟨0, _⟩ => show win3_5.index ⟨(i 0).val / 5000, ht⟩ (0 : Fin 2) * 5000 ≤ (i 0).val ∧ (i 0).val < win3_5.index ⟨(i 0).val / 5000, ht⟩ (0 : Fin 2) * 5000 + 5000; rw [e0]; show (i 0).val / 5000 * 5000 ≤ (i 0).val ∧ (i 0).val < (i 0).val / 5000 * 5000 + 5000; omega
  | ⟨1, _⟩ => show win3_5.index ⟨(i 0).val / 5000, ht⟩ (1 : Fin 2) * 2 ≤ (i 1).val ∧ (i 1).val < win3_5.index ⟨(i 0).val / 5000, ht⟩ (1 : Fin 2) * 2 + 2; rw [e1]; omega

/-- THE ARRAY after the region: the normalisation of the region's arrays as it found them. -/
theorem arr5 (c : Dev nD) : (dat3 V c).arrAt 5 cfg3.N
    = G (V c main_v44_0) (V c main_v53) (V c main_v54) (V c main_v55) (V c main_v56) :=
  (dat3 V c).arrAt_eq_of_cover 5 _ (fun t _ => flushed_eq V c t) cover

end Cert.KernelIdeal.R3Value

end
-- ==== Proof.KRead.lean ====
/-
  The kernel's normalising regions at the statistics the host hands them: with the two accumulated rows equal to a
  matrix's column sums and column sums of squares, the mean row is the column mean, the variance row is the mean of
  squares minus the squared mean, and the region's whole-array function is the specification's normalisation.
-/
import proofs.«135332_j83760452207416_1_alg».proof.Proof.KTerm
import proofs.«135332_j83760452207416_1_alg».proof.Proof.R1Value
import proofs.«135332_j83760452207416_1_alg».proof.Proof.R3Value
import proofs.«135332_j83760452207416_1_alg».proof.Proof.Layers

noncomputable section

namespace Cert.KernelIdeal.KRead

open Cert.KernelIdeal Cert.KernelIdeal.Gen Cert.Spec Idealize.ShloMosaic Idealize.ShloMosaic.ValueIdx

/-- A matrix laid as an array and read back by coordinates is the matrix. -/
theorem toMat_ofMat {n d : ℕ} (H : Mat n d) : toMat (Cert.Layers.ofMat H) = H := rfl

/-- The mean row from the column sums is the column mean. -/
theorem mean64_row (H : Mat 100000 64) (s : S1x64.Idx → EReal)
    (hs : ∀ j : Fin 64, s (ix2 (0 : Fin 1) j) = Spec.colSum H j) :
    R1Value.row (KTerm.up64 (F := Ideal) (KTerm.mean64 (F := Ideal) s)) = Spec.mean H := by
  funext j
  show KTerm.up64 (F := Ideal) (KTerm.mean64 (F := Ideal) s) (ix2 (0 : Fin 1) j) = _
  rw [KTerm.up64_apply, KTerm.mean64_apply, hs]
  rfl

/-- The variance row from the column sums and sums of squares is the mean of squares minus the squared mean. -/
theorem var64_row (H : Mat 100000 64) (s ss : S1x64.Idx → EReal)
    (hs : ∀ j : Fin 64, s (ix2 (0 : Fin 1) j) = Spec.colSum H j)
    (hss : ∀ j : Fin 64, ss (ix2 (0 : Fin 1) j) = Spec.colSumSq H j) :
    R1Value.row (KTerm.up64 (F := Ideal) (KTerm.var64 (F := Ideal) s ss)) = Spec.varMoments H := by
  funext j
  show KTerm.up64 (F := Ideal) (KTerm.var64 (F := Ideal) s ss) (ix2 (0 : Fin 1) j) = _
  rw [KTerm.up64_apply, KTerm.var64_apply, hs, hss]
  rfl

/-- A parameter row lifted to one row reads back as the row. -/
theorem up64_row (g : FVec Ideal S64 .f32) : R1Value.row (KTerm.up64 (F := Ideal) g) = toRow g := by
  funext j
  exact KTerm.up64_apply g j

theorem bn1K (H : Mat 100000 64) (s ss : S1x64.Idx → EReal)
    (hs : ∀ j : Fin 64, s (ix2 (0 : Fin 1) j) = Spec.colSum H j)
    (hss : ∀ j : Fin 64, ss (ix2 (0 : Fin 1) j) = Spec.colSumSq H j) (g be : FVec Ideal S64 .f32) :
    R1Value.G (Cert.Layers.ofMat H) (KTerm.up64 (F := Ideal) (KTerm.mean64 (F := Ideal) s))
        (KTerm.up64 (F := Ideal) (KTerm.var64 (F := Ideal) s ss)) (KTerm.up64 (F := Ideal) g) (KTerm.up64 (F := Ideal) be)
      = Cert.Layers.ofMat (Spec.bn H (Spec.mean H) (Spec.varMoments H) (toRow g) (toRow be)) := by
  unfold R1Value.G
  rw [mean64_row H s hs, var64_row H s ss hs hss, up64_row g, up64_row be, toMat_ofMat]

theorem mean2_row (H : Mat 100000 2) (s : S1x2.Idx → EReal)
    (hs : ∀ j : Fin 2, s (ix2 (0 : Fin 1) j) = Spec.colSum H j) :
    R3Value.row (KTerm.up2 (F := Ideal) (KTerm.mean2 (F := Ideal) s)) = Spec.mean H := by
  funext j
  show KTerm.up2 (F := Ideal) (KTerm.mean2 (F := Ideal) s) (ix2 (0 : Fin 1) j) = _
  rw [KTerm.up2_apply, KTerm.mean2_apply, hs]
  rfl

theorem var2_row (H : Mat 100000 2) (s ss : S1x2.Idx → EReal)
    (hs : ∀ j : Fin 2, s (ix2 (0 : Fin 1) j) = Spec.colSum H j)
    (hss : ∀ j : Fin 2, ss (ix2 (0 : Fin 1) j) = Spec.colSumSq H j) :
    R3Value.row (KTerm.up2 (F := Ideal) (KTerm.var2 (F := Ideal) s ss)) = Spec.varMoments H := by
  funext j
  show KTerm.up2 (F := Ideal) (KTerm.var2 (F := Ideal) s ss) (ix2 (0 : Fin 1) j) = _
  rw [KTerm.up2_apply, KTerm.var2_apply, hs, hss]
  rfl

theorem up2_row (g : FVec Ideal S2 .f32) : R3Value.row (KTerm.up2 (F := Ideal) g) = toRow g := by
  funext j
  exact KTerm.up2_apply g j

theorem bn2K (H : Mat 100000 2) (s ss : S1x2.Idx → EReal)
    (hs : ∀ j : Fin 2, s (ix2 (0 : Fin 1) j) = Spec.colSum H j)
    (hss : ∀ j : Fin 2, ss (ix2 (0 : Fin 1) j) = Spec.colSumSq H j) (g be : FVec Ideal S2 .f32) :
    R3Value.G (Cert.Layers.ofMat H) (KTerm.up2 (F := Ideal) (KTerm.mean2 (F := Ideal) s))
        (KTerm.up2 (F := Ideal) (KTerm.var2 (F := Ideal) s ss)) (KTerm.up2 (F := Ideal) g) (KTerm.up2 (F := Ideal) be)
      = Cert.Layers.ofMat (Spec.bn H (Spec.mean H) (Spec.varMoments H) (toRow g) (toRow be)) := by
  unfold R3Value.G
  rw [mean2_row H s hs, var2_row H s ss hs hss, up2_row g, up2_row be, toMat_ofMat]

end Cert.KernelIdeal.KRead

end
-- ==== Proof.KValue1.lean ====
/-
  Layer 1 of the idealized kernel program, read back through the run's first four boundaries.

  Before the first region the host aggregates the node features along the edges and lifts the two bias rows; the
  first region leaves Linear → ReLU → Linear → ReLU of the aggregated features on all rows, with its column sums
  and column sums of squares; the host forms the mean and variance rows; the second region normalises. What the
  second region leaves is layer 1 of the specification with the variance as mean of squares minus squared mean.
  The edge list's two rows and the arguments layer 2 reads are still as the first stretch and the launch left them.
-/
import proofs.«135332_j83760452207416_1_alg».proof.Proof.PatchedKernelIdealFrame
import proofs.«135332_j83760452207416_1_alg».proof.Proof.KHost
import proofs.«135332_j83760452207416_1_alg».proof.Proof.R0Value
import proofs.«135332_j83760452207416_1_alg».proof.Proof.R1Value
import proofs.«135332_j83760452207416_1_alg».proof.Proof.KRead

set_option maxRecDepth 16384

noncomputable section

namespace Cert.KernelIdeal.KValue1

open Cert.KernelIdeal Cert.KernelIdeal.Gen Cert.KernelIdeal.GenP Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- Layer 1 before its normalisation: Linear → ReLU → Linear → ReLU of the aggregated features. -/
def H1 : Mat 100000 64 :=
  Spec.mlp (toMat (KTerm.agg (F := Ideal) (m ((c : Thread nD τ).loc main_arg0)) (m ((c : Thread nD τ).loc main_arg1)))) (toMat (m ((c : Thread nD τ).loc main_arg2))) (toRow (m ((c : Thread nD τ).loc main_arg3))) (toMat (m ((c : Thread nD τ).loc main_arg4))) (toRow (m ((c : Thread nD τ).loc main_arg5)))

/-! ## Buffers no stretch and no region has written yet read as launched -/

theorem W1_arg (r : Ref sig .tc) (h0 : r ∉ KHost.written0) :
    W1 m ρ c (Proc.devRef .tc r) = m ((c : Thread nD τ).loc r) := KHost.keep0 (W0 m ρ c) r h0
theorem W2_arg (r : Ref sig .tc) (h0 : r ∉ KHost.written0) (s0 : ∀ w, Pipeline.arrRef spec0 w ≠ r) :
    W2 m ρ c (Proc.devRef .tc r) = m ((c : Thread nD τ).loc r) := (W2_of_ne m ρ c r s0).trans (W1_arg m ρ c r h0)
theorem W3_arg (r : Ref sig .tc) (h0 : r ∉ KHost.written0) (s0 : ∀ w, Pipeline.arrRef spec0 w ≠ r) (h1 : r ∉ KHost.written1) :
    W3 m ρ c (Proc.devRef .tc r) = m ((c : Thread nD τ).loc r) := (KHost.keep1 (W2 m ρ c) r h1).trans (W2_arg m ρ c r h0 s0)
theorem W4_arg (r : Ref sig .tc) (h0 : r ∉ KHost.written0) (s0 : ∀ w, Pipeline.arrRef spec0 w ≠ r) (h1 : r ∉ KHost.written1)
    (s1 : ∀ w, Pipeline.arrRef spec1 w ≠ r) :
    W4 m ρ c (Proc.devRef .tc r) = m ((c : Thread nD τ).loc r) := (W4_of_ne m ρ c r s1).trans (W3_arg m ρ c r h0 s0 h1)

theorem W4_arg8 : W4 m ρ c (Proc.devRef .tc main_arg8) = m ((c : Thread nD τ).loc main_arg8) :=
  W4_arg m ρ c main_arg8 (by decide) (by decide) (by decide) (by decide)
theorem W4_arg9 : W4 m ρ c (Proc.devRef .tc main_arg9) = m ((c : Thread nD τ).loc main_arg9) :=
  W4_arg m ρ c main_arg9 (by decide) (by decide) (by decide) (by decide)
theorem W4_arg10 : W4 m ρ c (Proc.devRef .tc main_arg10) = m ((c : Thread nD τ).loc main_arg10) :=
  W4_arg m ρ c main_arg10 (by decide) (by decide) (by decide) (by decide)
theorem W4_arg11 : W4 m ρ c (Proc.devRef .tc main_arg11) = m ((c : Thread nD τ).loc main_arg11) :=
  W4_arg m ρ c main_arg11 (by decide) (by decide) (by decide) (by decide)
theorem W4_arg12 : W4 m ρ c (Proc.devRef .tc main_arg12) = m ((c : Thread nD τ).loc main_arg12) :=
  W4_arg m ρ c main_arg12 (by decide) (by decide) (by decide) (by decide)
theorem W4_arg13 : W4 m ρ c (Proc.devRef .tc main_arg13) = m ((c : Thread nD τ).loc main_arg13) :=
  W4_arg m ρ c main_arg13 (by decide) (by decide) (by decide) (by decide)

/-- The edges' sources and targets, computed before the first region, are still there after the second. -/
theorem W4_v1 : W4 m ρ c (Proc.devRef .tc main_v1) = KAgg.src (m ((c : Thread nD τ).loc main_arg1)) :=
  (W4_of_ne m ρ c main_v1 (by decide)).trans ((KHost.keep1 (W2 m ρ c) main_v1 (by decide)).trans
    ((W2_of_ne m ρ c main_v1 (by decide)).trans (KAgg.h0_v1 (W0 m ρ c))))
theorem W4_v3 : W4 m ρ c (Proc.devRef .tc main_v3) = KAgg.dst (m ((c : Thread nD τ).loc main_arg1)) :=
  (W4_of_ne m ρ c main_v3 (by decide)).trans ((KHost.keep1 (W2 m ρ c) main_v3 (by decide)).trans
    ((W2_of_ne m ρ c main_v3 (by decide)).trans (KAgg.h0_v3 (W0 m ρ c))))

/-! ## Layer 1 -/

/-- What the first region finds in its five input arrays. -/
theorem Hmat1_eq : R0Blocks.Hmat (V1 m ρ) c = H1 m c := by
  have e0 : (V1 m ρ c (Pipeline.arrRef spec0 0) : S100000x64.Idx → EReal) = (KTerm.agg (F := Ideal) (m ((c : Thread nD τ).loc main_arg0)) (m ((c : Thread nD τ).loc main_arg1))) := KAgg.h0_v14 (W0 m ρ c)
  have e1 : (V1 m ρ c (Pipeline.arrRef spec0 1) : S64x64.Idx → EReal) = (m ((c : Thread nD τ).loc main_arg2)) := W1_arg m ρ c main_arg2 (by decide)
  have e2 : (V1 m ρ c (Pipeline.arrRef spec0 2) : S1x64.Idx → EReal) = KTerm.up64 (F := Ideal) (m ((c : Thread nD τ).loc main_arg3)) := KHost.h0_v15 (W0 m ρ c)
  have e3 : (V1 m ρ c (Pipeline.arrRef spec0 3) : S64x64.Idx → EReal) = (m ((c : Thread nD τ).loc main_arg4)) := W1_arg m ρ c main_arg4 (by decide)
  have e4 : (V1 m ρ c (Pipeline.arrRef spec0 4) : S1x64.Idx → EReal) = KTerm.up64 (F := Ideal) (m ((c : Thread nD τ).loc main_arg5)) := KHost.h0_v16 (W0 m ρ c)
  unfold R0Blocks.Hmat H1
  rw [e0, e1, e2, e3, e4]
  simp only [KTerm.up64_apply]

/-- The normalising region's whole-array function respects equal arrays. -/
theorem G_congr {h h' : S100000x64.Idx → EReal} {mu mu' var var' g g' be be' : S1x64.Idx → EReal}
    (e0 : h = h') (e1 : mu = mu') (e2 : var = var') (e3 : g = g') (e4 : be = be') :
    R1Value.G h mu var g be = R1Value.G h' mu' var' g' be' := by
  subst e0 e1 e2 e3 e4; rfl

/-- The first region leaves Linear → ReLU → Linear → ReLU of the aggregated features. -/
theorem W2_v17_0 : W2 m ρ c (Proc.devRef .tc main_v17_0) = Cert.Layers.ofMat (H1 m c) :=
  ((W2_arr m ρ c 5).trans (R0Value.arr5 (V1 m ρ) c)).trans
    (congrArg (fun H : Mat 100000 64 => (fun i => H (i 0) (i 1) : S100000x64.Idx → EReal)) (Hmat1_eq m ρ c))
/-- … its column sums … -/
theorem W2_v17_1 : W2 m ρ c (Proc.devRef .tc main_v17_1) = fun i => Spec.colSum (H1 m c) (i 1) :=
  ((W2_arr m ρ c 6).trans (R0Value.arr6 (V1 m ρ) c)).trans
    (congrArg (fun H : Mat 100000 64 => (fun i => Spec.colSum H (i 1) : S1x64.Idx → EReal)) (Hmat1_eq m ρ c))
/-- … and its column sums of squares. -/
theorem W2_v17_2 : W2 m ρ c (Proc.devRef .tc main_v17_2) = fun i => Spec.colSumSq (H1 m c) (i 1) :=
  ((W2_arr m ρ c 7).trans (R0Value.arr7 (V1 m ρ) c)).trans
    (congrArg (fun H : Mat 100000 64 => (fun i => Spec.colSumSq H (i 1) : S1x64.Idx → EReal)) (Hmat1_eq m ρ c))

/-- The second region leaves layer 1 in its output array. -/
theorem W4_v30 : W4 m ρ c (Proc.devRef .tc main_v30) = Cert.Layers.ofMat (Cert.Layers.layerK (toMat (KTerm.agg (F := Ideal) (m ((c : Thread nD τ).loc main_arg0)) (m ((c : Thread nD τ).loc main_arg1)))) (toMat (m ((c : Thread nD τ).loc main_arg2))) (toRow (m ((c : Thread nD τ).loc main_arg3))) (toMat (m ((c : Thread nD τ).loc main_arg4))) (toRow (m ((c : Thread nD τ).loc main_arg5))) (toRow (m ((c : Thread nD τ).loc main_arg6))) (toRow (m ((c : Thread nD τ).loc main_arg7)))) := by
  have e0 : (V3 m ρ c main_v17_0 : S100000x64.Idx → EReal) = Cert.Layers.ofMat (H1 m c) :=
    (KHost.keep1 (W2 m ρ c) main_v17_0 (by decide)).trans (W2_v17_0 m ρ c)
  have e1 : (V3 m ρ c main_v26 : S1x64.Idx → EReal)
      = KTerm.up64 (F := Ideal) (KTerm.mean64 (F := Ideal) (fun i => Spec.colSum (H1 m c) (i 1))) :=
    (KHost.h1_v26 (W2 m ρ c)).trans
      (congrArg (fun s : S1x64.Idx → EReal => KTerm.up64 (F := Ideal) (KTerm.mean64 (F := Ideal) s)) (W2_v17_1 m ρ c))
  have e2 : (V3 m ρ c main_v27 : S1x64.Idx → EReal)
      = KTerm.up64 (F := Ideal) (KTerm.var64 (F := Ideal) (fun i => Spec.colSum (H1 m c) (i 1)) (fun i => Spec.colSumSq (H1 m c) (i 1))) :=
    (KHost.h1_v27 (W2 m ρ c)).trans
      (congrArg₂ (fun s ss : S1x64.Idx → EReal => KTerm.up64 (F := Ideal) (KTerm.var64 (F := Ideal) s ss))
        (W2_v17_1 m ρ c) (W2_v17_2 m ρ c))
  have e3 : (V3 m ρ c main_v28 : S1x64.Idx → EReal) = KTerm.up64 (F := Ideal) (m ((c : Thread nD τ).loc main_arg6)) :=
    (KHost.h1_v28 (W2 m ρ c)).trans (congrArg (KTerm.up64 (F := Ideal)) (W2_arg m ρ c main_arg6 (by decide) (by decide)))
  have e4 : (V3 m ρ c main_v29 : S1x64.Idx → EReal) = KTerm.up64 (F := Ideal) (m ((c : Thread nD τ).loc main_arg7)) :=
    (KHost.h1_v29 (W2 m ρ c)).trans (congrArg (KTerm.up64 (F := Ideal)) (W2_arg m ρ c main_arg7 (by decide) (by decide)))
  refine ((W4_arr m ρ c 5).trans (R1Value.arr5 (V3 m ρ) c)).trans ((G_congr e0 e1 e2 e3 e4).trans ?_)
  refine (KRead.bn1K (H1 m c) (fun i => Spec.colSum (H1 m c) (i 1)) (fun i => Spec.colSumSq (H1 m c) (i 1))
    (fun _ => rfl) (fun _ => rfl) (m ((c : Thread nD τ).loc main_arg6)) (m ((c : Thread nD τ).loc main_arg7))).trans ?_
  unfold Cert.Layers.layerK H1
  rfl

end Cert.KernelIdeal.KValue1

end
-- ==== Proof.R2Pieces.lean ====
/-
  What one run of the row-tile kernel's body leaves in its three output buffers, as values of the blocks it was given.

  The body stores the tile's value relu(relu(x·Wa + ba)·Wb + bb) in the first buffer, and in the two rows of running
  sums what they held plus the tile's column sums (of the value, and of its squares). At the first grid point the
  two rows are zeroed first, so there the "what they held" is the zero row.
-/
import proofs.«135332_j83760452207416_1_alg».proof.Proof.PatchedKernelIdealFrame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.R2Pieces

open Cert.KernelIdeal Cert.KernelIdeal.Gen Cert.KernelIdeal.GenP

variable {F : FTy → Type} [FloatOps F]

theorem hz : (![0, 0] : Fin 2 → Nat) = fun _ => 0 := funext fun a => by fin_cases a <;> rfl

/-- Later points: the first buffer ends holding the tile's value, -/
theorem outB5 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x2 .f32) (harg4 : arg4.IsWhole) (arg5 : Memref sig .tc .vmem S1x2 .f32) (harg5 : arg5.IsWhole) (arg6 : Memref sig .tc .vmem S5000x2 .f32) (harg6 : arg6.IsWhole) (arg7 : Memref sig .tc .vmem S1x2 .f32) (harg7 : arg7.IsWhole) (arg8 : Memref sig .tc .vmem S1x2 .f32) (harg8 : arg8.IsWhole) (hc0 : ¬cond2_0 i)
    (x0 : Vec F S5000x64 .f32) (x1 : Vec F S64x64 .f32) (x2 : Vec F S1x64 .f32) (x3 : Vec F S64x2 .f32) (x4 : Vec F S1x2 .f32) (xo6 : Vec F S1x2 .f32) (xo7 : Vec F S1x2 .f32) :
    out2_B_5 c i arg1 harg1 arg2 harg2 arg3 harg3 arg4 harg4 arg5 harg5 arg6 harg6 arg7 harg7 arg8 harg8 hc0 x0 x1 x2 x3 x4 xo6 xo7 = k2_pay4 x0 x1 x2 x3 x4 := by
  unfold out2_B_5
  rw [View.read_writes_eq_canon _ _ _ (cover2_B_5 c i arg1 harg1 arg2 harg2 arg3 harg3 arg4 harg4 arg5 harg5 arg6 harg6 arg7 harg7 arg8 harg8 hc0 x0 x1 x2 x3 x4 xo6 xo7)]
  unfold kernelRun2_B
  dsimp only
  try sl_unfold_words
  rw [View.canon_unit_zero hz]
  simp only [View.readAt_eq_ld, harg1.read_unread, harg2.read_unread, harg3.read_unread, harg4.read_unread, harg5.read_unread, harg7.read_unread, harg8.read_unread, View.ld_unit_zero (S := S5000x64) hz, View.ld_unit_zero (S := S64x64) hz, View.ld_unit_zero (S := S1x64) hz, View.ld_unit_zero (S := S64x2) hz, View.ld_unit_zero (S := S1x2) hz]
/-- the running row of column sums what it held plus the tile's column sums, -/
theorem outB6 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x2 .f32) (harg4 : arg4.IsWhole) (arg5 : Memref sig .tc .vmem S1x2 .f32) (harg5 : arg5.IsWhole) (arg6 : Memref sig .tc .vmem S5000x2 .f32) (harg6 : arg6.IsWhole) (arg7 : Memref sig .tc .vmem S1x2 .f32) (harg7 : arg7.IsWhole) (arg8 : Memref sig .tc .vmem S1x2 .f32) (harg8 : arg8.IsWhole) (hc0 : ¬cond2_0 i)
    (x0 : Vec F S5000x64 .f32) (x1 : Vec F S64x64 .f32) (x2 : Vec F S1x64 .f32) (x3 : Vec F S64x2 .f32) (x4 : Vec F S1x2 .f32) (xo6 : Vec F S1x2 .f32) (xo7 : Vec F S1x2 .f32) :
    out2_B_6 c i arg1 harg1 arg2 harg2 arg3 harg3 arg4 harg4 arg5 harg5 arg6 harg6 arg7 harg7 arg8 harg8 hc0 x0 x1 x2 x3 x4 xo6 xo7 = k2_pay5 x0 x1 x2 x3 x4 xo6 := by
  unfold out2_B_6
  rw [View.read_writes_eq_canon _ _ _ (cover2_B_6 c i arg1 harg1 arg2 harg2 arg3 harg3 arg4 harg4 arg5 harg5 arg6 harg6 arg7 harg7 arg8 harg8 hc0 x0 x1 x2 x3 x4 xo6 xo7)]
  unfold kernelRun2_B
  dsimp only
  try sl_unfold_words
  rw [View.canon_unit_zero hz]
  simp only [View.readAt_eq_ld, harg1.read_unread, harg2.read_unread, harg3.read_unread, harg4.read_unread, harg5.read_unread, harg7.read_unread, harg8.read_unread, View.ld_unit_zero (S := S5000x64) hz, View.ld_unit_zero (S := S64x64) hz, View.ld_unit_zero (S := S1x64) hz, View.ld_unit_zero (S := S64x2) hz, View.ld_unit_zero (S := S1x2) hz]
/-- and the running row of squared column sums what it held plus the column sums of the tile's squares. -/
theorem outB7 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x2 .f32) (harg4 : arg4.IsWhole) (arg5 : Memref sig .tc .vmem S1x2 .f32) (harg5 : arg5.IsWhole) (arg6 : Memref sig .tc .vmem S5000x2 .f32) (harg6 : arg6.IsWhole) (arg7 : Memref sig .tc .vmem S1x2 .f32) (harg7 : arg7.IsWhole) (arg8 : Memref sig .tc .vmem S1x2 .f32) (harg8 : arg8.IsWhole) (hc0 : ¬cond2_0 i)
    (x0 : Vec F S5000x64 .f32) (x1 : Vec F S64x64 .f32) (x2 : Vec F S1x64 .f32) (x3 : Vec F S64x2 .f32) (x4 : Vec F S1x2 .f32) (xo6 : Vec F S1x2 .f32) (xo7 : Vec F S1x2 .f32) :
    out2_B_7 c i arg1 harg1 arg2 harg2 arg3 harg3 arg4 harg4 arg5 harg5 arg6 harg6 arg7 harg7 arg8 harg8 hc0 x0 x1 x2 x3 x4 xo6 xo7 = k2_pay1 (k2_pay4 x0 x1 x2 x3 x4) xo7 := by
  unfold out2_B_7
  rw [View.read_writes_eq_canon _ _ _ (cover2_B_7 c i arg1 harg1 arg2 harg2 arg3 harg3 arg4 harg4 arg5 harg5 arg6 harg6 arg7 harg7 arg8 harg8 hc0 x0 x1 x2 x3 x4 xo6 xo7)]
  unfold kernelRun2_B
  dsimp only
  try sl_unfold_words
  rw [View.canon_unit_zero hz]
  simp only [View.readAt_eq_ld, harg1.read_unread, harg2.read_unread, harg3.read_unread, harg4.read_unread, harg5.read_unread, harg7.read_unread, harg8.read_unread, View.ld_unit_zero (S := S5000x64) hz, View.ld_unit_zero (S := S64x64) hz, View.ld_unit_zero (S := S1x64) hz, View.ld_unit_zero (S := S64x2) hz, View.ld_unit_zero (S := S1x2) hz]
/-- The first point: the tile's value again, -/
theorem outA5 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x2 .f32) (harg4 : arg4.IsWhole) (arg5 : Memref sig .tc .vmem S1x2 .f32) (harg5 : arg5.IsWhole) (arg6 : Memref sig .tc .vmem S5000x2 .f32) (harg6 : arg6.IsWhole) (arg7 : Memref sig .tc .vmem S1x2 .f32) (harg7 : arg7.IsWhole) (arg8 : Memref sig .tc .vmem S1x2 .f32) (harg8 : arg8.IsWhole) (hc0 : cond2_0 i)
    (x0 : Vec F S5000x64 .f32) (x1 : Vec F S64x64 .f32) (x2 : Vec F S1x64 .f32) (x3 : Vec F S64x2 .f32) (x4 : Vec F S1x2 .f32) :
    out2_A_5 c i arg1 harg1 arg2 harg2 arg3 harg3 arg4 harg4 arg5 harg5 arg6 harg6 arg7 harg7 arg8 harg8 hc0 x0 x1 x2 x3 x4 = k2_pay4 x0 x1 x2 x3 x4 := by
  unfold out2_A_5
  rw [View.read_writes_eq_canon _ _ _ (cover2_A_5 c i arg1 harg1 arg2 harg2 arg3 harg3 arg4 harg4 arg5 harg5 arg6 harg6 arg7 harg7 arg8 harg8 hc0 x0 x1 x2 x3 x4)]
  unfold kernelRun2_A
  dsimp only
  try sl_unfold_words
  rw [View.canon_unit_zero hz]
  simp only [View.readAt_eq_ld, harg1.read_unread, harg2.read_unread, harg3.read_unread, harg4.read_unread, harg5.read_unread, harg7.read_unread, harg8.read_unread, View.ld_unit_zero (S := S5000x64) hz, View.ld_unit_zero (S := S64x64) hz, View.ld_unit_zero (S := S1x64) hz, View.ld_unit_zero (S := S64x2) hz, View.ld_unit_zero (S := S1x2) hz]
/-- and the two running rows start from the zero row the body has just stored. -/
theorem outA6 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x2 .f32) (harg4 : arg4.IsWhole) (arg5 : Memref sig .tc .vmem S1x2 .f32) (harg5 : arg5.IsWhole) (arg6 : Memref sig .tc .vmem S5000x2 .f32) (harg6 : arg6.IsWhole) (arg7 : Memref sig .tc .vmem S1x2 .f32) (harg7 : arg7.IsWhole) (arg8 : Memref sig .tc .vmem S1x2 .f32) (harg8 : arg8.IsWhole) (hc0 : cond2_0 i)
    (x0 : Vec F S5000x64 .f32) (x1 : Vec F S64x64 .f32) (x2 : Vec F S1x64 .f32) (x3 : Vec F S64x2 .f32) (x4 : Vec F S1x2 .f32) :
    out2_A_6 c i arg1 harg1 arg2 harg2 arg3 harg3 arg4 harg4 arg5 harg5 arg6 harg6 arg7 harg7 arg8 harg8 hc0 x0 x1 x2 x3 x4 = k2_pay5 x0 x1 x2 x3 x4 k2_pay2 := by
  unfold out2_A_6
  rw [View.read_writes_eq_canon _ _ _ (cover2_A_6 c i arg1 harg1 arg2 harg2 arg3 harg3 arg4 harg4 arg5 harg5 arg6 harg6 arg7 harg7 arg8 harg8 hc0 x0 x1 x2 x3 x4)]
  unfold kernelRun2_A
  dsimp only
  try sl_unfold_words
  rw [View.canon_cons_unit_zero (S := S1x2) hz, View.readCov_unit_zero (S := S1x2) _ hz]
  simp only [View.readAt_eq_ld, harg1.read_unread, harg2.read_unread, harg3.read_unread, harg4.read_unread, harg5.read_unread, harg7.read_unread, harg8.read_unread, View.ld_unit_zero (S := S5000x64) hz, View.ld_unit_zero (S := S64x64) hz, View.ld_unit_zero (S := S1x64) hz, View.ld_unit_zero (S := S64x2) hz, View.ld_unit_zero (S := S1x2) hz]

theorem outA7 (c : Dev nD) (i : grid2.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x2 .f32) (harg4 : arg4.IsWhole) (arg5 : Memref sig .tc .vmem S1x2 .f32) (harg5 : arg5.IsWhole) (arg6 : Memref sig .tc .vmem S5000x2 .f32) (harg6 : arg6.IsWhole) (arg7 : Memref sig .tc .vmem S1x2 .f32) (harg7 : arg7.IsWhole) (arg8 : Memref sig .tc .vmem S1x2 .f32) (harg8 : arg8.IsWhole) (hc0 : cond2_0 i)
    (x0 : Vec F S5000x64 .f32) (x1 : Vec F S64x64 .f32) (x2 : Vec F S1x64 .f32) (x3 : Vec F S64x2 .f32) (x4 : Vec F S1x2 .f32) :
    out2_A_7 c i arg1 harg1 arg2 harg2 arg3 harg3 arg4 harg4 arg5 harg5 arg6 harg6 arg7 harg7 arg8 harg8 hc0 x0 x1 x2 x3 x4 = k2_pay1 (k2_pay4 x0 x1 x2 x3 x4) k2_pay3 := by
  unfold out2_A_7
  rw [View.read_writes_eq_canon _ _ _ (cover2_A_7 c i arg1 harg1 arg2 harg2 arg3 harg3 arg4 harg4 arg5 harg5 arg6 harg6 arg7 harg7 arg8 harg8 hc0 x0 x1 x2 x3 x4)]
  unfold kernelRun2_A
  dsimp only
  try sl_unfold_words
  rw [View.canon_cons_unit_zero (S := S1x2) hz, View.readCov_unit_zero (S := S1x2) _ hz]
  simp only [View.readAt_eq_ld, harg1.read_unread, harg2.read_unread, harg3.read_unread, harg4.read_unread, harg5.read_unread, harg7.read_unread, harg8.read_unread, View.ld_unit_zero (S := S5000x64) hz, View.ld_unit_zero (S := S64x64) hz, View.ld_unit_zero (S := S1x64) hz, View.ld_unit_zero (S := S64x2) hz, View.ld_unit_zero (S := S1x2) hz]

end Cert.KernelIdeal.R2Pieces

end
-- ==== Proof.R2Pay.lean ====
/-
  The arithmetic of the second row-tile kernel's stored values, read index by index on the extended reals.

  A tile holds 5000 rows x of 64 numbers. The kernel forms relu(relu(x·Wa + ba)·Wb + bb) for the tile, with Wb of 64
  rows and 2 columns, and adds to two running rows of 2 numbers the tile's column sums and the column sums of its
  squares. On the extended reals a product into a zero accumulator at an index is the sum over the contracted
  coordinate, a change of float format is the identity, and a sum along the rows is the sum over the row coordinate.
-/
import proofs.«135332_j83760452207416_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.R2Pay

open Cert.KernelIdeal Cert.KernelIdeal.Gen Idealize.ShloMosaic Idealize.ShloMosaic.ValueIdx

/-- The contracted coordinate of the 5000×64 by 64×64 product, put back on the left operand's index. -/
theorem lhsIdx_eq (q : Fin 5000) (j : Fin 64) (k : Fin 64) :
    dot_S5000x64_S64x64_S5000x64_1_0_0_1_n_n.lhsIdx (ix2 q j)
      ((contrEquiv1 dot_S5000x64_S64x64_S5000x64_1_0_0_1_n_n 64 rfl rfl).symm k) = ix2 q k := by
  have c2 := contrEquiv1_symm_val dot_S5000x64_S64x64_S5000x64_1_0_0_1_n_n 64 rfl rfl k
  funext ax; apply Fin.ext
  match ax with
  | ⟨0, _⟩ => simp [DotDims.lhsIdx, dot_S5000x64_S64x64_S5000x64_1_0_0_1_n_n]; rfl
  | ⟨1, _⟩ => simp [DotDims.lhsIdx, dot_S5000x64_S64x64_S5000x64_1_0_0_1_n_n]; exact c2

/-- … and on the right operand's. -/
theorem rhsIdx_eq (q : Fin 5000) (j : Fin 64) (k : Fin 64) :
    dot_S5000x64_S64x64_S5000x64_1_0_0_1_n_n.rhsIdx (ix2 q j)
      ((contrEquiv1 dot_S5000x64_S64x64_S5000x64_1_0_0_1_n_n 64 rfl rfl).symm k) = ix2 k j := by
  have c2 := contrEquiv1_symm_val dot_S5000x64_S64x64_S5000x64_1_0_0_1_n_n 64 rfl rfl k
  funext ax; apply Fin.ext
  match ax with
  | ⟨0, _⟩ => simp [DotDims.rhsIdx, dot_S5000x64_S64x64_S5000x64_1_0_0_1_n_n]; exact c2
  | ⟨1, _⟩ => simp [DotDims.rhsIdx, dot_S5000x64_S64x64_S5000x64_1_0_0_1_n_n]; rfl

/-- A tile's first product into the zero accumulator, at row q and column j: the sum over the contracted coordinate. -/
theorem mm_apply {φ₁ φ₂ : FTy} (A : FVec Ideal S5000x64 φ₁) (B : FVec Ideal S64x64 φ₂) (q : Fin 5000) (j : Fin 64) :
    matmul dot_S5000x64_S64x64_S5000x64_1_0_0_1_n_n none A B (constant S5000x64 .f32 0x00000000#32) (ix2 q j)
      = ∑ k : Fin 64, A (ix2 q k) * B (ix2 k j) := by
  show FloatOps.matmul _ none A B _ (ix2 q j) = _
  rw [Ideal.matmul_constant_zero_apply,
    ← Equiv.sum_comp (contrEquiv1 dot_S5000x64_S64x64_S5000x64_1_0_0_1_n_n 64 rfl rfl).symm]
  refine Finset.sum_congr rfl fun k _ => ?_
  rw [lhsIdx_eq, rhsIdx_eq]

/-- The contracted coordinate of the 5000×64 by 64×2 product, put back on the left operand's index. -/
theorem lhsIdx2_eq (q : Fin 5000) (j : Fin 2) (k : Fin 64) :
    dot_S5000x64_S64x2_S5000x2_1_0_0_1_n_n.lhsIdx (ix2 q j)
      ((contrEquiv1 dot_S5000x64_S64x2_S5000x2_1_0_0_1_n_n 64 rfl rfl).symm k) = ix2 q k := by
  have c2 := contrEquiv1_symm_val dot_S5000x64_S64x2_S5000x2_1_0_0_1_n_n 64 rfl rfl k
  funext ax; apply Fin.ext
  match ax with
  | ⟨0, _⟩ => simp [DotDims.lhsIdx, dot_S5000x64_S64x2_S5000x2_1_0_0_1_n_n]; rfl
  | ⟨1, _⟩ => simp [DotDims.lhsIdx, dot_S5000x64_S64x2_S5000x2_1_0_0_1_n_n]; exact c2

/-- … and on the right operand's. -/
theorem rhsIdx2_eq (q : Fin 5000) (j : Fin 2) (k : Fin 64) :
    dot_S5000x64_S64x2_S5000x2_1_0_0_1_n_n.rhsIdx (ix2 q j)
      ((contrEquiv1 dot_S5000x64_S64x2_S5000x2_1_0_0_1_n_n 64 rfl rfl).symm k) = ix2 k j := by
  have c2 := contrEquiv1_symm_val dot_S5000x64_S64x2_S5000x2_1_0_0_1_n_n 64 rfl rfl k
  funext ax; apply Fin.ext
  match ax with
  | ⟨0, _⟩ => simp [DotDims.rhsIdx, dot_S5000x64_S64x2_S5000x2_1_0_0_1_n_n]; exact c2
  | ⟨1, _⟩ => simp [DotDims.rhsIdx, dot_S5000x64_S64x2_S5000x2_1_0_0_1_n_n]; rfl

/-- A tile's second product into the zero accumulator, at row q and column j. -/
theorem mm2_apply {φ₁ φ₂ : FTy} (A : FVec Ideal S5000x64 φ₁) (B : FVec Ideal S64x2 φ₂) (q : Fin 5000) (j : Fin 2) :
    matmul dot_S5000x64_S64x2_S5000x2_1_0_0_1_n_n none A B (constant S5000x2 .f32 0x00000000#32) (ix2 q j)
      = ∑ k : Fin 64, A (ix2 q k) * B (ix2 k j) := by
  show FloatOps.matmul _ none A B _ (ix2 q j) = _
  rw [Ideal.matmul_constant_zero_apply,
    ← Equiv.sum_comp (contrEquiv1 dot_S5000x64_S64x2_S5000x2_1_0_0_1_n_n 64 rfl rfl).symm]
  refine Finset.sum_congr rfl fun k _ => ?_
  rw [lhsIdx2_eq, rhsIdx2_eq]

/-- The sum of a tile along its rows, at column j: the sum over the row coordinate. -/
theorem colsum_apply (src : FVec Ideal S5000x2 .f32) (h : S5000x2.Reduces [0] S2) (hφ : FKind.Formats .f32)
    (hacc : (0x00000000#32 : BitVec 32) = 0x00000000#32) (j : Fin 2) :
    multiReduction .add [0] S2 src 0x00000000#32 h hφ hacc (ix1 j) = ∑ q : Fin 5000, src (ix2 q j) := by
  refine (Ideal.multiReduction_add_single src 0x00000000#32 h hφ hacc (ix1 j)).trans ?_
  show ∑ q : Fin 5000, src (h.lift (ix1 j) q) = _
  refine Finset.sum_congr rfl fun q _ => congrArg src ?_
  funext a
  match a with
  | ⟨0, _⟩ => rfl
  | ⟨1, _⟩ => rfl

/-- The tile's value relu(relu(x·Wa + ba)·Wb + bb) at row q and column j. -/
theorem pay4_apply (x0 : Vec Ideal S5000x64 .f32) (x1 : Vec Ideal S64x64 .f32) (x2 : Vec Ideal S1x64 .f32)
    (x3 : Vec Ideal S64x2 .f32) (x4 : Vec Ideal S1x2 .f32) (q : Fin 5000) (j : Fin 2) :
    k2_pay4 (F := Ideal) x0 x1 x2 x3 x4 (ix2 q j)
      = max ((∑ k : Fin 64, max ((∑ k' : Fin 64, x0 (ix2 q k') * x1 (ix2 k' k)) + x2 (ix2 0 k)) 0 * x3 (ix2 k j))
          + x4 (ix2 0 j)) 0 := by
  unfold k2_pay4
  have h0 : (FloatOps.ofBits (F := Ideal) .f32 0x00000000#32 : EReal) = 0 := Ideal.ofBits_zero_f32
  simp only [maximumf_apply, addf_apply, broadcast_apply, mm_apply, mm2_apply, truncf_apply, shapeCast_self,
    broadcastTo_1b_ab_apply, Scalar.ofBits, h0, Ideal.ofBits_zero_f32]

/-- The zero row. -/
theorem pay2_apply (j : Fin 2) : k2_pay2 (F := Ideal) (ix2 0 j) = 0 := Ideal.ofBits_zero_f32
theorem pay3_apply (j : Fin 2) : k2_pay3 (F := Ideal) (ix2 0 j) = 0 := Ideal.ofBits_zero_f32

/-- The running row of column sums after a tile: what it held plus the tile's column sums. -/
theorem pay5_apply (x0 : Vec Ideal S5000x64 .f32) (x1 : Vec Ideal S64x64 .f32) (x2 : Vec Ideal S1x64 .f32)
    (x3 : Vec Ideal S64x2 .f32) (x4 : Vec Ideal S1x2 .f32) (v26 : Vec Ideal S1x2 .f32) (j : Fin 2) :
    k2_pay5 (F := Ideal) x0 x1 x2 x3 x4 v26 (ix2 0 j)
      = v26 (ix2 0 j) + ∑ q : Fin 5000, k2_pay4 (F := Ideal) x0 x1 x2 x3 x4 (ix2 q j) := by
  unfold k2_pay5
  simp only [addf_apply, shapeCast_self, shapeCast_a_1a_apply]
  exact congrArg (v26 (ix2 0 j) + ·) (colsum_apply (k2_pay4 (F := Ideal) x0 x1 x2 x3 x4) _ _ _ j)

/-- The running row of squared column sums after a tile: what it held plus the column sums of the tile's squares. -/
theorem pay1_apply (v24 : FVec Ideal S5000x2 .f32) (v32 : Vec Ideal S1x2 .f32) (j : Fin 2) :
    k2_pay1 (F := Ideal) v24 v32 (ix2 0 j) = v32 (ix2 0 j) + ∑ q : Fin 5000, v24 (ix2 q j) * v24 (ix2 q j) := by
  unfold k2_pay1
  simp only [addf_apply, shapeCast_self, shapeCast_a_1a_apply]
  exact congrArg (v32 (ix2 0 j) + ·) (colsum_apply (mulf v24 v24) _ _ _ j)

end Cert.KernelIdeal.R2Pay

end
-- ==== Proof.R2Blocks.lean ====
/-
  The blocks the second row-tile kernel is handed at a grid point, read off the arrays the region finds, and the tile it
  computes from them.

  At point t the first window hands the body rows 5000·t … 5000·t + 4999 of the aggregated features; the two weight
  matrices (64 × 64 and 64 × 2) and the two bias rows are handed whole at every point. So the tile the body computes at point t is rows
  5000·t … 5000·t + 4999 of Linear → ReLU → Linear → ReLU applied to all rows.
-/
import proofs.«135332_j83760452207416_1_alg».proof.Proof.PatchedKernelIdealFrame
import proofs.«135332_j83760452207416_1_alg».proof.Proof.Spec
import proofs.«135332_j83760452207416_1_alg».proof.Proof.R2Pay
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.R2Blocks

open Cert.KernelIdeal Cert.KernelIdeal.Gen Cert.KernelIdeal.GenP

variable (V : (c : Dev nD) → (b : Ref sig .tc) → Buf (Elt Ideal) ((c : Thread nD τ).loc b))

/-- Where each window's block sits at grid point t: the row-tile windows at block row t, the others at the origin. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

theorem blk0_apply (c : Dev nD) (t : Fin cfg2.N) (q : Fin 5000) (k : Fin 64) (r : Fin 100000)
    (hr : r.val = 5000 * t.val + q.val) :
    (iblk2 V c 0 t : Vec Ideal S5000x64 .f32) (ix2 q k)
      = (V c (Pipeline.arrRef spec2 0) : S100000x64.Idx → EReal) (ix2 r k) := by
  obtain ⟨e0, e1, -⟩ := idx_facts t
  unfold iblk2
  rw [View.read_apply]
  show V c (Pipeline.arrRef spec2 0) _ = V c (Pipeline.arrRef spec2 0) _
  refine congrArg _ ?_
  funext a
  apply Fin.ext
  match a with
  | ⟨0, _⟩ => show win2_0.index t 0 * 5000 + 1 * q.val = r.val; rw [e0, hr]; omega
  | ⟨1, _⟩ => show win2_0.index t 1 * 64 + 1 * k.val = k.val; rw [e1]; omega

theorem blk1_apply (c : Dev nD) (t : Fin cfg2.N) (p : Fin 64) (k : Fin 64) :
    (iblk2 V c 1 t : Vec Ideal S64x64 .f32) (ix2 p k)
      = (V c (Pipeline.arrRef spec2 1) : S64x64.Idx → EReal) (ix2 p k) := by
  obtain ⟨-, -, a1, b1, a2, b2, a3, b3, a4, b4, -⟩ := idx_facts t
  unfold iblk2
  rw [View.read_apply]
  show V c (Pipeline.arrRef spec2 1) _ = V c (Pipeline.arrRef spec2 1) _
  refine congrArg _ ?_
  funext a
  apply Fin.ext
  match a with
  | ⟨0, _⟩ => show win2_1.index t 0 * 64 + 1 * p.val = p.val; rw [a1]; omega
  | ⟨1, _⟩ => show win2_1.index t 1 * 64 + 1 * k.val = k.val; rw [b1]; omega

theorem blk2_apply (c : Dev nD) (t : Fin cfg2.N) (p : Fin 1) (k : Fin 64) :
    (iblk2 V c 2 t : Vec Ideal S1x64 .f32) (ix2 p k)
      = (V c (Pipeline.arrRef spec2 2) : S1x64.Idx → EReal) (ix2 p k) := by
  obtain ⟨-, -, a1, b1, a2, b2, a3, b3, a4, b4, -⟩ := idx_facts t
  unfold iblk2
  rw [View.read_apply]
  show V c (Pipeline.arrRef spec2 2) _ = V c (Pipeline.arrRef spec2 2) _
  refine congrArg _ ?_
  funext a
  apply Fin.ext
  match a with
  | ⟨0, _⟩ => show win2_2.index t 0 * 1 + 1 * p.val = p.val; rw [a2]; omega
  | ⟨1, _⟩ => show win2_2.index t 1 * 64 + 1 * k.val = k.val; rw [b2]; omega

theorem blk3_apply (c : Dev nD) (t : Fin cfg2.N) (p : Fin 64) (k : Fin 2) :
    (iblk2 V c 3 t : Vec Ideal S64x2 .f32) (ix2 p k)
      = (V c (Pipeline.arrRef spec2 3) : S64x2.Idx → EReal) (ix2 p k) := by
  obtain ⟨-, -, a1, b1, a2, b2, a3, b3, a4, b4, -⟩ := idx_facts t
  unfold iblk2
  rw [View.read_apply]
  show V c (Pipeline.arrRef spec2 3) _ = V c (Pipeline.arrRef spec2 3) _
  refine congrArg _ ?_
  funext a
  apply Fin.ext
  match a with
  | ⟨0, _⟩ => show win2_3.index t 0 * 64 + 1 * p.val = p.val; rw [a3]; omega
  | ⟨1, _⟩ => show win2_3.index t 1 * 2 + 1 * k.val = k.val; rw [b3]; omega

theorem blk4_apply (c : Dev nD) (t : Fin cfg2.N) (p : Fin 1) (k : Fin 2) :
    (iblk2 V c 4 t : Vec Ideal S1x2 .f32) (ix2 p k)
      = (V c (Pipeline.arrRef spec2 4) : S1x2.Idx → EReal) (ix2 p k) := by
  obtain ⟨-, -, a1, b1, a2, b2, a3, b3, a4, b4, -⟩ := idx_facts t
  unfold iblk2
  rw [View.read_apply]
  show V c (Pipeline.arrRef spec2 4) _ = V c (Pipeline.arrRef spec2 4) _
  refine congrArg _ ?_
  funext a
  apply Fin.ext
  match a with
  | ⟨0, _⟩ => show win2_4.index t 0 * 1 + 1 * p.val = p.val; rw [a4]; omega
  | ⟨1, _⟩ => show win2_4.index t 1 * 2 + 1 * k.val = k.val; rw [b4]; omega

/-- The layer's value on all 100000 rows, as a function of the arrays the region finds. -/
abbrev Hmat2 (c : Dev nD) : Spec.Mat 100000 2 :=
  Spec.mlp (Spec.toMat (V c (Pipeline.arrRef spec2 0) : S100000x64.Idx → EReal))
    (Spec.toMat (V c (Pipeline.arrRef spec2 1) : S64x64.Idx → EReal))
    (fun k => (V c (Pipeline.arrRef spec2 2) : S1x64.Idx → EReal) (ix2 0 k))
    (Spec.toMat (V c (Pipeline.arrRef spec2 3) : S64x2.Idx → EReal))
    (fun k => (V c (Pipeline.arrRef spec2 4) : S1x2.Idx → EReal) (ix2 0 k))

/-- The tile the body computes at grid point t is rows 5000·t … 5000·t + 4999 of the layer's value. -/
theorem tile_apply (c : Dev nD) (t : Fin cfg2.N) (q : Fin 5000) (j : Fin 2) (r : Fin 100000)
    (hr : r.val = 5000 * t.val + q.val) :
    k2_pay4 (F := Ideal) (iblk2 V c 0 t) (iblk2 V c 1 t) (iblk2 V c 2 t) (iblk2 V c 3 t) (iblk2 V c 4 t) (ix2 q j)
      = Hmat2 V c r j := by
  refine (R2Pay.pay4_apply (iblk2 V c 0 t) (iblk2 V c 1 t) (iblk2 V c 2 t) (iblk2 V c 3 t) (iblk2 V c 4 t) q j).trans ?_
  simp only [blk0_apply V c t q _ r hr, blk1_apply V c t, blk2_apply V c t, blk3_apply V c t, blk4_apply V c t]
  rfl

end Cert.KernelIdeal.R2Blocks

end
-- ==== Proof.R2Acc.lean ====
/-
  The second row-tile kernel's three output buffers after every grid point, and the two running rows as sums over the tiles met so far.

  After point t the first buffer holds tile t of the layer's value. The row of column sums is zeroed at point 0 and
  every point adds its tile's column sums, so after point n it holds the column sums of tiles 0 … n; the row of squared
  column sums likewise. The twenty tiles of 5000 rows are the 100000 rows, each once.
-/
import proofs.«135332_j83760452207416_1_alg».proof.Proof.R2Pieces
import proofs.«135332_j83760452207416_1_alg».proof.Proof.R2Blocks
import proofs.«135332_j83760452207416_1_alg».proof.Proof.LibSums

noncomputable section

open scoped BigOperators
open Idealize.ShloMosaic Idealize.ShloMosaic.TcCoe Idealize.SL.Sem Idealize.ShloMosaic.ValueIdx
open Idealize.ShloMosaic.Pipeline (Dat)

namespace Cert.KernelIdeal.R2Acc

open Cert.KernelIdeal Cert.KernelIdeal.Gen Cert.KernelIdeal.GenP Cert.KernelIdeal.R2Blocks

variable (V : (c : Dev nD) → (b : Ref sig .tc) → Buf (Elt Ideal) ((c : Thread nD τ).loc b))

/-- After every point the first buffer holds the tile's value of the point's blocks. -/
theorem outs5 (c : Dev nD) (t : Fin cfg2.N) :
    (outsAt2 V c t.val t.isLt).1 = k2_pay4 (F := Ideal) (iblk2 V c 0 t) (iblk2 V c 1 t) (iblk2 V c 2 t) (iblk2 V c 3 t) (iblk2 V c 4 t) := by
  by_cases h0 : t.val % 20 = 0
  · rw [outsAt2_A V c t h0]
    dsimp only
    exact R2Pieces.outA5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)
  · rw [outsAt2_B V c t h0]
    dsimp only
    exact R2Pieces.outB5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) _ _

/-- The layer's value by row number, zero past the last row. -/
def Hn (c : Dev nD) (r : ℕ) (j : Fin 2) : EReal := if h : r < 100000 then Hmat2 V c ⟨r, h⟩ j else 0

/-- A tile's entries are the layer's value at rows 5000·t + q. -/
theorem tile_eq (c : Dev nD) (t : Fin cfg2.N) (q : Fin 5000) (j : Fin 2) :
    k2_pay4 (F := Ideal) (iblk2 V c 0 t) (iblk2 V c 1 t) (iblk2 V c 2 t) (iblk2 V c 3 t) (iblk2 V c 4 t) (ix2 q j) = Hn V c (t.val * 5000 + q.val) j := by
  have hN : t.val < 20 := lt_of_lt_of_eq t.isLt (show cfg2.N = 20 from N_2)
  have hr : t.val * 5000 + q.val < 100000 := by have := q.isLt; omega
  unfold Hn
  rw [dif_pos hr]
  exact tile_apply V c t q j ⟨t.val * 5000 + q.val, hr⟩ (by show t.val * 5000 + q.val = 5000 * t.val + q.val; omega)

/-- The row of column sums after point n: the column sums of tiles 0 … n. -/
theorem acc6 (c : Dev nD) : ∀ (n : ℕ) (hn : n < cfg2.N) (j : Fin 2),
    (outsAt2 V c n hn).2.1 (ix2 0 j) = ∑ s ∈ Finset.range (n + 1), ∑ q : Fin 5000, Hn V c (s * 5000 + q.val) j
  | 0, hn, j => by
    rw [outsAt2_A V c ⟨0, hn⟩ rfl]
    dsimp only
    rw [R2Pieces.outA6 (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩),
      R2Pay.pay5_apply (iblk2 V c 0 ⟨0, hn⟩) (iblk2 V c 1 ⟨0, hn⟩) (iblk2 V c 2 ⟨0, hn⟩) (iblk2 V c 3 ⟨0, hn⟩) (iblk2 V c 4 ⟨0, hn⟩) (k2_pay2 (F := Ideal)) j, R2Pay.pay2_apply, zero_add, Finset.sum_range_one]
    exact Finset.sum_congr rfl fun q _ => tile_eq V c ⟨0, hn⟩ q j
  | n + 1, hn, j => by
    have hN : n + 1 < 20 := lt_of_lt_of_eq hn (show cfg2.N = 20 from N_2)
    have hB : ¬(⟨n + 1, hn⟩ : Fin cfg2.N).val % 20 = 0 := by dsimp only; omega
    rw [outsAt2_B V c ⟨n + 1, hn⟩ hB]
    dsimp only
    rw [R2Pieces.outB6 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => hB ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) _ _,
      R2Pay.pay5_apply (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) _ j]
    show (outsAt2 V c n _).2.1 (ix2 0 j) + _ = _
    rw [acc6 c n _ j, Finset.sum_range_succ _ (n + 1)]
    exact congrArg (_ + ·) (Finset.sum_congr rfl fun q _ => tile_eq V c ⟨n + 1, hn⟩ q j)

/-- The row of squared column sums after point n: the column sums of the squares of tiles 0 … n. -/
theorem acc7 (c : Dev nD) : ∀ (n : ℕ) (hn : n < cfg2.N) (j : Fin 2),
    (outsAt2 V c n hn).2.2 (ix2 0 j)
      = ∑ s ∈ Finset.range (n + 1), ∑ q : Fin 5000, Hn V c (s * 5000 + q.val) j * Hn V c (s * 5000 + q.val) j
  | 0, hn, j => by
    rw [outsAt2_A V c ⟨0, hn⟩ rfl]
    dsimp only
    rw [R2Pieces.outA7 (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩),
      R2Pay.pay1_apply (k2_pay4 (F := Ideal) (iblk2 V c 0 ⟨0, hn⟩) (iblk2 V c 1 ⟨0, hn⟩) (iblk2 V c 2 ⟨0, hn⟩) (iblk2 V c 3 ⟨0, hn⟩) (iblk2 V c 4 ⟨0, hn⟩)) (k2_pay3 (F := Ideal)) j, R2Pay.pay3_apply, zero_add, Finset.sum_range_one]
    exact Finset.sum_congr rfl fun q _ => by rw [tile_eq V c ⟨0, hn⟩ q j]
  | n + 1, hn, j => by
    have hN : n + 1 < 20 := lt_of_lt_of_eq hn (show cfg2.N = 20 from N_2)
    have hB : ¬(⟨n + 1, hn⟩ : Fin cfg2.N).val % 20 = 0 := by dsimp only; omega
    rw [outsAt2_B V c ⟨n + 1, hn⟩ hB]
    dsimp only
    rw [R2Pieces.outB7 (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => hB ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) _ _,
      R2Pay.pay1_apply (k2_pay4 (F := Ideal) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)) _ j]
    show (outsAt2 V c n _).2.2 (ix2 0 j) + _ = _
    rw [acc7 c n _ j, Finset.sum_range_succ _ (n + 1)]
    exact congrArg (_ + ·) (Finset.sum_congr rfl fun q _ => by rw [tile_eq V c ⟨n + 1, hn⟩ q j])

/-- Twenty tiles of 5000 rows are the 100000 rows, each once. -/
theorem sum_tiles (f : ℕ → EReal) :
    ∑ s ∈ Finset.range 20, ∑ q : Fin 5000, f (s * 5000 + q.val) = ∑ r : Fin 100000, f r.val := by
  rw [← Fin.sum_univ_eq_sum_range (fun s => ∑ q : Fin 5000, f (s * 5000 + q.val)) 20]
  exact LibSums.sum_fin_mul 20 5000 f

/-- After the last point the row of column sums holds the column sums of the layer's value, -/
theorem last6 (c : Dev nD) (hn : 19 < cfg2.N) (j : Fin 2) :
    (outsAt2 V c 19 hn).2.1 (ix2 0 j) = Spec.colSum (Hmat2 V c) j := by
  rw [acc6 V c 19 hn j, sum_tiles (fun r => Hn V c r j)]
  unfold Spec.colSum
  exact Finset.sum_congr rfl fun r _ => by unfold Hn; rw [dif_pos r.isLt]

/-- and the other row the column sums of its squares. -/
theorem last7 (c : Dev nD) (hn : 19 < cfg2.N) (j : Fin 2) :
    (outsAt2 V c 19 hn).2.2 (ix2 0 j) = Spec.colSumSq (Hmat2 V c) j := by
  rw [acc7 V c 19 hn j, sum_tiles (fun r => Hn V c r j * Hn V c r j)]
  unfold Spec.colSumSq
  exact Finset.sum_congr rfl fun r _ => by unfold Hn; rw [dif_pos r.isLt]

end Cert.KernelIdeal.R2Acc

end
-- ==== Proof.R2Value.lean ====
/-
  What the second row-tile kernel's three output arrays hold when the region ends.

  Every grid point writes its tile back, and the twenty tiles cover the 100000 rows, so the first array ends holding
  Linear → ReLU → Linear → ReLU of every row. The two rows of running sums are written back once, after the last point,
  when they hold the sums over all twenty tiles: the column sums of that matrix and of its squares.
-/
import proofs.«135332_j83760452207416_1_alg».proof.Proof.R2Acc

noncomputable section

open scoped BigOperators
open Idealize.ShloMosaic Idealize.ShloMosaic.TcCoe Idealize.SL.Sem Idealize.ShloMosaic.ValueIdx
open Idealize.ShloMosaic.Pipeline (Dat)

namespace Cert.KernelIdeal.R2Value

open Cert.KernelIdeal Cert.KernelIdeal.Gen Cert.KernelIdeal.GenP Cert.KernelIdeal.R2Blocks Cert.KernelIdeal.R2Acc

variable (V : (c : Dev nD) → (b : Ref sig .tc) → Buf (Elt Ideal) ((c : Thread nD τ).loc b))

/-- The grid has twenty points; the last is point 19. -/
theorem lt19 : 19 < cfg2.N := by rw [show cfg2.N = 20 from N_2]; decide

/-- The buffers after a point depend on the point's number only. -/
theorem outsAt2_congr (c : Dev nD) {n m : ℕ} (h : n = m) (hn : n < cfg2.N) (hm : m < cfg2.N) :
    outsAt2 V c n hn = outsAt2 V c m hm := by subst h; rfl

/-- An index of the array lies in point t's block of window 5 exactly when each coordinate is in the block's range. -/
theorem mem_blk5 (t : Fin cfg2.N) (i : S100000x2.Idx) :
    i ∈ ((cfg2.win 5).blk t).view.set ↔ ∀ a : Fin 2, win2_5.index t a * S5000x2.size a ≤ (i a).val
      ∧ (i a).val < win2_5.index t a * S5000x2.size a + S5000x2.size a := by
  show i ∈ ((View.whole main_v44_0).slice (win2_5.rect t)).set ↔ _
  rw [View.set_slice_whole, Rect.mem_set_unit]
  exact Iff.rfl

/-- An index of the array lies in point t's block of window 6 exactly when each coordinate is in the block's range. -/
theorem mem_blk6 (t : Fin cfg2.N) (i : S1x2.Idx) :
    i ∈ ((cfg2.win 6).blk t).view.set ↔ ∀ a : Fin 2, win2_6.index t a * S1x2.size a ≤ (i a).val
      ∧ (i a).val < win2_6.index t a * S1x2.size a + S1x2.size a := by
  show i ∈ ((View.whole main_v44_1).slice (win2_6.rect t)).set ↔ _
  rw [View.set_slice_whole, Rect.mem_set_unit]
  exact Iff.rfl

/-- An index of the array lies in point t's block of window 7 exactly when each coordinate is in the block's range. -/
theorem mem_blk7 (t : Fin cfg2.N) (i : S1x2.Idx) :
    i ∈ ((cfg2.win 7).blk t).view.set ↔ ∀ a : Fin 2, win2_7.index t a * S1x2.size a ≤ (i a).val
      ∧ (i a).val < win2_7.index t a * S1x2.size a + S1x2.size a := by
  show i ∈ ((View.whole main_v44_2).slice (win2_7.rect t)).set ↔ _
  rw [View.set_slice_whole, Rect.mem_set_unit]
  exact Iff.rfl

/-- What point t writes back of the first output is block t of the layer's value. -/
theorem flushed5 (c : Dev nD) (t : Fin cfg2.N) :
    (dat2 V c).flushed 5 t
      = ((cfg2.win 5).blk t).view.read (Elt Ideal) (fun i : S100000x2.Idx => Hmat2 V c (i 0) (i 1)) := by
  obtain ⟨-, -, -, -, -, -, -, -, -, -, e0, e1, -⟩ := idx_facts t
  have hN : t.val < 20 := lt_of_lt_of_eq t.isLt (show cfg2.N = 20 from N_2)
  show (cfg2.win 5).cut (grid2.coords t) ((dat2 V c).after 5 t) = _
  rw [after2_5, outs5]
  funext y
  obtain ⟨q, j, rfl⟩ : ∃ (q : Fin 5000) (j : Fin 2), (y : S5000x2.Idx) = ix2 q j := ⟨y 0, y 1, eq_ix2 y⟩
  rw [View.read_apply]
  have hq : q.val < 5000 := q.isLt
  refine (tile_apply V c t q j ⟨5000 * t.val + q.val, by omega⟩ rfl).trans ?_
  show Hmat2 V c _ _ = Hmat2 V c ((((cfg2.win 5).blk t).view.emb (ix2 q j)) 0) ((((cfg2.win 5).blk t).view.emb (ix2 q j)) 1)
  exact congrArg₂ (Hmat2 V c)
    (Fin.ext (show 5000 * t.val + q.val = win2_5.index t 0 * 5000 + 1 * q.val by rw [e0]; omega))
    (Fin.ext (show j.val = win2_5.index t 1 * 2 + 1 * j.val by rw [e1]; omega))

/-- The twenty blocks cover the array, so it ends holding the layer's value on every row. -/
theorem arr5 (c : Dev nD) :
    (dat2 V c).arrAt 5 cfg2.N = fun i : S100000x2.Idx => Hmat2 V c (i 0) (i 1) :=
  (dat2 V c).arrAt_eq_of_cover 5 _ (fun t _ => flushed5 V c t) fun i => by
    have hN : cfg2.N = 20 := N_2
    have h0 : (i 0).val < 100000 := idx2_lt0 i
    have h1 : (i 1).val < 2 := idx2_lt1 i
    have ht : (i 0).val / 5000 < cfg2.N := by rw [hN]; omega
    obtain ⟨-, -, -, -, -, -, -, -, -, -, e0, e1, -⟩ := idx_facts ⟨(i 0).val / 5000, ht⟩
    refine ⟨⟨(i 0).val / 5000, ht⟩, flush2_5 _, ?_⟩
    rw [mem_blk5]
    intro a
    match a with
    | ⟨0, _⟩ => show win2_5.index _ 0 * 5000 ≤ (i 0).val ∧ (i 0).val < win2_5.index _ 0 * 5000 + 5000; rw [e0]; dsimp only; omega
    | ⟨1, _⟩ => show win2_5.index _ 1 * 2 ≤ (i 1).val ∧ (i 1).val < win2_5.index _ 1 * 2 + 2; rw [e1]; omega

/-- The one write-back of window 6, after the last point, writes the row the buffer then holds (named g here, so
    that nothing below looks inside a sum over 100000 rows). -/
theorem flushed6 (c : Dev nD) (g : Fin 2 → EReal)
    (hg : ∀ j : Fin 2, (outsAt2 V c 19 lt19).2.1 (ix2 0 j) = g j)
    (t : Fin cfg2.N) (hf : (cfg2.win 6).flush t = true) :
    (dat2 V c).flushed 6 t
      = ((cfg2.win 6).blk t).view.read (Elt Ideal) (fun i : S1x2.Idx => g (i 1)) := by
  have hN : cfg2.N = 20 := N_2
  have h19 : t.val = 19 := by have := (flush2_6 t).mp hf; have := t.isLt; omega
  obtain ⟨-, -, -, -, -, -, -, -, -, -, -, -, a6, b6, a7, b7⟩ := idx_facts t
  show (cfg2.win 6).cut (grid2.coords t) ((dat2 V c).after 6 t) = _
  rw [after2_6]
  funext y
  obtain ⟨u, j, rfl⟩ : ∃ (u : Fin 1) (j : Fin 2), (y : S1x2.Idx) = ix2 u j := ⟨y 0, y 1, eq_ix2 y⟩
  obtain rfl : u = 0 := Subsingleton.elim _ _
  rw [View.read_apply]
  show (outsAt2 V c t.val t.isLt).2.1 (ix2 0 j) = g ((((cfg2.win 6).blk t).view.emb (ix2 0 j)) 1)
  rw [outsAt2_congr V c h19 t.isLt lt19, hg j]
  exact congrArg _ (Fin.ext (show j.val = win2_6.index t 1 * 2 + 1 * j.val by rw [b6]; omega))

/-- So window 6's array ends holding that row. -/
theorem arrRow6 (c : Dev nD) (g : Fin 2 → EReal)
    (hg : ∀ j : Fin 2, (outsAt2 V c 19 lt19).2.1 (ix2 0 j) = g j) :
    (dat2 V c).arrAt 6 cfg2.N = fun i : S1x2.Idx => g (i 1) :=
  (dat2 V c).arrAt_eq_of_cover 6 _ (flushed6 V c g hg) fun i => by
    have hN : cfg2.N = 20 := N_2
    obtain ⟨-, -, -, -, -, -, -, -, -, -, -, -, a6, b6, a7, b7⟩ := idx_facts ⟨19, lt19⟩
    refine ⟨⟨19, lt19⟩, (flush2_6 _).mpr rfl, ?_⟩
    rw [mem_blk6]
    have h0 : (i 0).val < 1 := idx2_lt0 i
    have h1 : (i 1).val < 2 := idx2_lt1 i
    intro a
    match a with
    | ⟨0, _⟩ => show win2_6.index _ 0 * 1 ≤ (i 0).val ∧ (i 0).val < win2_6.index _ 0 * 1 + 1; rw [a6]; omega
    | ⟨1, _⟩ => show win2_6.index _ 1 * 2 ≤ (i 1).val ∧ (i 1).val < win2_6.index _ 1 * 2 + 2; rw [b6]; omega

/-- The one write-back of window 7, after the last point, writes the row the buffer then holds (named g here, so
    that nothing below looks inside a sum over 100000 rows). -/
theorem flushed7 (c : Dev nD) (g : Fin 2 → EReal)
    (hg : ∀ j : Fin 2, (outsAt2 V c 19 lt19).2.2 (ix2 0 j) = g j)
    (t : Fin cfg2.N) (hf : (cfg2.win 7).flush t = true) :
    (dat2 V c).flushed 7 t
      = ((cfg2.win 7).blk t).view.read (Elt Ideal) (fun i : S1x2.Idx => g (i 1)) := by
  have hN : cfg2.N = 20 := N_2
  have h19 : t.val = 19 := by have := (flush2_7 t).mp hf; have := t.isLt; omega
  obtain ⟨-, -, -, -, -, -, -, -, -, -, -, -, a6, b6, a7, b7⟩ := idx_facts t
  show (cfg2.win 7).cut (grid2.coords t) ((dat2 V c).after 7 t) = _
  rw [after2_7]
  funext y
  obtain ⟨u, j, rfl⟩ : ∃ (u : Fin 1) (j : Fin 2), (y : S1x2.Idx) = ix2 u j := ⟨y 0, y 1, eq_ix2 y⟩
  obtain rfl : u = 0 := Subsingleton.elim _ _
  rw [View.read_apply]
  show (outsAt2 V c t.val t.isLt).2.2 (ix2 0 j) = g ((((cfg2.win 7).blk t).view.emb (ix2 0 j)) 1)
  rw [outsAt2_congr V c h19 t.isLt lt19, hg j]
  exact congrArg _ (Fin.ext (show j.val = win2_7.index t 1 * 2 + 1 * j.val by rw [b7]; omega))

/-- So window 7's array ends holding that row. -/
theorem arrRow7 (c : Dev nD) (g : Fin 2 → EReal)
    (hg : ∀ j : Fin 2, (outsAt2 V c 19 lt19).2.2 (ix2 0 j) = g j) :
    (dat2 V c).arrAt 7 cfg2.N = fun i : S1x2.Idx => g (i 1) :=
  (dat2 V c).arrAt_eq_of_cover 7 _ (flushed7 V c g hg) fun i => by
    have hN : cfg2.N = 20 := N_2
    obtain ⟨-, -, -, -, -, -, -, -, -, -, -, -, a6, b6, a7, b7⟩ := idx_facts ⟨19, lt19⟩
    refine ⟨⟨19, lt19⟩, (flush2_7 _).mpr rfl, ?_⟩
    rw [mem_blk7]
    have h0 : (i 0).val < 1 := idx2_lt0 i
    have h1 : (i 1).val < 2 := idx2_lt1 i
    intro a
    match a with
    | ⟨0, _⟩ => show win2_7.index _ 0 * 1 ≤ (i 0).val ∧ (i 0).val < win2_7.index _ 0 * 1 + 1; rw [a7]; omega
    | ⟨1, _⟩ => show win2_7.index _ 1 * 2 ≤ (i 1).val ∧ (i 1).val < win2_7.index _ 1 * 2 + 2; rw [b7]; omega

/-- The second output array ends holding the column sums of the layer's value, -/
theorem arr6 (c : Dev nD) :
    (dat2 V c).arrAt 6 cfg2.N = fun i : S1x2.Idx => Spec.colSum (Hmat2 V c) (i 1) :=
  arrRow6 V c (Spec.colSum (Hmat2 V c)) (last6 V c lt19)

/-- and the third the column sums of its squares. -/
theorem arr7 (c : Dev nD) :
    (dat2 V c).arrAt 7 cfg2.N = fun i : S1x2.Idx => Spec.colSumSq (Hmat2 V c) (i 1) :=
  arrRow7 V c (Spec.colSumSq (Hmat2 V c)) (last7 V c lt19)

end Cert.KernelIdeal.R2Value

end
-- ==== Proof.KValue2.lean ====
/-
  The second layer of the tiled program, read back from the run's boundary contents.

  Given what the buffers hold when the second aggregation stretch starts (the first layer's result, the edge list's
  two rows, the second layer's parameters) and what the accumulating region leaves (the row function of every row,
  its column sums and column sums of squares), the result buffer ends holding the second layer: the neighbour
  aggregation of the first layer's result, then Linear → ReLU → Linear → ReLU on every row, then the normalisation
  with mean = sum / N and variance = sumsq / N − mean².
-/
import proofs.«135332_j83760452207416_1_alg».proof.Proof.KRun
import proofs.«135332_j83760452207416_1_alg».proof.Proof.KAgg
import proofs.«135332_j83760452207416_1_alg».proof.Proof.KRead
import proofs.«135332_j83760452207416_1_alg».proof.Proof.R2Value
import proofs.«135332_j83760452207416_1_alg».proof.Proof.R3Value
import proofs.«135332_j83760452207416_1_alg».proof.Proof.Layers
import proofs.«135332_j83760452207416_1_alg».proof.Proof.KHost

set_option maxRecDepth 16384

noncomputable section

namespace Cert.KernelIdeal.KValue2

open Cert.KernelIdeal Cert.KernelIdeal.Gen Cert.KernelIdeal.GenP Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The second layer's row function on all rows, of the arrays the accumulating region finds. -/
abbrev H2 : Mat 100000 2 :=
  Spec.mlp (toMat (V5 m ρ c main_v41 : S100000x64.Idx → EReal)) (toMat (V5 m ρ c main_arg8 : S64x64.Idx → EReal))
    (fun k => (V5 m ρ c main_v42 : S1x64.Idx → EReal) (ix2 0 k)) (toMat (V5 m ρ c main_arg10 : S64x2.Idx → EReal))
    (fun k => (V5 m ρ c main_v43 : S1x2.Idx → EReal) (ix2 0 k))

section Entry

variable (L1 : FVec Ideal S100000x64 .f32) (a1 : IVec S2x1600000 32) (a8 : FVec Ideal S64x64 .f32)
  (a9 : FVec Ideal S64 .f32) (a10 : FVec Ideal S64x2 .f32) (a11 a12 a13 : FVec Ideal S2 .f32)

/-- The aggregation stretch leaves the aggregation of the first layer's result along the edge list's rows. -/
theorem V5_v41 (h30 : W4 m ρ c (Proc.devRef .tc main_v30) = L1) (h1 : W4 m ρ c (Proc.devRef .tc main_v1) = KAgg.src a1)
    (h3 : W4 m ρ c (Proc.devRef .tc main_v3) = KAgg.dst a1) :
    (V5 m ρ c main_v41 : S100000x64.Idx → EReal) = KTerm.agg (F := Ideal) L1 a1 :=
  (KAgg.h2_v41 (W4 m ρ c)).trans (by rw [h30, h1, h3, ← KAgg.agg_split])

theorem V5_arg8 (h8 : W4 m ρ c (Proc.devRef .tc main_arg8) = a8) : (V5 m ρ c main_arg8 : S64x64.Idx → EReal) = a8 :=
  (KHost.keep2 (W4 m ρ c) main_arg8 (by decide)).trans h8
theorem V5_arg10 (h10 : W4 m ρ c (Proc.devRef .tc main_arg10) = a10) : (V5 m ρ c main_arg10 : S64x2.Idx → EReal) = a10 :=
  (KHost.keep2 (W4 m ρ c) main_arg10 (by decide)).trans h10
theorem V5_arg12 (h12 : W4 m ρ c (Proc.devRef .tc main_arg12) = a12) : (V5 m ρ c main_arg12 : S2.Idx → EReal) = a12 :=
  (KHost.keep2 (W4 m ρ c) main_arg12 (by decide)).trans h12
theorem V5_arg13 (h13 : W4 m ρ c (Proc.devRef .tc main_arg13) = a13) : (V5 m ρ c main_arg13 : S2.Idx → EReal) = a13 :=
  (KHost.keep2 (W4 m ρ c) main_arg13 (by decide)).trans h13
theorem V5_v42 (h9 : W4 m ρ c (Proc.devRef .tc main_arg9) = a9) :
    (V5 m ρ c main_v42 : S1x64.Idx → EReal) = KTerm.up64 (F := Ideal) a9 :=
  (KHost.h2_v42 (W4 m ρ c)).trans (congrArg _ h9)
theorem V5_v43 (h11 : W4 m ρ c (Proc.devRef .tc main_arg11) = a11) :
    (V5 m ρ c main_v43 : S1x2.Idx → EReal) = KTerm.up2 (F := Ideal) a11 :=
  (KHost.h2_v43 (W4 m ρ c)).trans (congrArg _ h11)

/-- The row function the accumulating region computes is the second layer's, of the aggregated first layer. -/
theorem H2_eq (h30 : W4 m ρ c (Proc.devRef .tc main_v30) = L1) (h1 : W4 m ρ c (Proc.devRef .tc main_v1) = KAgg.src a1)
    (h3 : W4 m ρ c (Proc.devRef .tc main_v3) = KAgg.dst a1) (h8 : W4 m ρ c (Proc.devRef .tc main_arg8) = a8) (h9 : W4 m ρ c (Proc.devRef .tc main_arg9) = a9)
    (h10 : W4 m ρ c (Proc.devRef .tc main_arg10) = a10) (h11 : W4 m ρ c (Proc.devRef .tc main_arg11) = a11) :
    H2 m ρ c = Spec.mlp (toMat (KTerm.agg (F := Ideal) L1 a1)) (toMat a8) (toRow a9) (toMat a10) (toRow a11) := by
  unfold H2
  rw [V5_v41 m ρ c L1 a1 h30 h1 h3, V5_arg8 m ρ c a8 h8, V5_v42 m ρ c a9 h9, V5_arg10 m ρ c a10 h10,
    V5_v43 m ρ c a11 h11]
  exact congrArg₂ (fun u v => Spec.mlp (toMat (KTerm.agg (F := Ideal) L1 a1)) (toMat a8) u (toMat a10) v)
    (funext fun k => KTerm.up64_apply a9 k) (funext fun k => KTerm.up2_apply a11 k)

end Entry

section Exit

variable (a12 a13 : FVec Ideal S2 .f32)

/-- What the normalising region finds: the row function's array, and the statistics rows formed from the two sums. -/
theorem V7_v44_0 (hr5 : (dat2 (V5 m ρ) c).arrAt 5 cfg2.N = fun i => H2 m ρ c (i 0) (i 1)) :
    (V7 m ρ c main_v44_0 : S100000x2.Idx → EReal) = Cert.Layers.ofMat (H2 m ρ c) :=
  (KHost.keep3 (W6 m ρ c) main_v44_0 (by decide)).trans ((W6_arr m ρ c 5).trans hr5)

theorem W6_v44_1 (hr6 : (dat2 (V5 m ρ) c).arrAt 6 cfg2.N = fun i => Spec.colSum (H2 m ρ c) (i 1)) :
    (W6 m ρ c (Proc.devRef .tc main_v44_1) : S1x2.Idx → EReal) = fun i => Spec.colSum (H2 m ρ c) (i 1) :=
  (W6_arr m ρ c 6).trans hr6
theorem W6_v44_2 (hr7 : (dat2 (V5 m ρ) c).arrAt 7 cfg2.N = fun i => Spec.colSumSq (H2 m ρ c) (i 1)) :
    (W6 m ρ c (Proc.devRef .tc main_v44_2) : S1x2.Idx → EReal) = fun i => Spec.colSumSq (H2 m ρ c) (i 1) :=
  (W6_arr m ρ c 7).trans hr7

theorem V7_v53 (hr6 : (dat2 (V5 m ρ) c).arrAt 6 cfg2.N = fun i => Spec.colSum (H2 m ρ c) (i 1)) :
    (V7 m ρ c main_v53 : S1x2.Idx → EReal)
      = KTerm.up2 (F := Ideal) (KTerm.mean2 (F := Ideal) fun i => Spec.colSum (H2 m ρ c) (i 1)) :=
  (KHost.h3_v53 (W6 m ρ c)).trans (congrArg (fun s => KTerm.up2 (F := Ideal) (KTerm.mean2 (F := Ideal) s)) (W6_v44_1 m ρ c hr6))
theorem V7_v54 (hr6 : (dat2 (V5 m ρ) c).arrAt 6 cfg2.N = fun i => Spec.colSum (H2 m ρ c) (i 1))
    (hr7 : (dat2 (V5 m ρ) c).arrAt 7 cfg2.N = fun i => Spec.colSumSq (H2 m ρ c) (i 1)) :
    (V7 m ρ c main_v54 : S1x2.Idx → EReal)
      = KTerm.up2 (F := Ideal) (KTerm.var2 (F := Ideal) (fun i => Spec.colSum (H2 m ρ c) (i 1))
          fun i => Spec.colSumSq (H2 m ρ c) (i 1)) :=
  (KHost.h3_v54 (W6 m ρ c)).trans (congrArg₂ (fun s ss => KTerm.up2 (F := Ideal) (KTerm.var2 (F := Ideal) s ss))
    (W6_v44_1 m ρ c hr6) (W6_v44_2 m ρ c hr7))
theorem V7_v55 (h12 : W4 m ρ c (Proc.devRef .tc main_arg12) = a12) :
    (V7 m ρ c main_v55 : S1x2.Idx → EReal) = KTerm.up2 (F := Ideal) a12 :=
  (KHost.h3_v55 (W6 m ρ c)).trans (congrArg _ ((W6_of_ne m ρ c main_arg12 (by decide)).trans (V5_arg12 m ρ c a12 h12)))
theorem V7_v56 (h13 : W4 m ρ c (Proc.devRef .tc main_arg13) = a13) :
    (V7 m ρ c main_v56 : S1x2.Idx → EReal) = KTerm.up2 (F := Ideal) a13 :=
  (KHost.h3_v56 (W6 m ρ c)).trans (congrArg _ ((W6_of_ne m ρ c main_arg13 (by decide)).trans (V5_arg13 m ρ c a13 h13)))

end Exit

/-- The normalisation of equal arrays is equal. -/
theorem G_congr {h h' : S100000x2.Idx → EReal} {mu mu' var var' g g' be be' : S1x2.Idx → EReal} (e0 : h = h')
    (e1 : mu = mu') (e2 : var = var') (e3 : g = g') (e4 : be = be') :
    R3Value.G h mu var g be = R3Value.G h' mu' var' g' be' := by
  subst e0 e1 e2 e3 e4; rfl

/-- The result buffer ends holding the second layer of the aggregated first layer, given what the accumulating
    region leaves in its three output arrays. -/
theorem W8_v57_of (L1 : FVec Ideal S100000x64 .f32) (a1 : IVec S2x1600000 32) (a8 : FVec Ideal S64x64 .f32)
    (a9 : FVec Ideal S64 .f32) (a10 : FVec Ideal S64x2 .f32) (a11 a12 a13 : FVec Ideal S2 .f32)
    (h30 : W4 m ρ c (Proc.devRef .tc main_v30) = L1) (h1 : W4 m ρ c (Proc.devRef .tc main_v1) = KAgg.src a1) (h3 : W4 m ρ c (Proc.devRef .tc main_v3) = KAgg.dst a1)
    (h8 : W4 m ρ c (Proc.devRef .tc main_arg8) = a8) (h9 : W4 m ρ c (Proc.devRef .tc main_arg9) = a9) (h10 : W4 m ρ c (Proc.devRef .tc main_arg10) = a10)
    (h11 : W4 m ρ c (Proc.devRef .tc main_arg11) = a11) (h12 : W4 m ρ c (Proc.devRef .tc main_arg12) = a12) (h13 : W4 m ρ c (Proc.devRef .tc main_arg13) = a13)
    (hr5 : (dat2 (V5 m ρ) c).arrAt 5 cfg2.N = fun i => H2 m ρ c (i 0) (i 1))
    (hr6 : (dat2 (V5 m ρ) c).arrAt 6 cfg2.N = fun i => Spec.colSum (H2 m ρ c) (i 1))
    (hr7 : (dat2 (V5 m ρ) c).arrAt 7 cfg2.N = fun i => Spec.colSumSq (H2 m ρ c) (i 1)) :
    W8 m ρ c (Proc.devRef .tc main_v57)
      = Cert.Layers.ofMat (Cert.Layers.layerK (toMat (KTerm.agg (F := Ideal) L1 a1)) (toMat a8) (toRow a9) (toMat a10)
          (toRow a11) (toRow a12) (toRow a13)) := by
  exact (W8_arr m ρ c 5).trans <| (R3Value.arr5 (V7 m ρ) c).trans <|
    (G_congr (V7_v44_0 m ρ c hr5) (V7_v53 m ρ c hr6) (V7_v54 m ρ c hr6 hr7) (V7_v55 m ρ c a12 h12)
      (V7_v56 m ρ c a13 h13)).trans <|
    (KRead.bn2K (H2 m ρ c) (fun i => Spec.colSum (H2 m ρ c) (i 1)) (fun i => Spec.colSumSq (H2 m ρ c) (i 1))
      (fun _ => rfl) (fun _ => rfl) a12 a13).trans <|
    congrArg (fun H => Cert.Layers.ofMat (Spec.bn H (Spec.mean H) (Spec.varMoments H) (toRow a12) (toRow a13)))
      (H2_eq m ρ c L1 a1 a8 a9 a10 a11 h30 h1 h3 h8 h9 h10 h11)

/-- The result buffer ends holding the second layer of the aggregated first layer: the accumulating region leaves
    the row function of every row, its column sums and its column sums of squares. -/
theorem W8_v57 (L1 : FVec Ideal S100000x64 .f32) (a1 : IVec S2x1600000 32) (a8 : FVec Ideal S64x64 .f32)
    (a9 : FVec Ideal S64 .f32) (a10 : FVec Ideal S64x2 .f32) (a11 a12 a13 : FVec Ideal S2 .f32)
    (h30 : W4 m ρ c (Proc.devRef .tc main_v30) = L1) (h1 : W4 m ρ c (Proc.devRef .tc main_v1) = KAgg.src a1) (h3 : W4 m ρ c (Proc.devRef .tc main_v3) = KAgg.dst a1)
    (h8 : W4 m ρ c (Proc.devRef .tc main_arg8) = a8) (h9 : W4 m ρ c (Proc.devRef .tc main_arg9) = a9) (h10 : W4 m ρ c (Proc.devRef .tc main_arg10) = a10)
    (h11 : W4 m ρ c (Proc.devRef .tc main_arg11) = a11) (h12 : W4 m ρ c (Proc.devRef .tc main_arg12) = a12) (h13 : W4 m ρ c (Proc.devRef .tc main_arg13) = a13) :
    W8 m ρ c (Proc.devRef .tc main_v57)
      = Cert.Layers.ofMat (Cert.Layers.layerK (toMat (KTerm.agg (F := Ideal) L1 a1)) (toMat a8) (toRow a9) (toMat a10)
          (toRow a11) (toRow a12) (toRow a13)) :=
  W8_v57_of m ρ c L1 a1 a8 a9 a10 a11 a12 a13 h30 h1 h3 h8 h9 h10 h11 h12 h13
    (R2Value.arr5 (V5 m ρ) c) (R2Value.arr6 (V5 m ρ) c) (R2Value.arr7 (V5 m ρ) c)

end Cert.KernelIdeal.KValue2

end
-- ==== Proof.KValue.lean ====
/-
  The idealized kernel program's run with its result read back: every weakly fair execution of @main terminates,
  the argument arrays end as launched, and the result buffer ends holding two layers of the specification — each
  the neighbour aggregation, Linear → ReLU → Linear → ReLU on every row, and the batch normalisation with the
  variance as mean of squares minus squared mean — of the arguments' launch contents.
-/
import proofs.«135332_j83760452207416_1_alg».proof.Proof.KRun
import proofs.«135332_j83760452207416_1_alg».proof.Proof.KValue1
import proofs.«135332_j83760452207416_1_alg».proof.Proof.KValue2
import proofs.«135332_j83760452207416_1_alg».proof.Proof.Layers

set_option maxRecDepth 16384

noncomputable section

namespace Cert.KernelIdeal.KValue

open Cert.KernelIdeal Cert.KernelIdeal.Gen Cert.KernelIdeal.GenP Cert.Spec
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- At the last boundary the result buffer holds layer 2 of the aggregated layer 1 of the aggregated features. -/
theorem W8_v57 (c : Dev nD) : W8 m ρ c (Proc.devRef .tc main_v57)
    = Cert.Layers.outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (KValue2.W8_v57 m ρ c
    (Cert.Layers.ofMat (Cert.Layers.layerK (toMat (KTerm.agg (F := Ideal) (m ((c : Thread nD τ).loc main_arg0)) (m ((c : Thread nD τ).loc main_arg1)))) (toMat (m ((c : Thread nD τ).loc main_arg2))) (toRow (m ((c : Thread nD τ).loc main_arg3))) (toMat (m ((c : Thread nD τ).loc main_arg4))) (toRow (m ((c : Thread nD τ).loc main_arg5))) (toRow (m ((c : Thread nD τ).loc main_arg6))) (toRow (m ((c : Thread nD τ).loc main_arg7)))))
    (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    (KValue1.W4_v30 m ρ c) (KValue1.W4_v1 m ρ c) (KValue1.W4_v3 m ρ c)
    (KValue1.W4_arg8 m ρ c) (KValue1.W4_arg9 m ρ c) (KValue1.W4_arg10 m ρ c) (KValue1.W4_arg11 m ρ c)
    (KValue1.W4_arg12 m ρ c) (KValue1.W4_arg13 m ρ c)).trans
    (by unfold Cert.Layers.outK; rfl)

/-- The run, with the result buffer read as the specification's two layers of the arguments. -/
theorem run : θ_run defs (onTc (τ := τ) (main (F := Ideal))) ⟨m, fun _ => 0, ρ⟩ fun r => ∀ c : Dev nD,
      r.2.mem ((c.tc : Thread nD τ).loc main_v57) = Cert.Layers.outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (W8_v57 m ρ c), (h c).2⟩) (KRun.run m ρ)

end Cert.KernelIdeal.KValue

end
-- ==== Proof.RefRun.lean ====
/-
  The reference program's run. @main is a straight line of host operations once its six calls (the ReLUs, the
  variances and the selections inside them) are unfolded at their call sites over each call's own buffers: 85
  operations in its first window, 63 in its second. Every weakly fair execution terminates with each buffer at
  the fold of the operations' results over the launch contents; read at the result buffer, that fold is the
  composition `RefTerm.out` of the arguments, and every argument buffer keeps its contents.
-/
import proofs.«135332_j83760452207416_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window's 85 operations in order, the calls unfolded: the edge list's two rows, the wrapped sources,
    layer 1's aggregation, its two linear maps with their ReLUs (three operations each: the zero, its broadcast,
    the maximum), the columns' mean, the variance (nineteen operations and the selection's three), the
    normalisation, and layer 2's gather. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v11 (broadcastInDim S100000x64 ![] bcast_S_S100000x64 : (⟨S_, .f32⟩ : BufTy).Contents (Elt F) → (⟨S100000x64, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_arg0 main_v13 main_v14 (addf : (⟨S100000x64, .f32⟩ : BufTy).Contents (Elt F) → (⟨S100000x64, .f32⟩ : BufTy).Contents (Elt F) → (⟨S100000x64, .f32⟩ : BufTy).Contents (Elt F)),
    StableHlo.binary main_v14 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S100000x64 ![0, 1] bcast_S1x64_S100000x64_0_1 : (⟨S1x64, .f32⟩ : BufTy).Contents (Elt F) → (⟨S100000x64, .f32⟩ : BufTy).Contents (Elt F)),
    StableHlo.binary main_v15 main_v17 main_v18 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S100000x64 ![] bcast_S_S100000x64),
    StableHlo.TRef.binary (.of main_v18) main_call0.v0 main_call0.v1 maximumf,
    StableHlo.binary main_v19 main_arg4 main_v20 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S100000x64 ![0, 1] bcast_S1x64_S100000x64_0_1 : (⟨S1x64, .f32⟩ : BufTy).Contents (Elt F) → (⟨S100000x64, .f32⟩ : BufTy).Contents (Elt F)),
    StableHlo.binary main_v20 main_v22 main_v23 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v23) main_call1.v0 main_call1.v1 maximumf,
    StableHlo.nullary main_cst_1 (constant S_ .f32 0x00000000#32),
    StableHlo.binary main_v24 main_cst_1 main_v25 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v26 (broadcastInDim S64 ![] bcast_S_S64 : (⟨S_, .f32⟩ : BufTy).Contents (Elt F) → (⟨S64, .f32⟩ : BufTy).Contents (Elt F)),
    StableHlo.binary main_v25 main_v26 main_v27 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call2.cst (constant S_ .f32 0x00000000#32),
    StableHlo.TRef.binary (.of main_v24) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v24) main_call2.v4 main_call2.v5 subf,
    StableHlo.TRef.binary main_call2.v5 main_call2.v5 main_call2.v6 mulf,
    StableHlo.TRef.unary (.of main_c_3) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v27 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S100000x64 ![0, 1] bcast_S1x64_S100000x64_0_1 : (⟨S1x64, .f32⟩ : BufTy).Contents (Elt F) → (⟨S100000x64, .f32⟩ : BufTy).Contents (Elt F)),
    StableHlo.binary main_v24 main_v30 main_v31 (subf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v32 (broadcastInDim S64 ![] bcast_S_S64 : (⟨S_, .f32⟩ : BufTy).Contents (Elt F) → (⟨S64, .f32⟩ : BufTy).Contents (Elt F)),
    StableHlo.binary main_v28 main_v32 main_v33 (addf : (⟨S64, .f32⟩ : BufTy).Contents (Elt F) → (⟨S64, .f32⟩ : BufTy).Contents (Elt F) → (⟨S64, .f32⟩ : BufTy).Contents (Elt F)),
    StableHlo.unary main_v33 main_v34 (Host.rsqrt : (⟨S64, .f32⟩ : BufTy).Contents (Elt F) → (⟨S64, .f32⟩ : BufTy).Contents (Elt F)),
    StableHlo.unary main_v34 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S100000x64 ![0, 1] bcast_S1x64_S100000x64_0_1 : (⟨S1x64, .f32⟩ : BufTy).Contents (Elt F) → (⟨S100000x64, .f32⟩ : BufTy).Contents (Elt F)),
    StableHlo.binary main_v31 main_v36 main_v37 (mulf : (⟨S100000x64, .f32⟩ : BufTy).Contents (Elt F) → (⟨S100000x64, .f32⟩ : BufTy).Contents (Elt F) → (⟨S100000x64, .f32⟩ : BufTy).Contents (Elt F)),
    StableHlo.unary main_arg6 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S100000x64 ![0, 1] bcast_S1x64_S100000x64_0_1 : (⟨S1x64, .f32⟩ : BufTy).Contents (Elt F) → (⟨S100000x64, .f32⟩ : BufTy).Contents (Elt F)),
    StableHlo.binary main_v37 main_v39 main_v40 (mulf : (⟨S100000x64, .f32⟩ : BufTy).Contents (Elt F) → (⟨S100000x64, .f32⟩ : BufTy).Contents (Elt F) → (⟨S100000x64, .f32⟩ : BufTy).Contents (Elt F)),
    StableHlo.unary main_arg7 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S100000x64 ![0, 1] bcast_S1x64_S100000x64_0_1 : (⟨S1x64, .f32⟩ : BufTy).Contents (Elt F) → (⟨S100000x64, .f32⟩ : BufTy).Contents (Elt F)),
    StableHlo.binary main_v40 main_v42 main_v43 (addf : (⟨S100000x64, .f32⟩ : BufTy).Contents (Elt F) → (⟨S100000x64, .f32⟩ : BufTy).Contents (Elt F) → (⟨S100000x64, .f32⟩ : BufTy).Contents (Elt F)),
    StableHlo.nullary main_c_5 (constantI S_ 32 0#32),
    StableHlo.unary main_c_5 main_v44 (broadcastInDim S1600000 ![] bcast_S_S1600000 : (⟨S_, .i32⟩ : BufTy).Contents (Elt F) → (⟨S1600000, .i32⟩ : BufTy).Contents (Elt F)),
    StableHlo.binary main_v1 main_v44 main_v45 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v46 (broadcastInDim S1600000 ![] bcast_S_S1600000 : (⟨S_, .i32⟩ : BufTy).Contents (Elt F) → (⟨S1600000, .i32⟩ : BufTy).Contents (Elt F)),
    StableHlo.binary main_v1 main_v46 main_v47 (addi : (⟨S1600000, .i32⟩ : BufTy).Contents (Elt F) → (⟨S1600000, .i32⟩ : BufTy).Contents (Elt F) → (⟨S1600000, .i32⟩ : BufTy).Contents (Elt F)),
    StableHlo.ternary main_v45 main_v47 main_v1 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v48 main_v49 (broadcastInDim S1600000x1 ![0] bcast_S1600000_S1600000x1_0 : (⟨S1600000, .i32⟩ : BufTy).Contents (Elt F) → (⟨S1600000x1, .i32⟩ : BufTy).Contents (Elt F)),
    StableHlo.binary main_v43 main_v49 main_v50 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) ]

/-- The second window's 63 operations in order, the calls unfolded: layer 2's scatter-add and sum, its two linear
    maps with their ReLUs, the columns' mean, the variance and the normalisation. -/
abbrev ops1 : List (HloOp τ sig (Elt F)) :=
  [ StableHlo.nullary main_cst_7 (constant S_ .f32 0x00000000#32),
    StableHlo.unary main_cst_7 main_v51 (broadcastInDim S100000x64 ![] bcast_S_S100000x64 : (⟨S_, .f32⟩ : BufTy).Contents (Elt F) → (⟨S100000x64, .f32⟩ : BufTy).Contents (Elt F)),
    StableHlo.unary main_v3 main_v52 (broadcastInDim S1600000x1 ![0] bcast_S1600000_S1600000x1_0 : (⟨S1600000, .i32⟩ : BufTy).Contents (Elt F) → (⟨S1600000x1, .i32⟩ : BufTy).Contents (Elt F)),
    StableHlo.ternary main_v51 main_v52 main_v50 main_v53 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v43 main_v53 main_v54 (addf : (⟨S100000x64, .f32⟩ : BufTy).Contents (Elt F) → (⟨S100000x64, .f32⟩ : BufTy).Contents (Elt F) → (⟨S100000x64, .f32⟩ : BufTy).Contents (Elt F)),
    StableHlo.binary main_v54 main_arg8 main_v55 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v56 (broadcastInDim S1x64 ![1] bcast_S64_S1x64_1 : (⟨S64, .f32⟩ : BufTy).Contents (Elt F) → (⟨S1x64, .f32⟩ : BufTy).Contents (Elt F)),
    StableHlo.unary main_v56 main_v57 (broadcastInDim S100000x64 ![0, 1] bcast_S1x64_S100000x64_0_1 : (⟨S1x64, .f32⟩ : BufTy).Contents (Elt F) → (⟨S100000x64, .f32⟩ : BufTy).Contents (Elt F)),
    StableHlo.binary main_v55 main_v57 main_v58 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v58) main_call3.v0 main_call3.v1 maximumf,
    StableHlo.binary main_v59 main_arg10 main_v60 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    StableHlo.unary main_arg11 main_v61 (broadcastInDim S1x2 ![1] bcast_S2_S1x2_1 : (⟨S2, .f32⟩ : BufTy).Contents (Elt F) → (⟨S1x2, .f32⟩ : BufTy).Contents (Elt F)),
    StableHlo.unary main_v61 main_v62 (broadcastInDim S100000x2 ![0, 1] bcast_S1x2_S100000x2_0_1 : (⟨S1x2, .f32⟩ : BufTy).Contents (Elt F) → (⟨S100000x2, .f32⟩ : BufTy).Contents (Elt F)),
    StableHlo.binary main_v60 main_v62 main_v63 (addf : (⟨S100000x2, .f32⟩ : BufTy).Contents (Elt F) → (⟨S100000x2, .f32⟩ : BufTy).Contents (Elt F) → (⟨S100000x2, .f32⟩ : BufTy).Contents (Elt F)),
    StableHlo.TRef.nullary main_call4.cst (constant S_ .f32 0x00000000#32),
    StableHlo.TRef.unary main_call4.cst main_call4.v0 (broadcastInDim S100000x2 ![] bcast_S_S100000x2),
    StableHlo.TRef.binary (.of main_v63) main_call4.v0 main_call4.v1 maximumf,
    StableHlo.nullary main_cst_8 (constant S_ .f32 0x00000000#32),
    StableHlo.binary main_v64 main_cst_8 main_v65 ((fun x v => Host.reduceAdd x v reducesTo_S100000x2_S2_d0 h_S_) : (⟨S100000x2, .f32⟩ : BufTy).Contents (Elt F) → (⟨S_, .f32⟩ : BufTy).Contents (Elt F) → (⟨S2, .f32⟩ : BufTy).Contents (Elt F)),
    StableHlo.nullary main_cst_9 (constant S_ .f32 0x47C35000#32),
    StableHlo.unary main_cst_9 main_v66 (broadcastInDim S2 ![] bcast_S_S2 : (⟨S_, .f32⟩ : BufTy).Contents (Elt F) → (⟨S2, .f32⟩ : BufTy).Contents (Elt F)),
    StableHlo.binary main_v65 main_v66 main_v67 (Host.divf : (⟨S2, .f32⟩ : BufTy).Contents (Elt F) → (⟨S2, .f32⟩ : BufTy).Contents (Elt F) → (⟨S2, .f32⟩ : BufTy).Contents (Elt F)),
    StableHlo.nullary main_c_10 (constantI S_ 32 0#32),
    StableHlo.TRef.nullary main_call5.cst (constant S_ .f32 0x00000000#32),
    StableHlo.TRef.binary (.of main_v64) main_call5.cst main_call5.v0 (fun x v => Host.reduceAdd x v reducesTo_S100000x2_S2_d0 h_S_),
    StableHlo.TRef.unary main_call5.v0 main_call5.v1 (broadcastInDim S1x2 ![1] bcast_S2_S1x2_1),
    StableHlo.TRef.nullary main_call5.cst_0 (constant S_ .f32 0x47C35000#32),
    StableHlo.TRef.unary main_call5.cst_0 main_call5.v2 (broadcastInDim S1x2 ![] bcast_S_S1x2),
    StableHlo.TRef.binary main_call5.v1 main_call5.v2 main_call5.v3 Host.divf,
    StableHlo.TRef.unary main_call5.v3 main_call5.v4 (broadcastInDim S100000x2 ![0, 1] bcast_S1x2_S100000x2_0_1),
    StableHlo.TRef.binary (.of main_v64) main_call5.v4 main_call5.v5 subf,
    StableHlo.TRef.binary main_call5.v5 main_call5.v5 main_call5.v6 mulf,
    StableHlo.TRef.unary (.of main_c_10) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x2_S2_d0 h_S_),
    StableHlo.TRef.unary main_call5.v8 main_call5.v10 (broadcastInDim S2 ![] bcast_S_S2),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S2 ![] bcast_S_S2),
    StableHlo.TRef.ternary main_call5.v12 main_call5.v11 main_call5.call0.v1 main_call5.call0.v2 (fun p a b => select (broadcastInDim S2 ![] bcast_S_S2 p) a b),
    StableHlo.unary main_v67 main_v69 (broadcastInDim S1x2 ![1] bcast_S2_S1x2_1 : (⟨S2, .f32⟩ : BufTy).Contents (Elt F) → (⟨S1x2, .f32⟩ : BufTy).Contents (Elt F)),
    StableHlo.unary main_v69 main_v70 (broadcastInDim S100000x2 ![0, 1] bcast_S1x2_S100000x2_0_1 : (⟨S1x2, .f32⟩ : BufTy).Contents (Elt F) → (⟨S100000x2, .f32⟩ : BufTy).Contents (Elt F)),
    StableHlo.binary main_v64 main_v70 main_v71 (subf : (⟨S100000x2, .f32⟩ : BufTy).Contents (Elt F) → (⟨S100000x2, .f32⟩ : BufTy).Contents (Elt F) → (⟨S100000x2, .f32⟩ : BufTy).Contents (Elt F)),
    StableHlo.nullary main_cst_11 (constant S_ .f32 0x3727C5AC#32),
    StableHlo.unary main_cst_11 main_v72 (broadcastInDim S2 ![] bcast_S_S2 : (⟨S_, .f32⟩ : BufTy).Contents (Elt F) → (⟨S2, .f32⟩ : BufTy).Contents (Elt F)),
    StableHlo.binary main_v68 main_v72 main_v73 (addf : (⟨S2, .f32⟩ : BufTy).Contents (Elt F) → (⟨S2, .f32⟩ : BufTy).Contents (Elt F) → (⟨S2, .f32⟩ : BufTy).Contents (Elt F)),
    StableHlo.unary main_v73 main_v74 (Host.rsqrt : (⟨S2, .f32⟩ : BufTy).Contents (Elt F) → (⟨S2, .f32⟩ : BufTy).Contents (Elt F)),
    StableHlo.unary main_v74 main_v75 (broadcastInDim S1x2 ![1] bcast_S2_S1x2_1 : (⟨S2, .f32⟩ : BufTy).Contents (Elt F) → (⟨S1x2, .f32⟩ : BufTy).Contents (Elt F)),
    StableHlo.unary main_v75 main_v76 (broadcastInDim S100000x2 ![0, 1] bcast_S1x2_S100000x2_0_1 : (⟨S1x2, .f32⟩ : BufTy).Contents (Elt F) → (⟨S100000x2, .f32⟩ : BufTy).Contents (Elt F)),
    StableHlo.binary main_v71 main_v76 main_v77 (mulf : (⟨S100000x2, .f32⟩ : BufTy).Contents (Elt F) → (⟨S100000x2, .f32⟩ : BufTy).Contents (Elt F) → (⟨S100000x2, .f32⟩ : BufTy).Contents (Elt F)),
    StableHlo.unary main_arg12 main_v78 (broadcastInDim S1x2 ![1] bcast_S2_S1x2_1 : (⟨S2, .f32⟩ : BufTy).Contents (Elt F) → (⟨S1x2, .f32⟩ : BufTy).Contents (Elt F)),
    StableHlo.unary main_v78 main_v79 (broadcastInDim S100000x2 ![0, 1] bcast_S1x2_S100000x2_0_1 : (⟨S1x2, .f32⟩ : BufTy).Contents (Elt F) → (⟨S100000x2, .f32⟩ : BufTy).Contents (Elt F)),
    StableHlo.binary main_v77 main_v79 main_v80 (mulf : (⟨S100000x2, .f32⟩ : BufTy).Contents (Elt F) → (⟨S100000x2, .f32⟩ : BufTy).Contents (Elt F) → (⟨S100000x2, .f32⟩ : BufTy).Contents (Elt F)),
    StableHlo.unary main_arg13 main_v81 (broadcastInDim S1x2 ![1] bcast_S2_S1x2_1 : (⟨S2, .f32⟩ : BufTy).Contents (Elt F) → (⟨S1x2, .f32⟩ : BufTy).Contents (Elt F)),
    StableHlo.unary main_v81 main_v82 (broadcastInDim S100000x2 ![0, 1] bcast_S1x2_S100000x2_0_1 : (⟨S1x2, .f32⟩ : BufTy).Contents (Elt F) → (⟨S100000x2, .f32⟩ : BufTy).Contents (Elt F)),
    StableHlo.binary main_v80 main_v82 main_v83 (addf : (⟨S100000x2, .f32⟩ : BufTy).Contents (Elt F) → (⟨S100000x2, .f32⟩ : BufTy).Contents (Elt F) → (⟨S100000x2, .f32⟩ : BufTy).Contents (Elt F)) ]

/-- @main's operations: the two windows in order. -/
abbrev ops : List (HloOp τ sig (Elt F)) := ops0 ++ ops1

set_option maxRecDepth 8192 in
/-- The first window is its straight line: the functions' definitions unfolded at their calls and the records at
    their fields, both sides are one chain of steps once sequencing is reassociated. -/
theorem main_part0_eq (c : Dev nD) : main_part0 (F := F) c = seq ops0 := by
  simp only [main_part0, fn_relu.body, fn_var.body, fn_where.body, seq, bind_assoc, pure_bind]
  rfl

set_option maxRecDepth 8192 in
/-- The second window likewise. -/
theorem main_part1_eq (c : Dev nD) : main_part1 (F := F) c = seq ops1 := by
  simp only [main_part1, fn_relu.body, fn_relu_0.body, fn_var_1.body, fn_where_2.body, seq, bind_assoc, pure_bind]

/-- @main runs its windows in order, and two lines run in order are their concatenation. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem ops1_sub : (ops1 : List (HloOp τ sig (Elt F))).Forall fun op => op.bufs ⊆ tcRefs τ sig :=
  ⟨nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

attribute [local irreducible] Host.gather Host.scatterAdd Host.reduceAdd

/-- A fold over two lines in order is the second's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The edges' sources as the gather reads them: row 0 of the edge list, a negative one wrapped by N, as a column. -/
def srcIdx (ei : IVec S2x1600000 32) : IVec S1600000x1 32 :=
  have v0 : IVec S1x1600000 32 := extractStridedSlice S1x1600000 ![0, 0] ei slices_S2x1600000_S1x1600000_0_0
  have v1 : IVec S1600000 32 := fun i => shapeCast S1600000 v0 shapeCasts_S1x1600000_S1600000 i
  broadcastInDim S1600000x1 ![0] bcast_S1600000_S1600000x1_0
    (select (cmpi .slt v1 (broadcastInDim S1600000 ![] bcast_S_S1600000 (constantI S_ 32 0#32)))
      (addi v1 (broadcastInDim S1600000 ![] bcast_S_S1600000 (constantI S_ 32 100000#32))) v1)

/-- The edges' targets: row 1 of the edge list. -/
def dstIdx (ei : IVec S2x1600000 32) : IVec S1600000 32 :=
  fun i => shapeCast S1600000 (extractStridedSlice S1x1600000 ![1, 0] ei slices_S2x1600000_S1x1600000_1_0)
    shapeCasts_S1x1600000_S1600000 i

/-- The aggregation's last two steps over a gathered array: the scatter-add onto the targets, added to the features. -/
def scat (x : FVec F S100000x64 .f32) (d : IVec S1600000 32) (g : FVec F S1600000x64 .f32) : FVec F S100000x64 .f32 :=
  addf x (Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d) g)

/-- The aggregation is the gather at the sources, scattered with addition onto the targets, plus the features. -/
theorem agg_eq (x : FVec F S100000x64 .f32) (ei : IVec S2x1600000 32) :
    RefTerm.agg x ei = scat x (dstIdx ei) (Host.gather gather_S100000x64_S1600000x1_S1600000x64_1_0_n_n_0_1_164 x (srcIdx ei)) := rfl

/-- The buffers that `ops0`'s operations write, in order. -/
abbrev ops0_W : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_call0_cst, main_call0_v0, main_v19, main_v20, main_v21, main_v22, main_v23, main_call1_cst, main_call1_v0, main_v24, main_cst_1, main_v25, main_cst_2, main_v26, main_v27, main_c_3, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v28, main_v29, main_v30, main_v31, main_cst_4, main_v32, main_v33, main_v34, main_v35, main_v36, main_v37, main_v38, main_v39, main_v40, main_v41, main_v42, main_v43, main_c_5, main_v44, main_v45, main_c_6, main_v46, main_v47, main_v48, main_v49, main_v50]
set_option maxRecDepth 8192 in
theorem ops0_writes : (ops0 : List (HloOp τ sig (Elt F))).Forall fun op =>
    op.writes ⊆ (ops0_W.map (Proc.devRef (τ := τ) .tc)).toFinset :=
  ⟨Finset.singleton_subset_iff.mpr (List.mem_toFinset.mpr (List.mem_map_of_mem (f := Proc.devRef (τ := τ) .tc) (a := main_v0) (by decide))),
   Finset.singleton_subset_iff.mpr (List.mem_toFinset.mpr (List.mem_map_of_mem (f := Proc.devRef (τ := τ) .tc) (a := main_v1) (by decide))),
   Finset.singleton_subset_iff.mpr (List.mem_toFinset.mpr (List.mem_map_of_mem (f := Proc.devRef (τ := τ) .tc) (a := main_v2) (by decide))),
   Finset.singleton_subset_iff.mpr (List.mem_toFinset.mpr (List.mem_map_of_mem (f := Proc.devRef (τ := τ) .tc) (a := main_v3) (by decide))),
   Finset.singleton_subset_iff.mpr (List.mem_toFinset.mpr (List.mem_map_of_mem (f := Proc.devRef (τ := τ) .tc) (a := main_c) (by decide))),
   Finset.singleton_subset_iff.mpr (List.mem_toFinset.mpr (List.mem_map_of_mem (f := Proc.devRef (τ := τ) .tc) (a := main_v4) (by decide))),
   Finset.singleton_subset_iff.mpr (List.mem_toFinset.mpr (List.mem_map_of_mem (f := Proc.devRef (τ := τ) .tc) (a := main_v5) (by decide))),
   Finset.singleton_subset_iff.mpr (List.mem_toFinset.mpr (List.mem_map_of_mem (f := Proc.devRef (τ := τ) .tc) (a := main_c_0) (by decide))),
   Finset.singleton_subset_iff.mpr (List.mem_toFinset.mpr (List.mem_map_of_mem (f := Proc.devRef (τ := τ) .tc) (a := main_v6) (by decide))),
   Finset.singleton_subset_iff.mpr (List.mem_toFinset.mpr (List.mem_map_of_mem (f := Proc.devRef (τ := τ) .tc) (a := main_v7) (by decide))),
   Finset.singleton_subset_iff.mpr (List.mem_toFinset.mpr (List.mem_map_of_mem (f := Proc.devRef (τ := τ) .tc) (a := main_v8) (by decide))),
   Finset.singleton_subset_iff.mpr (List.mem_toFinset.mpr (List.mem_map_of_mem (f := Proc.devRef (τ := τ) .tc) (a := main_v9) (by decide))),
   Finset.singleton_subset_iff.mpr (List.mem_toFinset.mpr (List.mem_map_of_mem (f := Proc.devRef (τ := τ) .tc) (a := main_v10) (by decide))),
   Finset.singleton_subset_iff.mpr (List.mem_toFinset.mpr (List.mem_map_of_mem (f := Proc.devRef (τ := τ) .tc) (a := main_cst) (by decide))),
   Finset.singleton_subset_iff.mpr (List.mem_toFinset.mpr (List.mem_map_of_mem (f := Proc.devRef (τ := τ) .tc) (a := main_v11) (by decide))),
   Finset.singleton_subset_iff.mpr (List.mem_toFinset.mpr (List.mem_map_of_mem (f := Proc.devRef (τ := τ) .tc) (a := main_v12) (by decide))),
   Finset.singleton_subset_iff.mpr (List.mem_toFinset.mpr (List.mem_map_of_mem (f := Proc.devRef (τ := τ) .tc) (a := main_v13) (by decide))),
   Finset.singleton_subset_iff.mpr (List.mem_toFinset.mpr (List.mem_map_of_mem (f := Proc.devRef (τ := τ) .tc) (a := main_v14) (by decide))),
   Finset.singleton_subset_iff.mpr (List.mem_toFinset.mpr (List.mem_map_of_mem (f := Proc.devRef (τ := τ) .tc) (a := main_v15) (by decide))),
   Finset.singleton_subset_iff.mpr (List.mem_toFinset.mpr (List.mem_map_of_mem (f := Proc.devRef (τ := τ) .tc) (a := main_v16) (by decide))),
   Finset.singleton_subset_iff.mpr (List.mem_toFinset.mpr (List.mem_map_of_mem (f := Proc.devRef (τ := τ) .tc) (a := main_v17) (by decide))),
   Finset.singleton_subset_iff.mpr (List.mem_toFinset.mpr (List.mem_map_of_mem (f := Proc.devRef (τ := τ) .tc) (a := main_v18) (by decide))),
   Finset.singleton_subset_iff.mpr (List.mem_toFinset.mpr (List.mem_map_of_mem (f := Proc.devRef (τ := τ) .tc) (a := main_call0_cst) (by decide))),
   Finset.singleton_subset_iff.mpr (List.mem_toFinset.mpr (List.mem_map_of_mem (f := Proc.devRef (τ := τ) .tc) (a := main_call0_v0) (by decide))),
   Finset.singleton_subset_iff.mpr (List.mem_toFinset.mpr (List.mem_map_of_mem (f := Proc.devRef (τ := τ) .tc) (a := main_v19) (by decide))),
   Finset.singleton_subset_iff.mpr (List.mem_toFinset.mpr (List.mem_map_of_mem (f := Proc.devRef (τ := τ) .tc) (a := main_v20) (by decide))),
   Finset.singleton_subset_iff.mpr (List.mem_toFinset.mpr (List.mem_map_of_mem (f := Proc.devRef (τ := τ) .tc) (a := main_v21) (by decide))),
   Finset.singleton_subset_iff.mpr (List.mem_toFinset.mpr (List.mem_map_of_mem (f := Proc.devRef (τ := τ) .tc) (a := main_v22) (by decide))),
   Finset.singleton_subset_iff.mpr (List.mem_toFinset.mpr (List.mem_map_of_mem (f := Proc.devRef (τ := τ) .tc) (a := main_v23) (by decide))),
   Finset.singleton_subset_iff.mpr (List.mem_toFinset.mpr (List.mem_map_of_mem (f := Proc.devRef (τ := τ) .tc) (a := main_call1_cst) (by decide))),
   Finset.singleton_subset_iff.mpr (List.mem_toFinset.mpr (List.mem_map_of_mem (f := Proc.devRef (τ := τ) .tc) (a := main_call1_v0) (by decide))),
   Finset.singleton_subset_iff.mpr (List.mem_toFinset.mpr (List.mem_map_of_mem (f := Proc.devRef (τ := τ) .tc) (a := main_v24) (by decide))),
   Finset.singleton_subset_iff.mpr (List.mem_toFinset.mpr (List.mem_map_of_mem (f := Proc.devRef (τ := τ) .tc) (a := main_cst_1) (by decide))),
   Finset.singleton_subset_iff.mpr (List.mem_toFinset.mpr (List.mem_map_of_mem (f := Proc.devRef (τ := τ) .tc) (a := main_v25) (by decide))),
   Finset.singleton_subset_iff.mpr (List.mem_toFinset.mpr (List.mem_map_of_mem (f := Proc.devRef (τ := τ) .tc) (a := main_cst_2) (by decide))),
   Finset.singleton_subset_iff.mpr (List.mem_toFinset.mpr (List.mem_map_of_mem (f := Proc.devRef (τ := τ) .tc) (a := main_v26) (by decide))),
   Finset.singleton_subset_iff.mpr (List.mem_toFinset.mpr (List.mem_map_of_mem (f := Proc.devRef (τ := τ) .tc) (a := main_v27) (by decide))),
   Finset.singleton_subset_iff.mpr (List.mem_toFinset.mpr (List.mem_map_of_mem (f := Proc.devRef (τ := τ) .tc) (a := main_c_3) (by decide))),
   Finset.singleton_subset_iff.mpr (List.mem_toFinset.mpr (List.mem_map_of_mem (f := Proc.devRef (τ := τ) .tc) (a := main_call2_cst) (by decide))),
   Finset.singleton_subset_iff.mpr (List.mem_toFinset.mpr (List.mem_map_of_mem (f := Proc.devRef (τ := τ) .tc) (a := main_call2_v0) (by decide))),
   Finset.singleton_subset_iff.mpr (List.mem_toFinset.mpr (List.mem_map_of_mem (f := Proc.devRef (τ := τ) .tc) (a := main_call2_v1) (by decide))),
   Finset.singleton_subset_iff.mpr (List.mem_toFinset.mpr (List.mem_map_of_mem (f := Proc.devRef (τ := τ) .tc) (a := main_call2_cst_0) (by decide))),
   Finset.singleton_subset_iff.mpr (List.mem_toFinset.mpr (List.mem_map_of_mem (f := Proc.devRef (τ := τ) .tc) (a := main_call2_v2) (by decide))),
   Finset.singleton_subset_iff.mpr (List.mem_toFinset.mpr (List.mem_map_of_mem (f := Proc.devRef (τ := τ) .tc) (a := main_call2_v3) (by decide))),
   Finset.singleton_subset_iff.mpr (List.mem_toFinset.mpr (List.mem_map_of_mem (f := Proc.devRef (τ := τ) .tc) (a := main_call2_v4) (by decide))),
   Finset.singleton_subset_iff.mpr (List.mem_toFinset.mpr (List.mem_map_of_mem (f := Proc.devRef (τ := τ) .tc) (a := main_call2_v5) (by decide))),
   Finset.singleton_subset_iff.mpr (List.mem_toFinset.mpr (List.mem_map_of_mem (f := Proc.devRef (τ := τ) .tc) (a := main_call2_v6) (by decide))),
   Finset.singleton_subset_iff.mpr (List.mem_toFinset.mpr (List.mem_map_of_mem (f := Proc.devRef (τ := τ) .tc) (a := main_call2_v7) (by decide))),
   Finset.singleton_subset_iff.mpr (List.mem_toFinset.mpr (List.mem_map_of_mem (f := Proc.devRef (τ := τ) .tc) (a := main_call2_cst_1) (by decide))),
   Finset.singleton_subset_iff.mpr (List.mem_toFinset.mpr (List.mem_map_of_mem (f := Proc.devRef (τ := τ) .tc) (a := main_call2_v8) (by decide))),
   Finset.singleton_subset_iff.mpr (List.mem_toFinset.mpr (List.mem_map_of_mem (f := Proc.devRef (τ := τ) .tc) (a := main_call2_cst_2) (by decide))),
   Finset.singleton_subset_iff.mpr (List.mem_toFinset.mpr (List.mem_map_of_mem (f := Proc.devRef (τ := τ) .tc) (a := main_call2_v9) (by decide))),
   Finset.singleton_subset_iff.mpr (List.mem_toFinset.mpr (List.mem_map_of_mem (f := Proc.devRef (τ := τ) .tc) (a := main_call2_v10) (by decide))),
   Finset.singleton_subset_iff.mpr (List.mem_toFinset.mpr (List.mem_map_of_mem (f := Proc.devRef (τ := τ) .tc) (a := main_call2_v11) (by decide))),
   Finset.singleton_subset_iff.mpr (List.mem_toFinset.mpr (List.mem_map_of_mem (f := Proc.devRef (τ := τ) .tc) (a := main_call2_cst_3) (by decide))),
   Finset.singleton_subset_iff.mpr (List.mem_toFinset.mpr (List.mem_map_of_mem (f := Proc.devRef (τ := τ) .tc) (a := main_call2_v12) (by decide))),
   Finset.singleton_subset_iff.mpr (List.mem_toFinset.mpr (List.mem_map_of_mem (f := Proc.devRef (τ := τ) .tc) (a := main_call2_cst_4) (by decide))),
   Finset.singleton_subset_iff.mpr (List.mem_toFinset.mpr (List.mem_map_of_mem (f := Proc.devRef (τ := τ) .tc) (a := main_call2_call0_v0) (by decide))),
   Finset.singleton_subset_iff.mpr (List.mem_toFinset.mpr (List.mem_map_of_mem (f := Proc.devRef (τ := τ) .tc) (a := main_call2_call0_v1) (by decide))),
   Finset.singleton_subset_iff.mpr (List.mem_toFinset.mpr (List.mem_map_of_mem (f := Proc.devRef (τ := τ) .tc) (a := main_v28) (by decide))),
   Finset.singleton_subset_iff.mpr (List.mem_toFinset.mpr (List.mem_map_of_mem (f := Proc.devRef (τ := τ) .tc) (a := main_v29) (by decide))),
   Finset.singleton_subset_iff.mpr (List.mem_toFinset.mpr (List.mem_map_of_mem (f := Proc.devRef (τ := τ) .tc) (a := main_v30) (by decide))),
   Finset.singleton_subset_iff.mpr (List.mem_toFinset.mpr (List.mem_map_of_mem (f := Proc.devRef (τ := τ) .tc) (a := main_v31) (by decide))),
   Finset.singleton_subset_iff.mpr (List.mem_toFinset.mpr (List.mem_map_of_mem (f := Proc.devRef (τ := τ) .tc) (a := main_cst_4) (by decide))),
   Finset.singleton_subset_iff.mpr (List.mem_toFinset.mpr (List.mem_map_of_mem (f := Proc.devRef (τ := τ) .tc) (a := main_v32) (by decide))),
   Finset.singleton_subset_iff.mpr (List.mem_toFinset.mpr (List.mem_map_of_mem (f := Proc.devRef (τ := τ) .tc) (a := main_v33) (by decide))),
   Finset.singleton_subset_iff.mpr (List.mem_toFinset.mpr (List.mem_map_of_mem (f := Proc.devRef (τ := τ) .tc) (a := main_v34) (by decide))),
   Finset.singleton_subset_iff.mpr (List.mem_toFinset.mpr (List.mem_map_of_mem (f := Proc.devRef (τ := τ) .tc) (a := main_v35) (by decide))),
   Finset.singleton_subset_iff.mpr (List.mem_toFinset.mpr (List.mem_map_of_mem (f := Proc.devRef (τ := τ) .tc) (a := main_v36) (by decide))),
   Finset.singleton_subset_iff.mpr (List.mem_toFinset.mpr (List.mem_map_of_mem (f := Proc.devRef (τ := τ) .tc) (a := main_v37) (by decide))),
   Finset.singleton_subset_iff.mpr (List.mem_toFinset.mpr (List.mem_map_of_mem (f := Proc.devRef (τ := τ) .tc) (a := main_v38) (by decide))),
   Finset.singleton_subset_iff.mpr (List.mem_toFinset.mpr (List.mem_map_of_mem (f := Proc.devRef (τ := τ) .tc) (a := main_v39) (by decide))),
   Finset.singleton_subset_iff.mpr (List.mem_toFinset.mpr (List.mem_map_of_mem (f := Proc.devRef (τ := τ) .tc) (a := main_v40) (by decide))),
   Finset.singleton_subset_iff.mpr (List.mem_toFinset.mpr (List.mem_map_of_mem (f := Proc.devRef (τ := τ) .tc) (a := main_v41) (by decide))),
   Finset.singleton_subset_iff.mpr (List.mem_toFinset.mpr (List.mem_map_of_mem (f := Proc.devRef (τ := τ) .tc) (a := main_v42) (by decide))),
   Finset.singleton_subset_iff.mpr (List.mem_toFinset.mpr (List.mem_map_of_mem (f := Proc.devRef (τ := τ) .tc) (a := main_v43) (by decide))),
   Finset.singleton_subset_iff.mpr (List.mem_toFinset.mpr (List.mem_map_of_mem (f := Proc.devRef (τ := τ) .tc) (a := main_c_5) (by decide))),
   Finset.singleton_subset_iff.mpr (List.mem_toFinset.mpr (List.mem_map_of_mem (f := Proc.devRef (τ := τ) .tc) (a := main_v44) (by decide))),
   Finset.singleton_subset_iff.mpr (List.mem_toFinset.mpr (List.mem_map_of_mem (f := Proc.devRef (τ := τ) .tc) (a := main_v45) (by decide))),
   Finset.singleton_subset_iff.mpr (List.mem_toFinset.mpr (List.mem_map_of_mem (f := Proc.devRef (τ := τ) .tc) (a := main_c_6) (by decide))),
   Finset.singleton_subset_iff.mpr (List.mem_toFinset.mpr (List.mem_map_of_mem (f := Proc.devRef (τ := τ) .tc) (a := main_v46) (by decide))),
   Finset.singleton_subset_iff.mpr (List.mem_toFinset.mpr (List.mem_map_of_mem (f := Proc.devRef (τ := τ) .tc) (a := main_v47) (by decide))),
   Finset.singleton_subset_iff.mpr (List.mem_toFinset.mpr (List.mem_map_of_mem (f := Proc.devRef (τ := τ) .tc) (a := main_v48) (by decide))),
   Finset.singleton_subset_iff.mpr (List.mem_toFinset.mpr (List.mem_map_of_mem (f := Proc.devRef (τ := τ) .tc) (a := main_v49) (by decide))),
   Finset.singleton_subset_iff.mpr (List.mem_toFinset.mpr (List.mem_map_of_mem (f := Proc.devRef (τ := τ) .tc) (a := main_v50) (by decide)))⟩
/-- A buffer that `ops0` does not write keeps its contents through it. -/
theorem ops0_keep (V : Valuation τ sig (Elt F)) (r : Ref sig .tc) (h : r ∉ ops0_W) :
    after ops0 V (Proc.devRef .tc r) = V (Proc.devRef .tc r) :=
  after_of_writes_sub ops0 V ops0_writes h

/-- The buffers that `ops1`'s operations write, in order. -/
abbrev ops1_W : List (Ref sig .tc) := [main_cst_7, main_v51, main_v52, main_v53, main_v54, main_v55, main_v56, main_v57, main_v58, main_call3_cst, main_call3_v0, main_v59, main_v60, main_v61, main_v62, main_v63, main_call4_cst, main_call4_v0, main_v64, main_cst_8, main_v65, main_cst_9, main_v66, main_v67, main_c_10, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v68, main_v69, main_v70, main_v71, main_cst_11, main_v72, main_v73, main_v74, main_v75, main_v76, main_v77, main_v78, main_v79, main_v80, main_v81, main_v82, main_v83]
set_option maxRecDepth 8192 in
theorem ops1_writes : (ops1 : List (HloOp τ sig (Elt F))).Forall fun op =>
    op.writes ⊆ (ops1_W.map (Proc.devRef (τ := τ) .tc)).toFinset :=
  ⟨Finset.singleton_subset_iff.mpr (List.mem_toFinset.mpr (List.mem_map_of_mem (f := Proc.devRef (τ := τ) .tc) (a := main_cst_7) (by decide))),
   Finset.singleton_subset_iff.mpr (List.mem_toFinset.mpr (List.mem_map_of_mem (f := Proc.devRef (τ := τ) .tc) (a := main_v51) (by decide))),
   Finset.singleton_subset_iff.mpr (List.mem_toFinset.mpr (List.mem_map_of_mem (f := Proc.devRef (τ := τ) .tc) (a := main_v52) (by decide))),
   Finset.singleton_subset_iff.mpr (List.mem_toFinset.mpr (List.mem_map_of_mem (f := Proc.devRef (τ := τ) .tc) (a := main_v53) (by decide))),
   Finset.singleton_subset_iff.mpr (List.mem_toFinset.mpr (List.mem_map_of_mem (f := Proc.devRef (τ := τ) .tc) (a := main_v54) (by decide))),
   Finset.singleton_subset_iff.mpr (List.mem_toFinset.mpr (List.mem_map_of_mem (f := Proc.devRef (τ := τ) .tc) (a := main_v55) (by decide))),
   Finset.singleton_subset_iff.mpr (List.mem_toFinset.mpr (List.mem_map_of_mem (f := Proc.devRef (τ := τ) .tc) (a := main_v56) (by decide))),
   Finset.singleton_subset_iff.mpr (List.mem_toFinset.mpr (List.mem_map_of_mem (f := Proc.devRef (τ := τ) .tc) (a := main_v57) (by decide))),
   Finset.singleton_subset_iff.mpr (List.mem_toFinset.mpr (List.mem_map_of_mem (f := Proc.devRef (τ := τ) .tc) (a := main_v58) (by decide))),
   Finset.singleton_subset_iff.mpr (List.mem_toFinset.mpr (List.mem_map_of_mem (f := Proc.devRef (τ := τ) .tc) (a := main_call3_cst) (by decide))),
   Finset.singleton_subset_iff.mpr (List.mem_toFinset.mpr (List.mem_map_of_mem (f := Proc.devRef (τ := τ) .tc) (a := main_call3_v0) (by decide))),
   Finset.singleton_subset_iff.mpr (List.mem_toFinset.mpr (List.mem_map_of_mem (f := Proc.devRef (τ := τ) .tc) (a := main_v59) (by decide))),
   Finset.singleton_subset_iff.mpr (List.mem_toFinset.mpr (List.mem_map_of_mem (f := Proc.devRef (τ := τ) .tc) (a := main_v60) (by decide))),
   Finset.singleton_subset_iff.mpr (List.mem_toFinset.mpr (List.mem_map_of_mem (f := Proc.devRef (τ := τ) .tc) (a := main_v61) (by decide))),
   Finset.singleton_subset_iff.mpr (List.mem_toFinset.mpr (List.mem_map_of_mem (f := Proc.devRef (τ := τ) .tc) (a := main_v62) (by decide))),
   Finset.singleton_subset_iff.mpr (List.mem_toFinset.mpr (List.mem_map_of_mem (f := Proc.devRef (τ := τ) .tc) (a := main_v63) (by decide))),
   Finset.singleton_subset_iff.mpr (List.mem_toFinset.mpr (List.mem_map_of_mem (f := Proc.devRef (τ := τ) .tc) (a := main_call4_cst) (by decide))),
   Finset.singleton_subset_iff.mpr (List.mem_toFinset.mpr (List.mem_map_of_mem (f := Proc.devRef (τ := τ) .tc) (a := main_call4_v0) (by decide))),
   Finset.singleton_subset_iff.mpr (List.mem_toFinset.mpr (List.mem_map_of_mem (f := Proc.devRef (τ := τ) .tc) (a := main_v64) (by decide))),
   Finset.singleton_subset_iff.mpr (List.mem_toFinset.mpr (List.mem_map_of_mem (f := Proc.devRef (τ := τ) .tc) (a := main_cst_8) (by decide))),
   Finset.singleton_subset_iff.mpr (List.mem_toFinset.mpr (List.mem_map_of_mem (f := Proc.devRef (τ := τ) .tc) (a := main_v65) (by decide))),
   Finset.singleton_subset_iff.mpr (List.mem_toFinset.mpr (List.mem_map_of_mem (f := Proc.devRef (τ := τ) .tc) (a := main_cst_9) (by decide))),
   Finset.singleton_subset_iff.mpr (List.mem_toFinset.mpr (List.mem_map_of_mem (f := Proc.devRef (τ := τ) .tc) (a := main_v66) (by decide))),
   Finset.singleton_subset_iff.mpr (List.mem_toFinset.mpr (List.mem_map_of_mem (f := Proc.devRef (τ := τ) .tc) (a := main_v67) (by decide))),
   Finset.singleton_subset_iff.mpr (List.mem_toFinset.mpr (List.mem_map_of_mem (f := Proc.devRef (τ := τ) .tc) (a := main_c_10) (by decide))),
   Finset.singleton_subset_iff.mpr (List.mem_toFinset.mpr (List.mem_map_of_mem (f := Proc.devRef (τ := τ) .tc) (a := main_call5_cst) (by decide))),
   Finset.singleton_subset_iff.mpr (List.mem_toFinset.mpr (List.mem_map_of_mem (f := Proc.devRef (τ := τ) .tc) (a := main_call5_v0) (by decide))),
   Finset.singleton_subset_iff.mpr (List.mem_toFinset.mpr (List.mem_map_of_mem (f := Proc.devRef (τ := τ) .tc) (a := main_call5_v1) (by decide))),
   Finset.singleton_subset_iff.mpr (List.mem_toFinset.mpr (List.mem_map_of_mem (f := Proc.devRef (τ := τ) .tc) (a := main_call5_cst_0) (by decide))),
   Finset.singleton_subset_iff.mpr (List.mem_toFinset.mpr (List.mem_map_of_mem (f := Proc.devRef (τ := τ) .tc) (a := main_call5_v2) (by decide))),
   Finset.singleton_subset_iff.mpr (List.mem_toFinset.mpr (List.mem_map_of_mem (f := Proc.devRef (τ := τ) .tc) (a := main_call5_v3) (by decide))),
   Finset.singleton_subset_iff.mpr (List.mem_toFinset.mpr (List.mem_map_of_mem (f := Proc.devRef (τ := τ) .tc) (a := main_call5_v4) (by decide))),
   Finset.singleton_subset_iff.mpr (List.mem_toFinset.mpr (List.mem_map_of_mem (f := Proc.devRef (τ := τ) .tc) (a := main_call5_v5) (by decide))),
   Finset.singleton_subset_iff.mpr (List.mem_toFinset.mpr (List.mem_map_of_mem (f := Proc.devRef (τ := τ) .tc) (a := main_call5_v6) (by decide))),
   Finset.singleton_subset_iff.mpr (List.mem_toFinset.mpr (List.mem_map_of_mem (f := Proc.devRef (τ := τ) .tc) (a := main_call5_v7) (by decide))),
   Finset.singleton_subset_iff.mpr (List.mem_toFinset.mpr (List.mem_map_of_mem (f := Proc.devRef (τ := τ) .tc) (a := main_call5_cst_1) (by decide))),
   Finset.singleton_subset_iff.mpr (List.mem_toFinset.mpr (List.mem_map_of_mem (f := Proc.devRef (τ := τ) .tc) (a := main_call5_v8) (by decide))),
   Finset.singleton_subset_iff.mpr (List.mem_toFinset.mpr (List.mem_map_of_mem (f := Proc.devRef (τ := τ) .tc) (a := main_call5_cst_2) (by decide))),
   Finset.singleton_subset_iff.mpr (List.mem_toFinset.mpr (List.mem_map_of_mem (f := Proc.devRef (τ := τ) .tc) (a := main_call5_v9) (by decide))),
   Finset.singleton_subset_iff.mpr (List.mem_toFinset.mpr (List.mem_map_of_mem (f := Proc.devRef (τ := τ) .tc) (a := main_call5_v10) (by decide))),
   Finset.singleton_subset_iff.mpr (List.mem_toFinset.mpr (List.mem_map_of_mem (f := Proc.devRef (τ := τ) .tc) (a := main_call5_v11) (by decide))),
   Finset.singleton_subset_iff.mpr (List.mem_toFinset.mpr (List.mem_map_of_mem (f := Proc.devRef (τ := τ) .tc) (a := main_call5_cst_3) (by decide))),
   Finset.singleton_subset_iff.mpr (List.mem_toFinset.mpr (List.mem_map_of_mem (f := Proc.devRef (τ := τ) .tc) (a := main_call5_v12) (by decide))),
   Finset.singleton_subset_iff.mpr (List.mem_toFinset.mpr (List.mem_map_of_mem (f := Proc.devRef (τ := τ) .tc) (a := main_call5_cst_4) (by decide))),
   Finset.singleton_subset_iff.mpr (List.mem_toFinset.mpr (List.mem_map_of_mem (f := Proc.devRef (τ := τ) .tc) (a := main_call5_call0_v0) (by decide))),
   Finset.singleton_subset_iff.mpr (List.mem_toFinset.mpr (List.mem_map_of_mem (f := Proc.devRef (τ := τ) .tc) (a := main_call5_call0_v1) (by decide))),
   Finset.singleton_subset_iff.mpr (List.mem_toFinset.mpr (List.mem_map_of_mem (f := Proc.devRef (τ := τ) .tc) (a := main_v68) (by decide))),
   Finset.singleton_subset_iff.mpr (List.mem_toFinset.mpr (List.mem_map_of_mem (f := Proc.devRef (τ := τ) .tc) (a := main_v69) (by decide))),
   Finset.singleton_subset_iff.mpr (List.mem_toFinset.mpr (List.mem_map_of_mem (f := Proc.devRef (τ := τ) .tc) (a := main_v70) (by decide))),
   Finset.singleton_subset_iff.mpr (List.mem_toFinset.mpr (List.mem_map_of_mem (f := Proc.devRef (τ := τ) .tc) (a := main_v71) (by decide))),
   Finset.singleton_subset_iff.mpr (List.mem_toFinset.mpr (List.mem_map_of_mem (f := Proc.devRef (τ := τ) .tc) (a := main_cst_11) (by decide))),
   Finset.singleton_subset_iff.mpr (List.mem_toFinset.mpr (List.mem_map_of_mem (f := Proc.devRef (τ := τ) .tc) (a := main_v72) (by decide))),
   Finset.singleton_subset_iff.mpr (List.mem_toFinset.mpr (List.mem_map_of_mem (f := Proc.devRef (τ := τ) .tc) (a := main_v73) (by decide))),
   Finset.singleton_subset_iff.mpr (List.mem_toFinset.mpr (List.mem_map_of_mem (f := Proc.devRef (τ := τ) .tc) (a := main_v74) (by decide))),
   Finset.singleton_subset_iff.mpr (List.mem_toFinset.mpr (List.mem_map_of_mem (f := Proc.devRef (τ := τ) .tc) (a := main_v75) (by decide))),
   Finset.singleton_subset_iff.mpr (List.mem_toFinset.mpr (List.mem_map_of_mem (f := Proc.devRef (τ := τ) .tc) (a := main_v76) (by decide))),
   Finset.singleton_subset_iff.mpr (List.mem_toFinset.mpr (List.mem_map_of_mem (f := Proc.devRef (τ := τ) .tc) (a := main_v77) (by decide))),
   Finset.singleton_subset_iff.mpr (List.mem_toFinset.mpr (List.mem_map_of_mem (f := Proc.devRef (τ := τ) .tc) (a := main_v78) (by decide))),
   Finset.singleton_subset_iff.mpr (List.mem_toFinset.mpr (List.mem_map_of_mem (f := Proc.devRef (τ := τ) .tc) (a := main_v79) (by decide))),
   Finset.singleton_subset_iff.mpr (List.mem_toFinset.mpr (List.mem_map_of_mem (f := Proc.devRef (τ := τ) .tc) (a := main_v80) (by decide))),
   Finset.singleton_subset_iff.mpr (List.mem_toFinset.mpr (List.mem_map_of_mem (f := Proc.devRef (τ := τ) .tc) (a := main_v81) (by decide))),
   Finset.singleton_subset_iff.mpr (List.mem_toFinset.mpr (List.mem_map_of_mem (f := Proc.devRef (τ := τ) .tc) (a := main_v82) (by decide))),
   Finset.singleton_subset_iff.mpr (List.mem_toFinset.mpr (List.mem_map_of_mem (f := Proc.devRef (τ := τ) .tc) (a := main_v83) (by decide)))⟩
/-- A buffer that `ops1` does not write keeps its contents through it. -/
theorem ops1_keep (V : Valuation τ sig (Elt F)) (r : Ref sig .tc) (h : r ∉ ops1_W) :
    after ops1 V (Proc.devRef .tc r) = V (Proc.devRef .tc r) :=
  after_of_writes_sub ops1 V ops1_writes h

set_option maxRecDepth 8192 in
set_option maxHeartbeats 2000000 in
/-- The first window from any contents: the normalised layer-1 features. -/
theorem w0_v43 (V : Valuation τ sig (Elt F)) :
    after ops0 V (Proc.devRef .tc main_v43) = (RefTerm.bn1 (RefTerm.mlp1 (RefTerm.agg (V (Proc.devRef .tc main_arg0)) (V (Proc.devRef .tc main_arg1))) (V (Proc.devRef .tc main_arg2)) (V (Proc.devRef .tc main_arg3)) (V (Proc.devRef .tc main_arg4)) (V (Proc.devRef .tc main_arg5))) (V (Proc.devRef .tc main_arg6)) (V (Proc.devRef .tc main_arg7))) := by
  after_results_simp
  <;> rfl

set_option maxRecDepth 8192 in
set_option maxHeartbeats 2000000 in
/-- The first window from any contents: the edges' targets. -/
theorem w0_v3 (V : Valuation τ sig (Elt F)) :
    after ops0 V (Proc.devRef .tc main_v3) = dstIdx (V (Proc.devRef .tc main_arg1)) := by
  after_results_simp
  <;> rfl

set_option maxRecDepth 8192 in
set_option maxHeartbeats 2000000 in
/-- The first window from any contents: layer 2's gather, of the normalised layer-1 features at the sources. -/
theorem w0_v50 (V : Valuation τ sig (Elt F)) :
    after ops0 V (Proc.devRef .tc main_v50)
      = Host.gather gather_S100000x64_S1600000x1_S1600000x64_1_0_n_n_0_1_164 (RefTerm.bn1 (RefTerm.mlp1 (RefTerm.agg (V (Proc.devRef .tc main_arg0)) (V (Proc.devRef .tc main_arg1))) (V (Proc.devRef .tc main_arg2)) (V (Proc.devRef .tc main_arg3)) (V (Proc.devRef .tc main_arg4)) (V (Proc.devRef .tc main_arg5))) (V (Proc.devRef .tc main_arg6)) (V (Proc.devRef .tc main_arg7))) (srcIdx (V (Proc.devRef .tc main_arg1))) := by
  after_results_simp
  <;> rfl
set_option maxRecDepth 8192 in
set_option maxHeartbeats 2000000 in
/-- The second window from any contents: the result buffer holds layer 2 (the linear maps, ReLUs and the batch
    normalisation) of the sum of the normalised layer-1 features and their scatter-add. -/
theorem w1_v83 (W : Valuation τ sig (Elt F)) :
    after ops1 W (Proc.devRef .tc main_v83)
      = RefTerm.bn2 (RefTerm.mlp2 (scat (W (Proc.devRef .tc main_v43)) (W (Proc.devRef .tc main_v3)) (W (Proc.devRef .tc main_v50)))
          (W (Proc.devRef .tc main_arg8)) (W (Proc.devRef .tc main_arg9)) (W (Proc.devRef .tc main_arg10)) (W (Proc.devRef .tc main_arg11)))
        (W (Proc.devRef .tc main_arg12)) (W (Proc.devRef .tc main_arg13)) := by
  after_results_simp
  <;> rfl

/-- The fold over @main's operations at the result buffer is the reference's composed term of the arguments. -/
theorem out_eq (V : Valuation τ sig (Elt F)) :
    after ops V (Proc.devRef .tc main_v83) = RefTerm.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  show after (ops0 ++ ops1) V _ = _
  rw [after_app]
  refine (w1_v83 _).trans ?_
  rw [w0_v43 V, w0_v3 V, w0_v50 V, ops0_keep V main_arg8 (by decide), ops0_keep V main_arg9 (by decide), ops0_keep V main_arg10 (by decide), ops0_keep V main_arg11 (by decide), ops0_keep V main_arg12 (by decide), ops0_keep V main_arg13 (by decide)]
  unfold RefTerm.out
  rw [agg_eq, agg_eq]

/-- The fold over @main's operations leaves an argument buffer as it was: no operation writes it. -/
theorem arg_eq (V : Valuation τ sig (Elt F)) (r : Ref sig .tc) (h0 : r ∉ ops0_W) (h1 : r ∉ ops1_W) :
    after ops V (Proc.devRef .tc r) = V (Proc.devRef .tc r) := by
  show after (ops0 ++ ops1) V _ = _
  rw [after_app]
  exact (ops1_keep _ r h1).trans (ops0_keep V r h0)

/-- On every device, for any float values, from any memory with zero counters: every weakly fair execution of
    @main terminates with the result buffer at the reference's composed term of the arguments' launch contents
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v83).trans (out_eq (launchContents m c)),
      (h c main_arg0).trans (arg_eq (launchContents m c) main_arg0 (by decide) (by decide)),
      (h c main_arg1).trans (arg_eq (launchContents m c) main_arg1 (by decide) (by decide)),
      (h c main_arg2).trans (arg_eq (launchContents m c) main_arg2 (by decide) (by decide)),
      (h c main_arg3).trans (arg_eq (launchContents m c) main_arg3 (by decide) (by decide)),
      (h c main_arg4).trans (arg_eq (launchContents m c) main_arg4 (by decide) (by decide)),
      (h c main_arg5).trans (arg_eq (launchContents m c) main_arg5 (by decide) (by decide)),
      (h c main_arg6).trans (arg_eq (launchContents m c) main_arg6 (by decide) (by decide)),
      (h c main_arg7).trans (arg_eq (launchContents m c) main_arg7 (by decide) (by decide)),
      (h c main_arg8).trans (arg_eq (launchContents m c) main_arg8 (by decide) (by decide)),
      (h c main_arg9).trans (arg_eq (launchContents m c) main_arg9 (by decide) (by decide)),
      (h c main_arg10).trans (arg_eq (launchContents m c) main_arg10 (by decide) (by decide)),
      (h c main_arg11).trans (arg_eq (launchContents m c) main_arg11 (by decide) (by decide)),
      (h c main_arg12).trans (arg_eq (launchContents m c) main_arg12 (by decide) (by decide)),
      (h c main_arg13).trans (arg_eq (launchContents m c) main_arg13 (by decide) (by decide))⟩)
    (run_seq scopedRefs_eq scopedSems_eq defs main (fun _ => ops) main_eq (fun _ => ops_sub) m ρ)

end Cert.ReferenceIdeal.RefRun

end
-- ==== Proof.RefValue.lean ====
/-
  The reference's terms read at an index, at the ideal values: its two multilayer perceptrons are the
  specification's `mlp`, and its batch normalisations are the specification's `bn` at the column mean and the
  centred (mean squared deviation) variance. A product is the sum over the contracted coordinate, a sum down the
  rows from the zero pattern is the sum over the rows, a bias is spread over the rows, and the variance's
  "N − ddof > 0" guard is evaluated at ddof = 0: the divisor is N again and the guard holds.
-/
import proofs.«135332_j83760452207416_1_alg».proof.Proof.RefTerm
import proofs.«135332_j83760452207416_1_alg».proof.Proof.Spec
import proofs.«135332_j83760452207416_1_alg».proof.Proof.Consts
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost
import Idealize.ShloMosaic.Lib.KernelVsHost
import Idealize.ShloMosaic.Lib.StackMember

noncomputable section

open scoped BigOperators

namespace Cert.ReferenceIdeal.RefValue

open Cert.ReferenceIdeal Cert.ReferenceIdeal.Gen Cert.Spec Idealize.ShloMosaic Idealize.ShloMosaic.ValueIdx

/-- A vector laid as one row reads its entry of the column. -/
theorem row1x64_apply {α : Type} (b : S64.Idx → α) (j : Fin 64) :
    broadcastInDim S1x64 ![1] bcast_S64_S1x64_1 b (ix2 (0 : Fin 1) j) = b (ix1 j) := by
  refine broadcastInDim_apply ![1] _ b (ix2 (0 : Fin 1) j) (ix1 j) ?_
  intro a
  fin_cases a
  show j.val = if (64 : ℕ) = 1 then 0 else j.val
  simp

theorem row1x2_apply {α : Type} (b : S2.Idx → α) (j : Fin 2) :
    broadcastInDim S1x2 ![1] bcast_S2_S1x2_1 b (ix2 (0 : Fin 1) j) = b (ix1 j) := by
  refine broadcastInDim_apply ![1] _ b (ix2 (0 : Fin 1) j) (ix1 j) ?_
  intro a
  fin_cases a
  show j.val = if (2 : ℕ) = 1 then 0 else j.val
  simp

/-- A bias spread over the rows reads the bias's entry of the column. -/
theorem rows64_apply (b : FVec Ideal S64 .f32) (r : Fin 100000) (j : Fin 64) :
    RefTerm.rows64 (F := Ideal) b (ix2 r j) = b (ix1 j) := by
  unfold RefTerm.rows64
  refine (broadcastInDim_oneRow_apply _ _ r j).trans ?_
  exact row1x64_apply b j

theorem rows2_apply (b : FVec Ideal S2 .f32) (r : Fin 100000) (j : Fin 2) :
    RefTerm.rows2 (F := Ideal) b (ix2 r j) = b (ix1 j) := by
  unfold RefTerm.rows2
  refine (broadcastInDim_oneRow_apply _ _ r j).trans ?_
  exact row1x2_apply b j

/-- ReLU at an index. -/
theorem relu64_apply (x : FVec Ideal S100000x64 .f32) (i : S100000x64.Idx) :
    RefTerm.relu64 (F := Ideal) x i = max (x i) 0 := by
  unfold RefTerm.relu64
  refine congrArg (max (x i)) ((broadcastInDim_scalar_apply _ _ i).trans ?_)
  exact Ideal.ofBits_zero_f32

theorem relu2_apply (x : FVec Ideal S100000x2 .f32) (i : S100000x2.Idx) :
    RefTerm.relu2 (F := Ideal) x i = max (x i) 0 := by
  unfold RefTerm.relu2
  refine congrArg (max (x i)) ((broadcastInDim_scalar_apply _ _ i).trans ?_)
  exact Ideal.ofBits_zero_f32

/-- The 64-column product at an index: the sum over the contracted coordinate. -/
theorem dot64_apply (X : FVec Ideal S100000x64 .f32) (W : FVec Ideal S64x64 .f32) (r : Fin 100000) (j : Fin 64) :
    Host.dotGeneral (F := Ideal) dot_S100000x64_S64x64_S100000x64_1_0_0_1_n_n none X W (ix2 r j)
      = ∑ k : Fin 64, X (ix2 r k) * W (ix2 k j) := by
  have e : dot_S100000x64_S64x64_S100000x64_1_0_0_1_n_n = DotDims.plain 100000 64 64 := rfl
  rw [e]
  exact StackMember.dotGeneral_plain_apply none X W r j

theorem dot2_apply (X : FVec Ideal S100000x64 .f32) (W : FVec Ideal S64x2 .f32) (r : Fin 100000) (j : Fin 2) :
    Host.dotGeneral (F := Ideal) dot_S100000x64_S64x2_S100000x2_1_0_0_1_n_n none X W (ix2 r j)
      = ∑ k : Fin 64, X (ix2 r k) * W (ix2 k j) := by
  have e : dot_S100000x64_S64x2_S100000x2_1_0_0_1_n_n = DotDims.plain 100000 64 2 := rfl
  rw [e]
  exact StackMember.dotGeneral_plain_apply none X W r j

/-- One linear map of 64 columns at an index. -/
theorem lin64_apply (X : FVec Ideal S100000x64 .f32) (W : FVec Ideal S64x64 .f32) (b : FVec Ideal S64 .f32)
    (r : Fin 100000) (j : Fin 64) :
    addf (Host.dotGeneral (F := Ideal) dot_S100000x64_S64x64_S100000x64_1_0_0_1_n_n none X W) (RefTerm.rows64 (F := Ideal) b) (ix2 r j)
      = (∑ k : Fin 64, X (ix2 r k) * W (ix2 k j)) + b (ix1 j) := by
  refine (addf_apply _ _ _).trans ?_
  rw [dot64_apply, rows64_apply]

/-- One linear map onto 2 columns at an index. -/
theorem lin2_apply (X : FVec Ideal S100000x64 .f32) (W : FVec Ideal S64x2 .f32) (b : FVec Ideal S2 .f32)
    (r : Fin 100000) (j : Fin 2) :
    addf (Host.dotGeneral (F := Ideal) dot_S100000x64_S64x2_S100000x2_1_0_0_1_n_n none X W) (RefTerm.rows2 (F := Ideal) b) (ix2 r j)
      = (∑ k : Fin 64, X (ix2 r k) * W (ix2 k j)) + b (ix1 j) := by
  refine (addf_apply _ _ _).trans ?_
  rw [dot2_apply, rows2_apply]

theorem mlp1_eq (a : FVec Ideal S100000x64 .f32) (Wa : FVec Ideal S64x64 .f32) (ba : FVec Ideal S64 .f32)
    (Wb : FVec Ideal S64x64 .f32) (bb : FVec Ideal S64 .f32) (r : Fin 100000) (j : Fin 64) :
    RefTerm.mlp1 (F := Ideal) a Wa ba Wb bb (ix2 r j)
      = Spec.mlp (toMat a) (toMat Wa) (toRow ba) (toMat Wb) (toRow bb) r j := by
  unfold RefTerm.mlp1 Spec.mlp
  refine (relu64_apply _ _).trans (congrArg (fun t => max t 0) ?_)
  refine (lin64_apply _ _ _ r j).trans ?_
  refine congrArg (fun t => t + bb (ix1 j)) (Finset.sum_congr rfl fun k _ => ?_)
  refine congrArg (fun t => t * Wb (ix2 k j)) ?_
  refine (relu64_apply _ _).trans (congrArg (fun t => max t 0) ?_)
  exact lin64_apply _ _ _ r k

theorem mlp2_eq (a : FVec Ideal S100000x64 .f32) (Wa : FVec Ideal S64x64 .f32) (ba : FVec Ideal S64 .f32)
    (Wb : FVec Ideal S64x2 .f32) (bb : FVec Ideal S2 .f32) (r : Fin 100000) (j : Fin 2) :
    RefTerm.mlp2 (F := Ideal) a Wa ba Wb bb (ix2 r j)
      = Spec.mlp (toMat a) (toMat Wa) (toRow ba) (toMat Wb) (toRow bb) r j := by
  unfold RefTerm.mlp2 Spec.mlp
  refine (relu2_apply _ _).trans (congrArg (fun t => max t 0) ?_)
  refine (lin2_apply _ _ _ r j).trans ?_
  refine congrArg (fun t => t + bb (ix1 j)) (Finset.sum_congr rfl fun k _ => ?_)
  refine congrArg (fun t => t * Wb (ix2 k j)) ?_
  refine (relu64_apply _ _).trans (congrArg (fun t => max t 0) ?_)
  exact lin64_apply _ _ _ r k

/-- A sum down the rows from the zero pattern, at a column: the sum over the rows. -/
theorem reduce64_apply (x : FVec Ideal S100000x64 .f32) (j : Fin 64) :
    Host.reduceAdd (F := Ideal) x (constant (F := Ideal) S_ .f32 0x00000000#32) reducesTo_S100000x64_S64_d0 h_S_ (ix1 j)
      = ∑ r : Fin 100000, x (ix2 r j) := by
  have hr : S100000x64.Reduces [0] S64 := by decide
  refine (hostReduceAdd_apply x _ _ _ (ix1 j)).trans ?_
  refine (Ideal.hostReduceAdd_single reducesTo_S100000x64_S64_d0 hr x _ (ix1 j)).trans ?_
  refine (congrArg (fun t => t + _) Ideal.ofBits_zero_f32).trans ((zero_add _).trans ?_)
  refine Finset.sum_congr rfl fun k _ => congrArg x ?_
  funext a
  match a with
  | ⟨0, _⟩ => rfl
  | ⟨1, _⟩ => rfl

theorem reduce2_apply (x : FVec Ideal S100000x2 .f32) (j : Fin 2) :
    Host.reduceAdd (F := Ideal) x (constant (F := Ideal) S_ .f32 0x00000000#32) reducesTo_S100000x2_S2_d0 h_S_ (ix1 j)
      = ∑ r : Fin 100000, x (ix2 r j) := by
  have hr : S100000x2.Reduces [0] S2 := by decide
  refine (hostReduceAdd_apply x _ _ _ (ix1 j)).trans ?_
  refine (Ideal.hostReduceAdd_single reducesTo_S100000x2_S2_d0 hr x _ (ix1 j)).trans ?_
  refine (congrArg (fun t => t + _) Ideal.ofBits_zero_f32).trans ((zero_add _).trans ?_)
  refine Finset.sum_congr rfl fun k _ => congrArg x ?_
  funext a
  match a with
  | ⟨0, _⟩ => rfl
  | ⟨1, _⟩ => rfl

/-- The reference's column mean is the specification's. -/
theorem mean64_apply (h : FVec Ideal S100000x64 .f32) (j : Fin 64) :
    RefTerm.mean64 (F := Ideal) h (ix1 j) = Spec.mean (toMat h) j := by
  unfold RefTerm.mean64 Spec.mean Spec.colSum
  refine (hostDivf_apply _ _ _).trans ?_
  rw [reduce64_apply, broadcastInDim_scalar_apply]
  rfl

theorem mean2_apply (h : FVec Ideal S100000x2 .f32) (j : Fin 2) :
    RefTerm.mean2 (F := Ideal) h (ix1 j) = Spec.mean (toMat h) j := by
  unfold RefTerm.mean2 Spec.mean Spec.colSum
  refine (hostDivf_apply _ _ _).trans ?_
  rw [reduce2_apply, broadcastInDim_scalar_apply]
  rfl

/-- The divisor of the variance, N − float(0), is N. -/
theorem ddof_divisor :
    (subf (constant (F := Ideal) S_ .f32 0x47C35000#32) (sitofp .f32 (constantI S_ 32 0#32)) : FVec Ideal S_ .f32) ix0 = cN := by
  show Ideal.ofBits .f32 0x47C35000#32 - (((0#32 : BitVec 32).toInt : ℝ) : EReal) = Ideal.ofBits .f32 0x47C35000#32
  simp

/-- N is positive, so the guard N − ddof > 0 is the bit 1. -/
theorem ddof_guard :
    (cmpf .ogt (subf (constant (F := Ideal) S_ .f32 0x47C35000#32) (sitofp .f32 (constantI S_ 32 0#32)) : FVec Ideal S_ .f32)
      (constant (F := Ideal) S_ .f32 0x00000000#32)) ix0 = 1#1 := by
  refine (cmpf_apply _ _ _ _).trans ?_
  rw [ddof_divisor]
  show Ideal.cmp .ogt cN (Ideal.ofBits .f32 0x00000000#32) = 1#1
  rw [Ideal.ofBits_zero_f32]
  show BitVec.ofBool (decide ((0 : EReal) < cN)) = 1#1
  rw [show cN = ((100000 : ℝ) : EReal) from Cert.Consts.ofBits_N]
  have : (0 : EReal) < ((100000 : ℝ) : EReal) := by exact_mod_cast (by norm_num : (0 : ℝ) < 100000)
  simp [this]

/-- The reference's variance (ddof = 0) is the specification's centred variance. -/
theorem var64_apply (h : FVec Ideal S100000x64 .f32) (j : Fin 64) :
    RefTerm.var64 (F := Ideal) h (constantI S_ 32 0#32) (ix1 j) = Spec.varCentred (toMat h) j := by
  unfold RefTerm.var64
  refine (select_apply _ _ _ _).trans ?_
  rw [broadcastInDim_scalar_apply, ddof_guard]
  refine (select_one _ _).trans ?_
  refine (hostDivf_apply _ _ _).trans ?_
  rw [broadcastInDim_scalar_apply, ddof_divisor, reduce64_apply]
  unfold Spec.varCentred
  refine congrArg (fun t => Ideal.div t cN) (Finset.sum_congr rfl fun r _ => ?_)
  have hm : broadcastInDim S100000x64 ![0, 1] bcast_S1x64_S100000x64_0_1
      (Host.divf (broadcastInDim S1x64 ![1] bcast_S64_S1x64_1
          (Host.reduceAdd (F := Ideal) h (constant (F := Ideal) S_ .f32 0x00000000#32) reducesTo_S100000x64_S64_d0 h_S_))
        (broadcastInDim S1x64 ![] bcast_S_S1x64 (constant (F := Ideal) S_ .f32 0x47C35000#32))) (ix2 r j)
      = Spec.mean (toMat h) j := by
    refine (broadcastInDim_oneRow_apply _ _ r j).trans ?_
    refine (hostDivf_apply _ _ _).trans ?_
    rw [broadcastInDim_scalar_apply]
    refine congrArg (fun t => Ideal.div t cN) ?_
    exact (row1x64_apply _ j).trans (reduce64_apply h j)
  show (h (ix2 r j) - _) * (h (ix2 r j) - _) = _
  rw [hm]

/-- The reference's variance (ddof = 0) is the specification's centred variance. -/
theorem var2_apply (h : FVec Ideal S100000x2 .f32) (j : Fin 2) :
    RefTerm.var2 (F := Ideal) h (constantI S_ 32 0#32) (ix1 j) = Spec.varCentred (toMat h) j := by
  unfold RefTerm.var2
  refine (select_apply _ _ _ _).trans ?_
  rw [broadcastInDim_scalar_apply, ddof_guard]
  refine (select_one _ _).trans ?_
  refine (hostDivf_apply _ _ _).trans ?_
  rw [broadcastInDim_scalar_apply, ddof_divisor, reduce2_apply]
  unfold Spec.varCentred
  refine congrArg (fun t => Ideal.div t cN) (Finset.sum_congr rfl fun r _ => ?_)
  have hm : broadcastInDim S100000x2 ![0, 1] bcast_S1x2_S100000x2_0_1
      (Host.divf (broadcastInDim S1x2 ![1] bcast_S2_S1x2_1
          (Host.reduceAdd (F := Ideal) h (constant (F := Ideal) S_ .f32 0x00000000#32) reducesTo_S100000x2_S2_d0 h_S_))
        (broadcastInDim S1x2 ![] bcast_S_S1x2 (constant (F := Ideal) S_ .f32 0x47C35000#32))) (ix2 r j)
      = Spec.mean (toMat h) j := by
    refine (broadcastInDim_oneRow_apply _ _ r j).trans ?_
    refine (hostDivf_apply _ _ _).trans ?_
    rw [broadcastInDim_scalar_apply]
    refine congrArg (fun t => Ideal.div t cN) ?_
    exact (row1x2_apply _ j).trans (reduce2_apply h j)
  show (h (ix2 r j) - _) * (h (ix2 r j) - _) = _
  rw [hm]

theorem bn1_eq (h : FVec Ideal S100000x64 .f32) (g be : FVec Ideal S64 .f32) (r : Fin 100000) (j : Fin 64) :
    RefTerm.bn1 (F := Ideal) h g be (ix2 r j)
      = Spec.bn (toMat h) (Spec.mean (toMat h)) (Spec.varCentred (toMat h)) (toRow g) (toRow be) r j := by
  unfold RefTerm.bn1 Spec.bn
  show (h (ix2 r j) - RefTerm.rows64 (F := Ideal) (RefTerm.mean64 (F := Ideal) h) (ix2 r j))
      * RefTerm.rows64 (F := Ideal) (Host.rsqrt (addf (RefTerm.var64 (F := Ideal) h (constantI S_ 32 0#32))
          (broadcastInDim S64 ![] bcast_S_S64 (constant (F := Ideal) S_ .f32 0x3727C5AC#32)))) (ix2 r j)
      * RefTerm.rows64 (F := Ideal) g (ix2 r j) + RefTerm.rows64 (F := Ideal) be (ix2 r j) = _
  rw [rows64_apply, rows64_apply, rows64_apply, rows64_apply, mean64_apply]
  show (h (ix2 r j) - Spec.mean (toMat h) j)
      * Ideal.rsqrt (RefTerm.var64 (F := Ideal) h (constantI S_ 32 0#32) (ix1 j)
          + broadcastInDim S64 ![] bcast_S_S64 (constant (F := Ideal) S_ .f32 0x3727C5AC#32) (ix1 j))
      * g (ix1 j) + be (ix1 j) = _
  rw [var64_apply, broadcastInDim_scalar_apply]
  rfl

theorem bn2_eq (h : FVec Ideal S100000x2 .f32) (g be : FVec Ideal S2 .f32) (r : Fin 100000) (j : Fin 2) :
    RefTerm.bn2 (F := Ideal) h g be (ix2 r j)
      = Spec.bn (toMat h) (Spec.mean (toMat h)) (Spec.varCentred (toMat h)) (toRow g) (toRow be) r j := by
  unfold RefTerm.bn2 Spec.bn
  show (h (ix2 r j) - RefTerm.rows2 (F := Ideal) (RefTerm.mean2 (F := Ideal) h) (ix2 r j))
      * RefTerm.rows2 (F := Ideal) (Host.rsqrt (addf (RefTerm.var2 (F := Ideal) h (constantI S_ 32 0#32))
          (broadcastInDim S2 ![] bcast_S_S2 (constant (F := Ideal) S_ .f32 0x3727C5AC#32)))) (ix2 r j)
      * RefTerm.rows2 (F := Ideal) g (ix2 r j) + RefTerm.rows2 (F := Ideal) be (ix2 r j) = _
  rw [rows2_apply, rows2_apply, rows2_apply, rows2_apply, mean2_apply]
  show (h (ix2 r j) - Spec.mean (toMat h) j)
      * Ideal.rsqrt (RefTerm.var2 (F := Ideal) h (constantI S_ 32 0#32) (ix1 j)
          + broadcastInDim S2 ![] bcast_S_S2 (constant (F := Ideal) S_ .f32 0x3727C5AC#32) (ix1 j))
      * g (ix1 j) + be (ix1 j) = _
  rw [var2_apply, broadcastInDim_scalar_apply]
  rfl

/-- The reference's first layer as a whole array: the specification's normalisation of its perceptron. -/
theorem layer1_eq (a : FVec Ideal S100000x64 .f32) (Wa : FVec Ideal S64x64 .f32) (ba : FVec Ideal S64 .f32)
    (Wb : FVec Ideal S64x64 .f32) (bb g be : FVec Ideal S64 .f32) :
    RefTerm.bn1 (F := Ideal) (RefTerm.mlp1 (F := Ideal) a Wa ba Wb bb) g be
      = fun i => Spec.bn (Spec.mlp (toMat a) (toMat Wa) (toRow ba) (toMat Wb) (toRow bb))
          (Spec.mean (Spec.mlp (toMat a) (toMat Wa) (toRow ba) (toMat Wb) (toRow bb)))
          (Spec.varCentred (Spec.mlp (toMat a) (toMat Wa) (toRow ba) (toMat Wb) (toRow bb)))
          (toRow g) (toRow be) (i 0) (i 1) := by
  funext i
  obtain ⟨r, j, rfl⟩ : ∃ (r : Fin 100000) (j : Fin 64), i = ix2 r j := ⟨i 0, i 1, eq_ix2 i⟩
  have hM : toMat (RefTerm.mlp1 (F := Ideal) a Wa ba Wb bb)
      = Spec.mlp (toMat a) (toMat Wa) (toRow ba) (toMat Wb) (toRow bb) :=
    funext fun r => funext fun j => mlp1_eq a Wa ba Wb bb r j
  refine (bn1_eq _ g be r j).trans ?_
  rw [hM]

/-- The reference's second layer as a whole array. -/
theorem layer2_eq (a : FVec Ideal S100000x64 .f32) (Wa : FVec Ideal S64x64 .f32) (ba : FVec Ideal S64 .f32)
    (Wb : FVec Ideal S64x2 .f32) (bb g be : FVec Ideal S2 .f32) :
    RefTerm.bn2 (F := Ideal) (RefTerm.mlp2 (F := Ideal) a Wa ba Wb bb) g be
      = fun i => Spec.bn (Spec.mlp (toMat a) (toMat Wa) (toRow ba) (toMat Wb) (toRow bb))
          (Spec.mean (Spec.mlp (toMat a) (toMat Wa) (toRow ba) (toMat Wb) (toRow bb)))
          (Spec.varCentred (Spec.mlp (toMat a) (toMat Wa) (toRow ba) (toMat Wb) (toRow bb)))
          (toRow g) (toRow be) (i 0) (i 1) := by
  funext i
  obtain ⟨r, j, rfl⟩ : ∃ (r : Fin 100000) (j : Fin 2), i = ix2 r j := ⟨i 0, i 1, eq_ix2 i⟩
  have hM : toMat (RefTerm.mlp2 (F := Ideal) a Wa ba Wb bb)
      = Spec.mlp (toMat a) (toMat Wa) (toRow ba) (toMat Wb) (toRow bb) :=
    funext fun r => funext fun j => mlp2_eq a Wa ba Wb bb r j
  refine (bn2_eq _ g be r j).trans ?_
  rw [hM]

end Cert.ReferenceIdeal.RefValue

end
-- ==== Proof.RefOut.lean ====
/-
  The reference's result as one composition: two layers, each a perceptron followed by batch normalisation with the
  centred variance, each after the neighbour aggregation, which is carried as one function and never opened.
-/
import proofs.«135332_j83760452207416_1_alg».proof.Proof.RefValue
import proofs.«135332_j83760452207416_1_alg».proof.Proof.Layers

noncomputable section

namespace Cert.ReferenceIdeal.RefOut

open Cert.ReferenceIdeal Cert.ReferenceIdeal.Gen Cert.Spec Idealize.ShloMosaic Idealize.ShloMosaic.ValueIdx

/-- The reference's result is two layers, each after a neighbour aggregation, with the variances centred. -/
theorem out_eq (a0 : FVec Ideal S100000x64 .f32) (a1 : IVec S2x1600000 32) (a2 : FVec Ideal S64x64 .f32)
    (a3 : FVec Ideal S64 .f32) (a4 : FVec Ideal S64x64 .f32) (a5 a6 a7 : FVec Ideal S64 .f32)
    (a8 : FVec Ideal S64x64 .f32) (a9 : FVec Ideal S64 .f32) (a10 : FVec Ideal S64x2 .f32)
    (a11 a12 a13 : FVec Ideal S2 .f32) :
    RefTerm.out (F := Ideal) a0 a1 a2 a3 a4 a5 a6 a7 a8 a9 a10 a11 a12 a13
      = Cert.Layers.outR a0 a1 a2 a3 a4 a5 a6 a7 a8 a9 a10 a11 a12 a13 := by
  unfold RefTerm.out Cert.Layers.outR Cert.Layers.layerR
  rw [RefValue.layer1_eq, RefValue.layer2_eq]

end Cert.ReferenceIdeal.RefOut

end
-- ==== Proof.lean ====
/-
  The certificate of a two-layer graph network on 100000 nodes, at the ideal instance (floats are extended reals,
  every operation exact).

  What both programs compute. Each layer first adds to every node's 64 features the sum of its in-neighbours'
  features (a gather along the edges' sources, a scatter-add along their targets: the same two host operations,
  with the same dimension records, in both programs). Then every row goes through Linear → ReLU → Linear → ReLU,
  and every column of the result is normalised: centred at its mean, scaled by the reciprocal square root of its
  biased variance plus ε, times γ, plus β. The second layer does the same with a last linear map into 2 columns.

  Where they differ. One program walks the rows in 20 tiles of 5000, computes the row function tile by tile and
  accumulates each column's sum and sum of squares across the tiles; it then forms mean = sum / N and
  variance = sumsq / N − mean², and normalises tile by tile. The other forms the mean as one sum over all rows
  divided by N and the variance as the mean of the squared deviations from that mean.

  Why they agree.
  * A sum over 100000 rows is the sum over the 20 tiles of the sums over each tile's 5000 rows: addition of
    extended reals is associative and commutative, so the accumulated sums are the whole columns' sums.
  * On finite reals E[h²] − E[h]² = E[(h − E[h])²]: expand the square and use Σ 1 = N. (On the extended reals
    the two can differ, e.g. when a sum is infinite, so finiteness is needed.)
  * Finiteness comes from the precondition: it says of every float argument that each entry's absolute value is
    below +∞, and an extended real whose absolute value is below +∞ is a finite real. Finite reals are closed
    under the aggregation (a gathered entry is an entry; a scatter-add is a finite sum), under the row function
    (finite sums, products, maxima with 0) and under the normalisation (the variance of finite reals is a real
    ≥ 0, so variance + ε is a positive real and its reciprocal square root is a real). So the first layer's
    result is finite, and the argument repeats for the second layer.
  The three frame claims are the programs' runs with the results dropped; the idealising pass rewrote nothing.
-/
import proofs.«135332_j83760452207416_1_alg».proof.Defs
import proofs.«135332_j83760452207416_1_alg».proof.Proof.Gen.Kernel
import proofs.«135332_j83760452207416_1_alg».proof.Proof.Gen.KernelIdeal
import proofs.«135332_j83760452207416_1_alg».proof.Proof.Gen.ReferenceIdeal
import proofs.«135332_j83760452207416_1_alg».proof.Proof.Gen.Pre_finite_inputs
import proofs.«135332_j83760452207416_1_alg».proof.Proof.PatchedKernelFrame
import proofs.«135332_j83760452207416_1_alg».proof.Proof.PatchedKernelIdealFrame
import proofs.«135332_j83760452207416_1_alg».proof.Proof.Layers
import proofs.«135332_j83760452207416_1_alg».proof.Proof.PreReal
import proofs.«135332_j83760452207416_1_alg».proof.Proof.KValue
import proofs.«135332_j83760452207416_1_alg».proof.Proof.RefRun
import proofs.«135332_j83760452207416_1_alg».proof.Proof.RefOut
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.RefRun.run m ρ)

/-- Both programs end at one function of arguments that agree: the first at the two layers with the variances as
    moments, the second at the two layers with the variances centred, and on the finite arguments the
    precondition gives the two are equal. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run m' ρ')
  obtain ⟨g0, g1, g2, g3, g4, g5, g6, g7, g8, g9, g10, g11, g12, g13⟩ := hagree c
  rw [g0, g1, g2, g3, g4, g5, g6, g7, g8, g9, g10, g11, g12, g13]
  obtain ⟨h0, h2, h3, h4, h5, h6, h7, h8, h9, h10, h11, h12, h13⟩ := Cert.PreReal.args_real m hpre c
  rw [Cert.ReferenceIdeal.RefOut.out_eq]
  exact (Cert.Layers.out_eq _ _ _ _ _ _ _ _ _ _ _ _ _ _ h0 h2 h3 h4 h5 h6 h7 h8 h9 h10 h11 h12 h13).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
